-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v147)) (v1 : (c : Dev Cert.KernelIdeal.nD) → Buf (Elt Ideal) ((c.tc : Thread Cert.KernelIdeal.nD Cert.KernelIdeal.τ).loc Cert.KernelIdeal.main_v181)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_v181) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v224) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1000000 : Shape := ⟨2, ![2, 1000000]⟩
abbrev S2x131072 : Shape := ⟨2, ![2, 131072]⟩
abbrev S256x128 : Shape := ⟨2, ![256, 128]⟩
abbrev S128 : Shape := ⟨1, ![128]⟩
abbrev S128x128 : Shape := ⟨2, ![128, 128]⟩
abbrev S256x2 : Shape := ⟨2, ![256, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg10 : FVec F S128x128 .f32) (main_arg11 : FVec F S128 .f32) (main_arg12 : FVec F S256x2 .f32) (main_arg13 : FVec F S2 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x2 .f32 := Host.absf main_arg12
  let main_cst_16 : FVec F S_ .f32 := constant S_ .f32 0x7F800000#32
  let main_v45 : FVec F S256x2 .f32 := broadcastInDim S256x2 ![] bcast_S_S256x2 main_cst_16
  let main_v46 : IVec S256x2 1 := cmpf .olt main_v44 main_v45
  let main_c_17 : IVec S_ 1 := constantI S_ 1 1#1
  let main_v47 : IVec S_ 1 := (fun x v => Host.reduce IntOp.andi x v reducesTo_S256x2_S_d0_1 h_S_) main_v46 main_c_17
  let main_v48 : IVec S_ 1 := andi main_v43 main_v47
  let main_v49 : FVec F S2 .f32 := Host.absf main_arg13
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S256x2 .f32) (main_arg13 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S50000x256 .f32) (main_arg1 : IVec S2x1000000 32) (main_arg2 : IVec S2x1000000 32) (main_arg3 : IVec S2x131072 32) (main_arg4 : FVec F S256x128 .f32) (main_arg5 : FVec F S128 .f32) (main_arg6 : FVec F S256x128 .f32) (main_arg7 : FVec F S128 .f32) (main_arg8 : FVec F S128x128 .f32) (main_arg9 : FVec F S128 .f32) (main_arg10 : FVec F S128x128 .f32) (main_arg11 : FVec F S128 .f32) (main_arg12 : FVec F S256x2 .f32) (main_arg13 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg7 main_arg8 main_arg9 main_arg10 main_arg11 main_arg12 main_arg13 main_v13 main_v16
-- ==== Kernel.lean ====
abbrev S50000x256 : Shape := ⟨2, ![50000, 256]⟩
abbrev S2x1000000 : Shape := ⟨2, ![2, 1000000]⟩
abbrev S2x131072 : Shape := ⟨2, ![2, 131072]⟩
abbrev S256x128 : Shape := ⟨2, ![256, 128]⟩
abbrev S128 : Shape := ⟨1, ![128]⟩
abbrev S128x128 : Shape := ⟨2, ![128, 128]⟩
abbrev S256x2 : Shape := ⟨2, ![256, 2]⟩
abbrev S2 : Shape := ⟨1, ![2]⟩
abbrev S50000 : Shape := ⟨1, ![50000]⟩
abbrev S1x1000000 : Shape := ⟨2, ![1, 1000000]⟩
abbrev S1000000 : Shape := ⟨1, ![1000000]⟩
abbrev S1050000 : Shape := ⟨1, ![1050000]⟩
abbrev S_ : Shape := ⟨0, ![]⟩
abbrev S1050000x1 : Shape := ⟨2, ![1050000, 1]⟩
abbrev S256x256 : Shape := ⟨2, ![256, 256]⟩
abbrev S2000x256 : Shape := ⟨2, ![2000, 256]⟩
abbrev S50000x128 : Shape := ⟨2, ![50000, 128]⟩
abbrev S1050000x128 : Shape := ⟨2, ![1050000, 128]⟩
abbrev S1x128 : Shape := ⟨2, ![1, 128]⟩
abbrev S128x256 : Shape := ⟨2, ![128, 256]⟩
abbrev S2000x128 : Shape := ⟨2, ![2000, 128]⟩
abbrev S128x2 : Shape := ⟨2, ![128, 2]⟩
abbrev S128x4 : Shape := ⟨2, ![128, 4]⟩
abbrev S50000x4 : Shape := ⟨2, ![50000, 4]⟩
abbrev S2000x4 : Shape := ⟨2, ![2000, 4]⟩
abbrev S50000x2 : Shape := ⟨2, ![50000, 2]⟩
abbrev S1x131072 : Shape := ⟨2, ![1, 131072]⟩
abbrev S131072 : Shape := ⟨1, ![131072]⟩
abbrev S131072x1 : Shape := ⟨2, ![131072, 1]⟩
abbrev S131072x2 : Shape := ⟨2, ![131072, 2]⟩
abbrev S1x2 : Shape := ⟨2, ![1, 2]⟩

abbrev nBuf : Space → Nat
  | .hbm => 242
  | .vmem => 15
  | .smem => 0
  | _ => 0

abbrev hbmTy0_0 (i : Nat) : BufTy := match i % 128 with
  | 0 => ⟨S50000x256, .f32⟩
  | 1 => ⟨S2x1000000, .i32⟩
  | 2 => ⟨S2x1000000, .i32⟩
  | 3 => ⟨S2x131072, .i32⟩
  | 4 => ⟨S256x128, .f32⟩
  | 5 => ⟨S128, .f32⟩
  | 6 => ⟨S256x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S256x2, .f32⟩
  | 13 => ⟨S2, .f32⟩
  | 14 => ⟨S50000, .i32⟩
  | 15 => ⟨S1x1000000, .i32⟩
  | 16 => ⟨S1000000, .i32⟩
  | 17 => ⟨S1050000, .i32⟩
  | 18 => ⟨S1x1000000, .i32⟩
  | 19 => ⟨S1000000, .i32⟩
  | 20 => ⟨S1050000, .i32⟩
  | 21 => ⟨S_, .f32⟩
  | 22 => ⟨S1050000, .f32⟩
  | 23 => ⟨S_, .f32⟩
  | 24 => ⟨S50000, .f32⟩
  | 25 => ⟨S1050000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S1050000, .i32⟩
  | 37 => ⟨S1050000, .i1⟩
  | 38 => ⟨S_, .i32⟩
  | 39 => ⟨S1050000, .i32⟩
  | 40 => ⟨S1050000, .i32⟩
  | 41 => ⟨S1050000, .i32⟩
  | 42 => ⟨S1050000x1, .i32⟩
  | 43 => ⟨S1050000, .f32⟩
  | 44 => ⟨S_, .i32⟩
  | 45 => ⟨S1050000, .i32⟩
  | 46 => ⟨S1050000, .i1⟩
  | 47 => ⟨S_, .i32⟩
  | 48 => ⟨S1050000, .i32⟩
  | 49 => ⟨S1050000, .i32⟩
  | 50 => ⟨S1050000, .i32⟩
  | 51 => ⟨S1050000x1, .i32⟩
  | 52 => ⟨S1050000, .f32⟩
  | 53 => ⟨S1050000, .f32⟩
  | 54 => ⟨S50000, .i32⟩
  | 55 => ⟨S1x1000000, .i32⟩
  | 56 => ⟨S1000000, .i32⟩
  | 57 => ⟨S1050000, .i32⟩
  | 58 => ⟨S1x1000000, .i32⟩
  | 59 => ⟨S1000000, .i32⟩
  | 60 => ⟨S1050000, .i32⟩
  | 61 => ⟨S_, .f32⟩
  | 62 => ⟨S1050000, .f32⟩
  | 63 => ⟨S_, .f32⟩
  | 64 => ⟨S50000, .f32⟩
  | 65 => ⟨S1050000x1, .i32⟩
  | 66 => ⟨S50000, .f32⟩
  | 67 => ⟨S_, .f32⟩
  | 68 => ⟨S50000, .f32⟩
  | 69 => ⟨S50000, .i1⟩
  | 70 => ⟨S50000, .f32⟩
  | 71 => ⟨S_, .f32⟩
  | 72 => ⟨S_, .f32⟩
  | 73 => ⟨S50000, .f32⟩
  | 74 => ⟨S50000, .f32⟩
  | 75 => ⟨S_, .i32⟩
  | 76 => ⟨S1050000, .i32⟩
  | 77 => ⟨S1050000, .i1⟩
  | 78 => ⟨S_, .i32⟩
  | 79 => ⟨S1050000, .i32⟩
  | 80 => ⟨S1050000, .i32⟩
  | 81 => ⟨S1050000, .i32⟩
  | 82 => ⟨S1050000x1, .i32⟩
  | 83 => ⟨S1050000, .f32⟩
  | 84 => ⟨S_, .i32⟩
  | 85 => ⟨S1050000, .i32⟩
  | 86 => ⟨S1050000, .i1⟩
  | 87 => ⟨S_, .i32⟩
  | 88 => ⟨S1050000, .i32⟩
  | 89 => ⟨S1050000, .i32⟩
  | 90 => ⟨S1050000, .i32⟩
  | 91 => ⟨S1050000x1, .i32⟩
  | 92 => ⟨S1050000, .f32⟩
  | 93 => ⟨S1050000, .f32⟩
  | 94 => ⟨S256x256, .f32⟩
  | 95 => ⟨S_, .f32⟩
  | 96 => ⟨S256x256, .f32⟩
  | 97 => ⟨S256x256, .f32⟩
  | 98 => ⟨S50000x256, .f32⟩
  | 99 => ⟨S50000x128, .f32⟩
  | 100 => ⟨S50000x128, .f32⟩
  | 101 => ⟨S50000x128, .bf16⟩
  | 102 => ⟨S_, .i32⟩
  | 103 => ⟨S1050000, .i32⟩
  | 104 => ⟨S1050000, .i1⟩
  | 105 => ⟨S_, .i32⟩
  | 106 => ⟨S1050000, .i32⟩
  | 107 => ⟨S1050000, .i32⟩
  | 108 => ⟨S1050000, .i32⟩
  | 109 => ⟨S1050000x1, .i32⟩
  | 110 => ⟨S1050000x128, .bf16⟩
  | 111 => ⟨S1050000x128, .f32⟩
  | 112 => ⟨S1050000x1, .f32⟩
  | 113 => ⟨S1050000x128, .f32⟩
  | 114 => ⟨S1050000x128, .f32⟩
  | 115 => ⟨S_, .f32⟩
  | 116 => ⟨S50000x128, .f32⟩
  | 117 => ⟨S1050000x1, .i32⟩
  | 118 => ⟨S50000x128, .f32⟩
  | 119 => ⟨S50000x128, .bf16⟩
  | 120 => ⟨S_, .i32⟩
  | 121 => ⟨S1050000, .i32⟩
  | 122 => ⟨S1050000, .i1⟩
  | 123 => ⟨S_, .i32⟩
  | 124 => ⟨S1050000, .i32⟩
  | 125 => ⟨S1050000, .i32⟩
  | 126 => ⟨S1050000, .i32⟩
  | 127 => ⟨S1050000x1, .i32⟩
  | _ => ⟨S50000x256, .f32⟩

abbrev hbmTy0_1 (i : Nat) : BufTy := match i % 128 with
  | 0 => ⟨S1050000x128, .bf16⟩
  | 1 => ⟨S1050000x128, .f32⟩
  | 2 => ⟨S1050000x1, .f32⟩
  | 3 => ⟨S1050000x128, .f32⟩
  | 4 => ⟨S1050000x128, .f32⟩
  | 5 => ⟨S_, .f32⟩
  | 6 => ⟨S50000x128, .f32⟩
  | 7 => ⟨S1050000x1, .i32⟩
  | 8 => ⟨S50000x128, .f32⟩
  | 9 => ⟨S128, .f32⟩
  | 10 => ⟨S_, .f32⟩
  | 11 => ⟨S128, .f32⟩
  | 12 => ⟨S128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S128x256, .f32⟩
  | 21 => ⟨S_, .f32⟩
  | 22 => ⟨S128x256, .f32⟩
  | 23 => ⟨S128x256, .f32⟩
  | 24 => ⟨S50000x256, .f32⟩
  | 25 => ⟨S50000x128, .f32⟩
  | 26 => ⟨S50000x128, .f32⟩
  | 27 => ⟨S50000x128, .bf16⟩
  | 28 => ⟨S_, .i32⟩
  | 29 => ⟨S1050000, .i32⟩
  | 30 => ⟨S1050000, .i1⟩
  | 31 => ⟨S_, .i32⟩
  | 32 => ⟨S1050000, .i32⟩
  | 33 => ⟨S1050000, .i32⟩
  | 34 => ⟨S1050000, .i32⟩
  | 35 => ⟨S1050000x1, .i32⟩
  | 36 => ⟨S1050000x128, .bf16⟩
  | 37 => ⟨S1050000x128, .f32⟩
  | 38 => ⟨S1050000x1, .f32⟩
  | 39 => ⟨S1050000x128, .f32⟩
  | 40 => ⟨S1050000x128, .f32⟩
  | 41 => ⟨S_, .f32⟩
  | 42 => ⟨S50000x128, .f32⟩
  | 43 => ⟨S1050000x1, .i32⟩
  | 44 => ⟨S50000x128, .f32⟩
  | 45 => ⟨S50000x128, .bf16⟩
  | 46 => ⟨S_, .i32⟩
  | 47 => ⟨S1050000, .i32⟩
  | 48 => ⟨S1050000, .i1⟩
  | 49 => ⟨S_, .i32⟩
  | 50 => ⟨S1050000, .i32⟩
  | 51 => ⟨S1050000, .i32⟩
  | 52 => ⟨S1050000, .i32⟩
  | 53 => ⟨S1050000x1, .i32⟩
  | 54 => ⟨S1050000x128, .bf16⟩
  | 55 => ⟨S1050000x128, .f32⟩
  | 56 => ⟨S1050000x1, .f32⟩
  | 57 => ⟨S1050000x128, .f32⟩
  | 58 => ⟨S1050000x128, .f32⟩
  | 59 => ⟨S_, .f32⟩
  | 60 => ⟨S50000x128, .f32⟩
  | 61 => ⟨S1050000x1, .i32⟩
  | 62 => ⟨S50000x128, .f32⟩
  | 63 => ⟨S128, .f32⟩
  | 64 => ⟨S_, .f32⟩
  | 65 => ⟨S128, .f32⟩
  | 66 => ⟨S128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S128x2, .f32⟩
  | 75 => ⟨S128x2, .f32⟩
  | 76 => ⟨S128x4, .f32⟩
  | 77 => ⟨S50000x4, .f32⟩
  | 78 => ⟨S50000x2, .f32⟩
  | 79 => ⟨S50000x2, .f32⟩
  | 80 => ⟨S1x131072, .i32⟩
  | 81 => ⟨S131072, .i32⟩
  | 82 => ⟨S1x131072, .i32⟩
  | 83 => ⟨S131072, .i32⟩
  | 84 => ⟨S_, .i32⟩
  | 85 => ⟨S131072, .i32⟩
  | 86 => ⟨S131072, .i1⟩
  | 87 => ⟨S_, .i32⟩
  | 88 => ⟨S131072, .i32⟩
  | 89 => ⟨S131072, .i32⟩
  | 90 => ⟨S131072, .i32⟩
  | 91 => ⟨S131072x1, .i32⟩
  | 92 => ⟨S131072x2, .f32⟩
  | 93 => ⟨S_, .i32⟩
  | 94 => ⟨S131072, .i32⟩
  | 95 => ⟨S131072, .i1⟩
  | 96 => ⟨S_, .i32⟩
  | 97 => ⟨S131072, .i32⟩
  | 98 => ⟨S131072, .i32⟩
  | 99 => ⟨S131072, .i32⟩
  | 100 => ⟨S131072x1, .i32⟩
  | 101 => ⟨S131072x2, .f32⟩
  | 102 => ⟨S131072x2, .f32⟩
  | 103 => ⟨S1x2, .f32⟩
  | 104 => ⟨S131072x2, .f32⟩
  | 105 => ⟨S131072x2, .f32⟩
  | 106 => ⟨S131072x2, .f32⟩
  | 107 => ⟨S131072x2, .f32⟩
  | 108 => ⟨S_, .f32⟩
  | 109 => ⟨S131072x2, .f32⟩
  | 110 => ⟨S131072x2, .f32⟩
  | 111 => ⟨S_, .f32⟩
  | 112 => ⟨S131072x2, .f32⟩
  | 113 => ⟨S131072x2, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x128, .f32⟩
  | .local _ .vmem, ⟨6, _⟩ => ⟨S2000x128, .f32⟩
  | .local _ .vmem, ⟨7, _⟩ => ⟨S128x256, .f32⟩
  | .local _ .vmem, ⟨8, _⟩ => ⟨S2000x256, .f32⟩
  | .local _ .vmem, ⟨9, _⟩ => ⟨S2000x256, .f32⟩
  | .local _ .vmem, ⟨10, _⟩ => ⟨S2000x128, .f32⟩
  | .local _ .vmem, ⟨11, _⟩ => ⟨S2000x128, .f32⟩
  | .local _ .vmem, ⟨12, _⟩ => ⟨S128x4, .f32⟩
  | .local _ .vmem, ⟨13, _⟩ => ⟨S2000x4, .f32⟩
  | .local _ .vmem, ⟨14, _⟩ => ⟨S2000x4, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_call1_v0 : Ref sig .tc := ⟨.hbm, 72, rfl⟩
abbrev main_call1_v1 : Ref sig .tc := ⟨.hbm, 73, rfl⟩
abbrev main_v44 : Ref sig .tc := ⟨.hbm, 74, rfl⟩
abbrev main_c_10 : Ref sig .tc := ⟨.hbm, 75, rfl⟩
abbrev main_v45 : Ref sig .tc := ⟨.hbm, 76, rfl⟩
abbrev main_v46 : Ref sig .tc := ⟨.hbm, 77, rfl⟩
abbrev main_c_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_12 : Ref sig .tc := ⟨.hbm, 84, rfl⟩
abbrev main_v52 : Ref sig .tc := ⟨.hbm, 85, rfl⟩
abbrev main_v53 : Ref sig .tc := ⟨.hbm, 86, rfl⟩
abbrev main_c_13 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_14 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_c_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_18 : Ref sig .tc := ⟨.hbm, 120, rfl⟩
abbrev main_v82 : Ref sig .tc := ⟨.hbm, 121, rfl⟩
abbrev main_v83 : Ref sig .tc := ⟨.hbm, 122, rfl⟩
abbrev main_c_19 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_20 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_21 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_call2_cst : Ref sig .tc := ⟨.hbm, 145, rfl⟩
abbrev main_call2_v0 : Ref sig .tc := ⟨.hbm, 146, rfl⟩
abbrev main_v103 : Ref sig .tc := ⟨.hbm, 147, rfl⟩
abbrev main_v104 : Ref sig .tc := ⟨.hbm, 148, rfl⟩
abbrev main_cst_22 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_c_23 : Ref sig .tc := ⟨.hbm, 156, rfl⟩
abbrev main_v111 : Ref sig .tc := ⟨.hbm, 157, rfl⟩
abbrev main_v112 : Ref sig .tc := ⟨.hbm, 158, rfl⟩
abbrev main_c_24 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_25 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_c_26 : Ref sig .tc := ⟨.hbm, 174, rfl⟩
abbrev main_v126 : Ref sig .tc := ⟨.hbm, 175, rfl⟩
abbrev main_v127 : Ref sig .tc := ⟨.hbm, 176, rfl⟩
abbrev main_c_27 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_28 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_cst_29 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_call3_cst : Ref sig .tc := ⟨.hbm, 199, rfl⟩
abbrev main_call3_v0 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_c_30 : Ref sig .tc := ⟨.hbm, 212, rfl⟩
abbrev main_v158 : Ref sig .tc := ⟨.hbm, 213, rfl⟩
abbrev main_v159 : Ref sig .tc := ⟨.hbm, 214, rfl⟩
abbrev main_c_31 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_c_32 : Ref sig .tc := ⟨.hbm, 221, rfl⟩
abbrev main_v165 : Ref sig .tc := ⟨.hbm, 222, rfl⟩
abbrev main_v166 : Ref sig .tc := ⟨.hbm, 223, rfl⟩
abbrev main_c_33 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_cst_34 : Ref sig .tc := ⟨.hbm, 236, rfl⟩
abbrev main_v178 : Ref sig .tc := ⟨.hbm, 237, rfl⟩
abbrev main_v179 : Ref sig .tc := ⟨.hbm, 238, rfl⟩
abbrev main_cst_35 : Ref sig .tc := ⟨.hbm, 239, rfl⟩
abbrev main_v180 : Ref sig .tc := ⟨.hbm, 240, rfl⟩
abbrev main_v181 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S50000_S1050000_d0 : Shape.Concatenates [S1000000, S50000] S1050000 0
  slices_S2x1000000_S1x1000000_1_0 : S2x1000000.Slices ![1, 0] S1x1000000
  bcast_S_S1050000 : S_.BroadcastsInDim S1050000 (![] : Fin 0 → Fin S1050000.rank)
  bcast_S_S50000 : S_.BroadcastsInDim S50000 (![] : Fin 0 → Fin S50000.rank)
  bcast_S1050000_S1050000x1_0 : S1050000.BroadcastsInDim S1050000x1 (![0] : Fin 1 → Fin S1050000x1.rank)
  concatenates_S256x128_S256x128_S256x256_d1 : Shape.Concatenates [S256x128, S256x128] S256x256 1
  bcast_S_S256x256 : S_.BroadcastsInDim S256x256 (![] : Fin 0 → Fin S256x256.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S50000x256_S50000x128_0_0 : S50000x256.Slices ![0, 0] S50000x128
  slices_S50000x256_S50000x128_0_128 : S50000x256.Slices ![0, 128] S50000x128
  bcast_S1050000x1_S1050000x128_0_1 : S1050000x1.BroadcastsInDim S1050000x128 (![0, 1] : Fin 2 → Fin S1050000x128.rank)
  bcast_S_S50000x128 : S_.BroadcastsInDim S50000x128 (![] : Fin 0 → Fin S50000x128.rank)
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S128x128_S128x128_S128x256_d1 : Shape.Concatenates [S128x128, S128x128] S128x256 1
  bcast_S_S128x256 : S_.BroadcastsInDim S128x256 (![] : Fin 0 → Fin S128x256.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S256x2_S128x2_0_0 : S256x2.Slices ![0, 0] S128x2
  slices_S256x2_S128x2_128_0 : S256x2.Slices ![128, 0] S128x2
  concatenates_S128x2_S128x2_S128x4_d1 : Shape.Concatenates [S128x2, S128x2] S128x4 1
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S2000x4_S2000x4_0_0 : ∀ a, (![0, 0] : Fin 2 → Nat) a + S2000x4.size a ≤ S2000x4.size a
  h_S2000x4 : 0 < S2000x4.numel
  slices_S50000x4_S50000x2_0_0 : S50000x4.Slices ![0, 0] S50000x2
  slices_S50000x4_S50000x2_0_2 : S50000x4.Slices ![0, 2] S50000x2
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S_S131072x2 : S_.BroadcastsInDim S131072x2 (![] : Fin 0 → Fin S131072x2.rank)
  scatter_S50000_S1050000x1_S1050000_n_0_0_1_wf : ScatterDims.WF S50000 S1050000x1 S1050000 [] [0] [0] 1
  gather_S50000_S1050000x1_S1050000_n_0_n_n_0_1_1_wf : GatherDims.WF S50000 S1050000x1 S1050000 [] [0] [] [0] [] 1 ![1]
  dot_S2000x256_S256x256_S2000x256_1_0_0_1_n_n_wf : DotDims.WF S2000x256 S256x256 S2000x256 [1] [0] [0] [1] [] []
  gather_S50000x128_S1050000x1_S1050000x128_1_0_n_n_0_1_1128_wf : GatherDims.WF S50000x128 S1050000x1 S1050000x128 [1] [0] [] [0] [] 1 ![1, 128]
  scatter_S50000x128_S1050000x1_S1050000x128_1_0_0_1_wf : ScatterDims.WF S50000x128 S1050000x1 S1050000x128 [1] [0] [0] 1
  dot_S2000x128_S128x256_S2000x256_1_0_0_1_n_n_wf : DotDims.WF S2000x128 S128x256 S2000x256 [1] [0] [0] [1] [] []
  dot_S2000x128_S128x4_S2000x4_1_0_0_1_n_n_wf : DotDims.WF S2000x128 S128x4 S2000x4 [1] [0] [0] [1] [] []
  gather_S50000x2_S131072x1_S131072x2_1_0_n_n_0_1_12_wf : GatherDims.WF S50000x2 S131072x1 S131072x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x4.size a ≤ S128x4.size a
  hwx2_1 : ∀ i : grid2.Coords, EltTy.bits .f32 = 32 ∨ (Rect.block (s := S128x4) S128x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x4.size a ≤ S50000x4.size a
  hwx2_2 : ∀ i : grid2.Coords, EltTy.bits .f32 = 32 ∨ (Rect.block (s := S50000x4) S2000x4.size (cc2_transform_2 i) (hinb2_2 i)).WholeWords (EltTy.packing .f32)

variable [Facts₀]

def scatter_S50000_S1050000x1_S1050000_n_0_0_1 : ScatterDims S50000 S1050000x1 S1050000 where
  updateWindowDims := []
  insertedWindowDims := [0]
  scatterDimsToOperandDims := [0]
  indexVectorDim := 1
  wf := scatter_S50000_S1050000x1_S1050000_n_0_0_1_wf
def gather_S50000_S1050000x1_S1050000_n_0_n_n_0_1_1 : GatherDims S50000 S1050000x1 S1050000 where
  offsetDims := []
  collapsedSliceDims := [0]
  operandBatchingDims := []
  startIndicesBatchingDims := []
  startIndexMap := [0]
  indexVectorDim := 1
  sliceSizes := ![1]
  wf := gather_S50000_S1050000x1_S1050000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x128_S1050000x1_S1050000x128_1_0_n_n_0_1_1128 : GatherDims S50000x128 S1050000x1 S1050000x128 where
  offsetDims := [1]
  collapsedSliceDims := [0]
  operandBatchingDims := []
  startIndicesBatchingDims := []
  startIndexMap := [0]
  indexVectorDim := 1
  sliceSizes := ![1, 128]
  wf := gather_S50000x128_S1050000x1_S1050000x128_1_0_n_n_0_1_1128_wf
def scatter_S50000x128_S1050000x1_S1050000x128_1_0_0_1 : ScatterDims S50000x128 S1050000x1 S1050000x128 where
  updateWindowDims := [1]
  insertedWindowDims := [0]
  scatterDimsToOperandDims := [0]
  indexVectorDim := 1
  wf := scatter_S50000x128_S1050000x1_S1050000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x128_S128x4_S2000x4_1_0_0_1_n_n : DotDims S2000x128 S128x4 S2000x4 where
  lhsContracting := [1]
  rhsContracting := [0]
  lhsNonContracting := [0]
  rhsNonContracting := [1]
  lhsBatch := []
  rhsBatch := []
  wf := dot_S2000x128_S128x4_S2000x4_1_0_0_1_n_n_wf
def gather_S50000x2_S131072x1_S131072x2_1_0_n_n_0_1_12 : GatherDims S50000x2 S131072x1 S131072x2 where
  offsetDims := [1]
  collapsedSliceDims := [0]
  operandBatchingDims := []
  startIndicesBatchingDims := []
  startIndexMap := [0]
  indexVectorDim := 1
  sliceSizes := ![1, 2]
  wf := gather_S50000x2_S131072x1_S131072x2_1_0_n_n_0_1_12_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v62) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v63) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v103) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v106) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v107) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v147) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v150) S128x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v151) S2000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x1000000 : Shape := ⟨2, ![2, 1000000]⟩
abbrev S2x131072 : Shape := ⟨2, ![2, 131072]⟩
abbrev S256x128 : Shape := ⟨2, ![256, 128]⟩
abbrev S128 : Shape := ⟨1, ![128]⟩
abbrev S128x128 : Shape := ⟨2, ![128, 128]⟩
abbrev S256x2 : Shape := ⟨2, ![256, 2]⟩
abbrev S2 : Shape := ⟨1, ![2]⟩
abbrev S50000 : Shape := ⟨1, ![50000]⟩
abbrev S1x1000000 : Shape := ⟨2, ![1, 1000000]⟩
abbrev S1000000 : Shape := ⟨1, ![1000000]⟩
abbrev S1050000 : Shape := ⟨1, ![1050000]⟩
abbrev S_ : Shape := ⟨0, ![]⟩
abbrev S1050000x1 : Shape := ⟨2, ![1050000, 1]⟩
abbrev S50000x128 : Shape := ⟨2, ![50000, 128]⟩
abbrev S1050000x128 : Shape := ⟨2, ![1050000, 128]⟩
abbrev S1x128 : Shape := ⟨2, ![1, 128]⟩
abbrev S1x131072 : Shape := ⟨2, ![1, 131072]⟩
abbrev S131072 : Shape := ⟨1, ![131072]⟩
abbrev S131072x1 : Shape := ⟨2, ![131072, 1]⟩
abbrev S131072x128 : Shape := ⟨2, ![131072, 128]⟩
abbrev S131072x256 : Shape := ⟨2, ![131072, 256]⟩
abbrev S131072x2 : Shape := ⟨2, ![131072, 2]⟩
abbrev S1x2 : Shape := ⟨2, ![1, 2]⟩

abbrev nBuf : Space → Nat
  | .hbm => 303
  | .vmem => 0
  | .smem => 0
  | _ => 0

abbrev hbmTy0_0 (i : Nat) : BufTy := match i % 128 with
  | 0 => ⟨S50000x256, .f32⟩
  | 1 => ⟨S2x1000000, .i32⟩
  | 2 => ⟨S2x1000000, .i32⟩
  | 3 => ⟨S2x131072, .i32⟩
  | 4 => ⟨S256x128, .f32⟩
  | 5 => ⟨S128, .f32⟩
  | 6 => ⟨S256x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S256x2, .f32⟩
  | 13 => ⟨S2, .f32⟩
  | 14 => ⟨S50000, .i32⟩
  | 15 => ⟨S1x1000000, .i32⟩
  | 16 => ⟨S1000000, .i32⟩
  | 17 => ⟨S1050000, .i32⟩
  | 18 => ⟨S1x1000000, .i32⟩
  | 19 => ⟨S1000000, .i32⟩
  | 20 => ⟨S1050000, .i32⟩
  | 21 => ⟨S_, .f32⟩
  | 22 => ⟨S1050000, .f32⟩
  | 23 => ⟨S_, .f32⟩
  | 24 => ⟨S50000, .f32⟩
  | 25 => ⟨S1050000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S1050000, .i32⟩
  | 37 => ⟨S1050000, .i1⟩
  | 38 => ⟨S_, .i32⟩
  | 39 => ⟨S1050000, .i32⟩
  | 40 => ⟨S1050000, .i32⟩
  | 41 => ⟨S1050000, .i32⟩
  | 42 => ⟨S1050000x1, .i32⟩
  | 43 => ⟨S1050000, .f32⟩
  | 44 => ⟨S_, .i32⟩
  | 45 => ⟨S1050000, .i32⟩
  | 46 => ⟨S1050000, .i1⟩
  | 47 => ⟨S_, .i32⟩
  | 48 => ⟨S1050000, .i32⟩
  | 49 => ⟨S1050000, .i32⟩
  | 50 => ⟨S1050000, .i32⟩
  | 51 => ⟨S1050000x1, .i32⟩
  | 52 => ⟨S1050000, .f32⟩
  | 53 => ⟨S1050000, .f32⟩
  | 54 => ⟨S50000x128, .f32⟩
  | 55 => ⟨S_, .i32⟩
  | 56 => ⟨S1050000, .i32⟩
  | 57 => ⟨S1050000, .i1⟩
  | 58 => ⟨S_, .i32⟩
  | 59 => ⟨S1050000, .i32⟩
  | 60 => ⟨S1050000, .i32⟩
  | 61 => ⟨S1050000, .i32⟩
  | 62 => ⟨S1050000x1, .i32⟩
  | 63 => ⟨S1050000x128, .f32⟩
  | 64 => ⟨S1050000x1, .f32⟩
  | 65 => ⟨S1050000x128, .f32⟩
  | 66 => ⟨S1050000x128, .f32⟩
  | 67 => ⟨S_, .f32⟩
  | 68 => ⟨S50000x128, .f32⟩
  | 69 => ⟨S1050000x1, .i32⟩
  | 70 => ⟨S50000x128, .f32⟩
  | 71 => ⟨S1x128, .f32⟩
  | 72 => ⟨S50000x128, .f32⟩
  | 73 => ⟨S50000x128, .f32⟩
  | 74 => ⟨S50000, .i32⟩
  | 75 => ⟨S1x1000000, .i32⟩
  | 76 => ⟨S1000000, .i32⟩
  | 77 => ⟨S1050000, .i32⟩
  | 78 => ⟨S1x1000000, .i32⟩
  | 79 => ⟨S1000000, .i32⟩
  | 80 => ⟨S1050000, .i32⟩
  | 81 => ⟨S_, .f32⟩
  | 82 => ⟨S1050000, .f32⟩
  | 83 => ⟨S_, .f32⟩
  | 84 => ⟨S50000, .f32⟩
  | 85 => ⟨S1050000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S1050000, .i32⟩
  | 97 => ⟨S1050000, .i1⟩
  | 98 => ⟨S_, .i32⟩
  | 99 => ⟨S1050000, .i32⟩
  | 100 => ⟨S1050000, .i32⟩
  | 101 => ⟨S1050000, .i32⟩
  | 102 => ⟨S1050000x1, .i32⟩
  | 103 => ⟨S1050000, .f32⟩
  | 104 => ⟨S_, .i32⟩
  | 105 => ⟨S1050000, .i32⟩
  | 106 => ⟨S1050000, .i1⟩
  | 107 => ⟨S_, .i32⟩
  | 108 => ⟨S1050000, .i32⟩
  | 109 => ⟨S1050000, .i32⟩
  | 110 => ⟨S1050000, .i32⟩
  | 111 => ⟨S1050000x1, .i32⟩
  | 112 => ⟨S1050000, .f32⟩
  | 113 => ⟨S1050000, .f32⟩
  | 114 => ⟨S50000x128, .f32⟩
  | 115 => ⟨S_, .i32⟩
  | 116 => ⟨S1050000, .i32⟩
  | 117 => ⟨S1050000, .i1⟩
  | 118 => ⟨S_, .i32⟩
  | 119 => ⟨S1050000, .i32⟩
  | 120 => ⟨S1050000, .i32⟩
  | 121 => ⟨S1050000, .i32⟩
  | 122 => ⟨S1050000x1, .i32⟩
  | 123 => ⟨S1050000x128, .f32⟩
  | 124 => ⟨S1050000x1, .f32⟩
  | 125 => ⟨S1050000x128, .f32⟩
  | 126 => ⟨S1050000x128, .f32⟩
  | 127 => ⟨S_, .f32⟩
  | _ => ⟨S50000x256, .f32⟩

abbrev hbmTy0_1 (i : Nat) : BufTy := match i % 128 with
  | 0 => ⟨S50000x128, .f32⟩
  | 1 => ⟨S1050000x1, .i32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000, .i32⟩
  | 14 => ⟨S1x1000000, .i32⟩
  | 15 => ⟨S1000000, .i32⟩
  | 16 => ⟨S1050000, .i32⟩
  | 17 => ⟨S1x1000000, .i32⟩
  | 18 => ⟨S1000000, .i32⟩
  | 19 => ⟨S1050000, .i32⟩
  | 20 => ⟨S_, .f32⟩
  | 21 => ⟨S1050000, .f32⟩
  | 22 => ⟨S_, .f32⟩
  | 23 => ⟨S50000, .f32⟩
  | 24 => ⟨S1050000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S1050000, .i32⟩
  | 36 => ⟨S1050000, .i1⟩
  | 37 => ⟨S_, .i32⟩
  | 38 => ⟨S1050000, .i32⟩
  | 39 => ⟨S1050000, .i32⟩
  | 40 => ⟨S1050000, .i32⟩
  | 41 => ⟨S1050000x1, .i32⟩
  | 42 => ⟨S1050000, .f32⟩
  | 43 => ⟨S_, .i32⟩
  | 44 => ⟨S1050000, .i32⟩
  | 45 => ⟨S1050000, .i1⟩
  | 46 => ⟨S_, .i32⟩
  | 47 => ⟨S1050000, .i32⟩
  | 48 => ⟨S1050000, .i32⟩
  | 49 => ⟨S1050000, .i32⟩
  | 50 => ⟨S1050000x1, .i32⟩
  | 51 => ⟨S1050000, .f32⟩
  | 52 => ⟨S1050000, .f32⟩
  | 53 => ⟨S50000x128, .f32⟩
  | 54 => ⟨S_, .i32⟩
  | 55 => ⟨S1050000, .i32⟩
  | 56 => ⟨S1050000, .i1⟩
  | 57 => ⟨S_, .i32⟩
  | 58 => ⟨S1050000, .i32⟩
  | 59 => ⟨S1050000, .i32⟩
  | 60 => ⟨S1050000, .i32⟩
  | 61 => ⟨S1050000x1, .i32⟩
  | 62 => ⟨S1050000x128, .f32⟩
  | 63 => ⟨S1050000x1, .f32⟩
  | 64 => ⟨S1050000x128, .f32⟩
  | 65 => ⟨S1050000x128, .f32⟩
  | 66 => ⟨S_, .f32⟩
  | 67 => ⟨S50000x128, .f32⟩
  | 68 => ⟨S1050000x1, .i32⟩
  | 69 => ⟨S50000x128, .f32⟩
  | 70 => ⟨S1x128, .f32⟩
  | 71 => ⟨S50000x128, .f32⟩
  | 72 => ⟨S50000x128, .f32⟩
  | 73 => ⟨S50000, .i32⟩
  | 74 => ⟨S1x1000000, .i32⟩
  | 75 => ⟨S1000000, .i32⟩
  | 76 => ⟨S1050000, .i32⟩
  | 77 => ⟨S1x1000000, .i32⟩
  | 78 => ⟨S1000000, .i32⟩
  | 79 => ⟨S1050000, .i32⟩
  | 80 => ⟨S_, .f32⟩
  | 81 => ⟨S1050000, .f32⟩
  | 82 => ⟨S_, .f32⟩
  | 83 => ⟨S50000, .f32⟩
  | 84 => ⟨S1050000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S1050000, .i32⟩
  | 96 => ⟨S1050000, .i1⟩
  | 97 => ⟨S_, .i32⟩
  | 98 => ⟨S1050000, .i32⟩
  | 99 => ⟨S1050000, .i32⟩
  | 100 => ⟨S1050000, .i32⟩
  | 101 => ⟨S1050000x1, .i32⟩
  | 102 => ⟨S1050000, .f32⟩
  | 103 => ⟨S_, .i32⟩
  | 104 => ⟨S1050000, .i32⟩
  | 105 => ⟨S1050000, .i1⟩
  | 106 => ⟨S_, .i32⟩
  | 107 => ⟨S1050000, .i32⟩
  | 108 => ⟨S1050000, .i32⟩
  | 109 => ⟨S1050000, .i32⟩
  | 110 => ⟨S1050000x1, .i32⟩
  | 111 => ⟨S1050000, .f32⟩
  | 112 => ⟨S1050000, .f32⟩
  | 113 => ⟨S50000x128, .f32⟩
  | 114 => ⟨S_, .i32⟩
  | 115 => ⟨S1050000, .i32⟩
  | 116 => ⟨S1050000, .i1⟩
  | 117 => ⟨S_, .i32⟩
  | 118 => ⟨S1050000, .i32⟩
  | 119 => ⟨S1050000, .i32⟩
  | 120 => ⟨S1050000, .i32⟩
  | 121 => ⟨S1050000x1, .i32⟩
  | 122 => ⟨S1050000x128, .f32⟩
  | 123 => ⟨S1050000x1, .f32⟩
  | 124 => ⟨S1050000x128, .f32⟩
  | 125 => ⟨S1050000x128, .f32⟩
  | 126 => ⟨S_, .f32⟩
  | 127 => ⟨S50000x128, .f32⟩
  | _ => ⟨S50000x256, .f32⟩

abbrev hbmTy0_2 (i : Nat) : BufTy := match i % 128 with
  | 0 => ⟨S1050000x1, .i32⟩
  | 1 => ⟨S50000x128, .f32⟩
  | 2 => ⟨S1x128, .f32⟩
  | 3 => ⟨S50000x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S1x131072, .i32⟩
  | 13 => ⟨S131072, .i32⟩
  | 14 => ⟨S1x131072, .i32⟩
  | 15 => ⟨S131072, .i32⟩
  | 16 => ⟨S_, .i32⟩
  | 17 => ⟨S131072, .i32⟩
  | 18 => ⟨S131072, .i1⟩
  | 19 => ⟨S_, .i32⟩
  | 20 => ⟨S131072, .i32⟩
  | 21 => ⟨S131072, .i32⟩
  | 22 => ⟨S131072, .i32⟩
  | 23 => ⟨S131072x1, .i32⟩
  | 24 => ⟨S131072x128, .f32⟩
  | 25 => ⟨S_, .i32⟩
  | 26 => ⟨S131072, .i32⟩
  | 27 => ⟨S131072, .i1⟩
  | 28 => ⟨S_, .i32⟩
  | 29 => ⟨S131072, .i32⟩
  | 30 => ⟨S131072, .i32⟩
  | 31 => ⟨S131072, .i32⟩
  | 32 => ⟨S131072x1, .i32⟩
  | 33 => ⟨S131072x128, .f32⟩
  | 34 => ⟨S131072x256, .f32⟩
  | 35 => ⟨S131072x2, .f32⟩
  | 36 => ⟨S1x2, .f32⟩
  | 37 => ⟨S131072x2, .f32⟩
  | 38 => ⟨S131072x2, .f32⟩
  | 39 => ⟨S131072x2, .f32⟩
  | 40 => ⟨S131072x2, .f32⟩
  | 41 => ⟨S_, .f32⟩
  | 42 => ⟨S131072x2, .f32⟩
  | 43 => ⟨S131072x2, .f32⟩
  | 44 => ⟨S_, .f32⟩
  | 45 => ⟨S131072x2, .f32⟩
  | 46 => ⟨S131072x2, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_call1_v0 : Ref sig .tc := ⟨.hbm, 92, rfl⟩
abbrev main_call1_v1 : Ref sig .tc := ⟨.hbm, 93, rfl⟩
abbrev main_v61 : Ref sig .tc := ⟨.hbm, 94, rfl⟩
abbrev main_c_13 : Ref sig .tc := ⟨.hbm, 95, rfl⟩
abbrev main_v62 : Ref sig .tc := ⟨.hbm, 96, rfl⟩
abbrev main_v63 : Ref sig .tc := ⟨.hbm, 97, rfl⟩
abbrev main_c_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_15 : Ref sig .tc := ⟨.hbm, 104, rfl⟩
abbrev main_v69 : Ref sig .tc := ⟨.hbm, 105, rfl⟩
abbrev main_v70 : Ref sig .tc := ⟨.hbm, 106, rfl⟩
abbrev main_c_16 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_17 : Ref sig .tc := ⟨.hbm, 115, rfl⟩
abbrev main_v78 : Ref sig .tc := ⟨.hbm, 116, rfl⟩
abbrev main_v79 : Ref sig .tc := ⟨.hbm, 117, rfl⟩
abbrev main_c_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_20 : Ref sig .tc := ⟨.hbm, 135, rfl⟩
abbrev main_v95 : Ref sig .tc := ⟨.hbm, 136, rfl⟩
abbrev main_v96 : Ref sig .tc := ⟨.hbm, 137, rfl⟩
abbrev main_call2_cst : Ref sig .tc := ⟨.hbm, 138, rfl⟩
abbrev main_call2_v0 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_21 : Ref sig .tc := ⟨.hbm, 148, rfl⟩
abbrev main_v105 : Ref sig .tc := ⟨.hbm, 149, rfl⟩
abbrev main_cst_22 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_23 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_24 : Ref sig .tc := ⟨.hbm, 158, rfl⟩
abbrev main_call3_v0 : Ref sig .tc := ⟨.hbm, 159, rfl⟩
abbrev main_call3_v1 : Ref sig .tc := ⟨.hbm, 160, rfl⟩
abbrev main_v112 : Ref sig .tc := ⟨.hbm, 161, rfl⟩
abbrev main_c_25 : Ref sig .tc := ⟨.hbm, 162, rfl⟩
abbrev main_v113 : Ref sig .tc := ⟨.hbm, 163, rfl⟩
abbrev main_v114 : Ref sig .tc := ⟨.hbm, 164, rfl⟩
abbrev main_c_26 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_c_27 : Ref sig .tc := ⟨.hbm, 171, rfl⟩
abbrev main_v120 : Ref sig .tc := ⟨.hbm, 172, rfl⟩
abbrev main_v121 : Ref sig .tc := ⟨.hbm, 173, rfl⟩
abbrev main_c_28 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_c_29 : Ref sig .tc := ⟨.hbm, 182, rfl⟩
abbrev main_v129 : Ref sig .tc := ⟨.hbm, 183, rfl⟩
abbrev main_v130 : Ref sig .tc := ⟨.hbm, 184, rfl⟩
abbrev main_c_30 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_cst_31 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_cst_32 : Ref sig .tc := ⟨.hbm, 208, rfl⟩
abbrev main_v152 : Ref sig .tc := ⟨.hbm, 209, rfl⟩
abbrev main_cst_33 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_34 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_35 : Ref sig .tc := ⟨.hbm, 218, rfl⟩
abbrev main_call4_v0 : Ref sig .tc := ⟨.hbm, 219, rfl⟩
abbrev main_call4_v1 : Ref sig .tc := ⟨.hbm, 220, rfl⟩
abbrev main_v159 : Ref sig .tc := ⟨.hbm, 221, rfl⟩
abbrev main_c_36 : Ref sig .tc := ⟨.hbm, 222, rfl⟩
abbrev main_v160 : Ref sig .tc := ⟨.hbm, 223, rfl⟩
abbrev main_v161 : Ref sig .tc := ⟨.hbm, 224, rfl⟩
abbrev main_c_37 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_c_38 : Ref sig .tc := ⟨.hbm, 231, rfl⟩
abbrev main_v167 : Ref sig .tc := ⟨.hbm, 232, rfl⟩
abbrev main_v168 : Ref sig .tc := ⟨.hbm, 233, rfl⟩
abbrev main_c_39 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_c_40 : Ref sig .tc := ⟨.hbm, 242, rfl⟩
abbrev main_v176 : Ref sig .tc := ⟨.hbm, 243, rfl⟩
abbrev main_v177 : Ref sig .tc := ⟨.hbm, 244, rfl⟩
abbrev main_c_41 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_cst_42 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_cst_43 : Ref sig .tc := ⟨.hbm, 262, rfl⟩
abbrev main_v193 : Ref sig .tc := ⟨.hbm, 263, rfl⟩
abbrev main_v194 : Ref sig .tc := ⟨.hbm, 264, rfl⟩
abbrev main_call5_cst : Ref sig .tc := ⟨.hbm, 265, rfl⟩
abbrev main_call5_v0 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_c_44 : Ref sig .tc := ⟨.hbm, 272, rfl⟩
abbrev main_v200 : Ref sig .tc := ⟨.hbm, 273, rfl⟩
abbrev main_v201 : Ref sig .tc := ⟨.hbm, 274, rfl⟩
abbrev main_c_45 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_c_46 : Ref sig .tc := ⟨.hbm, 281, rfl⟩
abbrev main_v207 : Ref sig .tc := ⟨.hbm, 282, rfl⟩
abbrev main_v208 : Ref sig .tc := ⟨.hbm, 283, rfl⟩
abbrev main_c_47 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_cst_48 : Ref sig .tc := ⟨.hbm, 297, rfl⟩
abbrev main_v221 : Ref sig .tc := ⟨.hbm, 298, rfl⟩
abbrev main_v222 : Ref sig .tc := ⟨.hbm, 299, rfl⟩
abbrev main_cst_49 : Ref sig .tc := ⟨.hbm, 300, rfl⟩
abbrev main_v223 : Ref sig .tc := ⟨.hbm, 301, rfl⟩
abbrev main_v224 : Ref sig .tc := ⟨.hbm, 302, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S50000_S1050000_d0 : Shape.Concatenates [S1000000, S50000] S1050000 0
  slices_S2x1000000_S1x1000000_1_0 : S2x1000000.Slices ![1, 0] S1x1000000
  bcast_S_S1050000 : S_.BroadcastsInDim S1050000 (![] : Fin 0 → Fin S1050000.rank)
  bcast_S_S50000 : S_.BroadcastsInDim S50000 (![] : Fin 0 → Fin S50000.rank)
  bcast_S1050000_S1050000x1_0 : S1050000.BroadcastsInDim S1050000x1 (![0] : Fin 1 → Fin S1050000x1.rank)
  bcast_S1050000x1_S1050000x128_0_1 : S1050000x1.BroadcastsInDim S1050000x128 (![0, 1] : Fin 2 → Fin S1050000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x128_S131072x128_S131072x256_d1 : Shape.Concatenates [S131072x128, S131072x128] S131072x256 1
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S_S131072x2 : S_.BroadcastsInDim S131072x2 (![] : Fin 0 → Fin S131072x2.rank)
  scatter_S50000_S1050000x1_S1050000_n_0_0_1_wf : ScatterDims.WF S50000 S1050000x1 S1050000 [] [0] [0] 1
  gather_S50000_S1050000x1_S1050000_n_0_n_n_0_1_1_wf : GatherDims.WF S50000 S1050000x1 S1050000 [] [0] [] [0] [] 1 ![1]
  dot_S50000x256_S256x128_S50000x128_1_0_0_1_n_n_wf : DotDims.WF S50000x256 S256x128 S50000x128 [1] [0] [0] [1] [] []
  gather_S50000x128_S1050000x1_S1050000x128_1_0_n_n_0_1_1128_wf : GatherDims.WF S50000x128 S1050000x1 S1050000x128 [1] [0] [] [0] [] 1 ![1, 128]
  scatter_S50000x128_S1050000x1_S1050000x128_1_0_0_1_wf : ScatterDims.WF S50000x128 S1050000x1 S1050000x128 [1] [0] [0] 1
  dot_S50000x128_S128x128_S50000x128_1_0_0_1_n_n_wf : DotDims.WF S50000x128 S128x128 S50000x128 [1] [0] [0] [1] [] []
  gather_S50000x128_S131072x1_S131072x128_1_0_n_n_0_1_1128_wf : GatherDims.WF S50000x128 S131072x1 S131072x128 [1] [0] [] [0] [] 1 ![1, 128]
  dot_S131072x256_S256x2_S131072x2_1_0_0_1_n_n_wf : DotDims.WF S131072x256 S256x2 S131072x2 [1] [0] [0] [1] [] []

variable [Facts₀]

def scatter_S50000_S1050000x1_S1050000_n_0_0_1 : ScatterDims S50000 S1050000x1 S1050000 where
  updateWindowDims := []
  insertedWindowDims := [0]
  scatterDimsToOperandDims := [0]
  indexVectorDim := 1
  wf := scatter_S50000_S1050000x1_S1050000_n_0_0_1_wf
def gather_S50000_S1050000x1_S1050000_n_0_n_n_0_1_1 : GatherDims S50000 S1050000x1 S1050000 where
  offsetDims := []
  collapsedSliceDims := [0]
  operandBatchingDims := []
  startIndicesBatchingDims := []
  startIndexMap := [0]
  indexVectorDim := 1
  sliceSizes := ![1]
  wf := gather_S50000_S1050000x1_S1050000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1050000x1_S1050000x128_1_0_n_n_0_1_1128 : GatherDims S50000x128 S1050000x1 S1050000x128 where
  offsetDims := [1]
  collapsedSliceDims := [0]
  operandBatchingDims := []
  startIndicesBatchingDims := []
  startIndexMap := [0]
  indexVectorDim := 1
  sliceSizes := ![1, 128]
  wf := gather_S50000x128_S1050000x1_S1050000x128_1_0_n_n_0_1_1128_wf
def scatter_S50000x128_S1050000x1_S1050000x128_1_0_0_1 : ScatterDims S50000x128 S1050000x1 S1050000x128 where
  updateWindowDims := [1]
  insertedWindowDims := [0]
  scatterDimsToOperandDims := [0]
  indexVectorDim := 1
  wf := scatter_S50000x128_S1050000x1_S1050000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S131072x1_S131072x128_1_0_n_n_0_1_1128 : GatherDims S50000x128 S131072x1 S131072x128 where
  offsetDims := [1]
  collapsedSliceDims := [0]
  operandBatchingDims := []
  startIndicesBatchingDims := []
  startIndexMap := [0]
  indexVectorDim := 1
  sliceSizes := ![1, 128]
  wf := gather_S50000x128_S131072x1_S131072x128_1_0_n_n_0_1_1128_wf
def dot_S131072x256_S256x2_S131072x2_1_0_0_1_n_n : DotDims S131072x256 S256x2 S131072x2 where
  lhsContracting := [1]
  rhsContracting := [0]
  lhsNonContracting := [0]
  rhsNonContracting := [1]
  lhsBatch := []
  rhsBatch := []
  wf := dot_S131072x256_S256x2_S131072x2_1_0_0_1_n_n_wf

class Facts : Prop extends Facts₀ where

variable [Facts]
-- ==== Proof.KernelRun.lean ====
/-
  The kernel program's run with its two results named.

  Every weakly fair execution of the kernel's @main terminates, faults nowhere, leaves the fourteen argument arrays as
  launched, and leaves each result buffer at the contents the LAST segment boundary assigns to it: @main is a chain of
  fifteen segments (twelve stretches of host operations and three pipelined matrix products), the contents of every
  buffer at every boundary are a fold from the launch memory (`Gen.W0` … `Gen.W15`), and the final state agrees with
  `Gen.W15` on every buffer that lives for the whole program. The frame claim reads that agreement at the argument
  buffers; here it is read at the node embeddings (`main_v147`) and the pair probabilities (`main_v181`) as well.
-/
import proofs.«116640_j87351044866138_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The run, with the two results at the last boundary's contents and the arguments as launched. -/
theorem run_named : θ_run defs (onTc (τ := τ) (main (F := F))) ⟨m, fun _ => 0, ρ⟩ (fun r => ∀ c : Dev nD,
      r.2.mem ((c.tc : Thread nD τ).loc main_v147) = W15 m ρ c (Proc.devRef .tc main_v147)
      ∧ r.2.mem ((c.tc : Thread nD τ).loc main_v181) = W15 m ρ c (Proc.devRef .tc main_v181)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v147 (by decide)),
       h c _ (mem_uc main_v181 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c)⟩)

end Cert.KernelIdeal.Gen

end
-- ==== Proof.Spec.lean ====
/-
  The shared vocabulary of the two programs, as functions on the extended reals.

  * `half` is the one float literal the programs differ by the placing of: the reference halves the sum of the
    two relations' convolutions, the kernel halves the weights and the bias sum beforehand.
  * `mm` is a whole matrix product written as the textbook sum: entry (n, j) is the sum over k of
    x (n, k) · w (k, j).
  * `agg` is one relation's message passing with the dense map left out: every edge e takes the row of H that
    its source index names, weights it by N e, and adds it into the row its target index names; the result starts
    from zero.
-/
import Idealize.ShloMosaic.PureOps.Ideal
import Idealize.ShloMosaic.PureOps.Ideal.Laws
import Idealize.ShloMosaic.Lib.ValueIdx

noncomputable section

namespace Cert.Hgcn

open Idealize.ShloMosaic Idealize.ShloMosaic.ValueIdx

/-- One half, as both programs spell it: the f32 word 0x3F000000 read at the ideal instance. -/
def half : EReal := Ideal.ofBits .f32 0x3F000000#32

/-- The whole product of an M×K by a K×N matrix: entry (n, j) is the sum over k of x (n, k) · w (k, j). -/
def mm (M K N : Nat) (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- One relation's aggregation from zero: the sum, over the edges whose target lands on an entry, of the gathered
    source entry times the edge's weight. -/
def agg {sn si se : Shape} {w : Nat} (gd : GatherDims sn si se) (sd : ScatterDims sn si se)
    (H : sn.Idx → EReal) (ri ci : IVec si w) (N : se.Idx → EReal) : sn.Idx → EReal :=
  Ideal.hostScatterAdd sd (fun _ => 0) ci (fun j => H (gd.operandIdx j ri) * N j)

end Cert.Hgcn

end
-- ==== Proof.Region0.lean ====
/-
  Region 0 of the kernel program is one whole matrix product.

  The region's grid has 25 points. Point t takes rows 2000·t … 2000·t + 1999 of the left operand (a 2000×256 block),
  the whole 256×256 right operand, multiplies the two into an accumulator that starts at zero, and writes the 2000×256
  product back as rows 2000·t … 2000·t + 1999 of the result. An entry (r, j) of the result therefore depends on row r
  of the left operand and column j of the right operand only: it is the sum over k of left (r, k) · right (k, j),
  whichever point wrote it, and every row r is written, by point r / 2000. So the result array after the region is
  the textbook product `Cert.Hgcn.mm 50000 256 256` of the two operand arrays as the region found them.

  The steps: the product of two loaded blocks at an entry (`product_apply`); what the body leaves in the result's
  block is that product (`stored_eq`); where each window's block sits in its array at point t (`block_index`);
  the rows of a product are the products of the rows (`rows_of_product`); what point t writes back is block t of the
  whole product (`written_back`); every entry of the result lies in some point's block (`covered`); the result
  (`region0`).
-/
import proofs.«116640_j87351044866138_2_alg».proof.Proof.Gen.KernelIdeal.Frame
import proofs.«116640_j87351044866138_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue0

open Cert.KernelIdeal Cert.KernelIdeal.Gen Idealize.ShloMosaic Idealize.ShloMosaic.TcCoe Idealize.SL.Sem
open Idealize.ShloMosaic.ValueIdx
open Idealize.ShloMosaic.Pipeline (Dat)

/-! ## The product of two blocks at an entry -/

/-- The left factor of term k of entry j sits in row (j 0) of the left block, -/
theorem lhs_row (j : S2000x256.Idx) (k : dot_S2000x256_S256x256_S2000x256_1_0_0_1_n_n.contr.Idx) :
    (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- in column k; -/
theorem lhs_col (j : S2000x256.Idx) (k : dot_S2000x256_S256x256_S2000x256_1_0_0_1_n_n.contr.Idx) :
    (dot_S2000x256_S256x256_S2000x256_1_0_0_1_n_n.lhsIdx j k 1).val = (k ⟨0, by decide⟩).val :=
  dot_S2000x256_S256x256_S2000x256_1_0_0_1_n_n.lhsIdx_val_of_single rfl j k
/-- the right factor sits in row k of the right block, -/
theorem rhs_row (j : S2000x256.Idx) (k : dot_S2000x256_S256x256_S2000x256_1_0_0_1_n_n.contr.Idx) :
    (dot_S2000x256_S256x256_S2000x256_1_0_0_1_n_n.rhsIdx j k 0).val = (k ⟨0, by decide⟩).val :=
  dot_S2000x256_S256x256_S2000x256_1_0_0_1_n_n.rhsIdx_val_of_single rfl j k
/-- in column (j 1). -/
theorem rhs_col (j : S2000x256.Idx) (k : dot_S2000x256_S256x256_S2000x256_1_0_0_1_n_n.contr.Idx) :
    (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- What the body computes from a 2000×256 block x0 and a 256×256 block x1, at entry (p, q): the sum over k of
    x0 (p, k) · x1 (k, q). On the extended reals the change of the operands' float format is the identity, a
    reshape to the same shape is the identity, and the accumulator the product is added to is zero; the sum over the
    one contracted axis is re-indexed by that axis's coordinate. -/
theorem product_apply (x0 : FVec Ideal S2000x256 .f32) (x1 : FVec Ideal S256x256 .f32) (p : Fin 2000) (q : Fin 256) :
    k0_pay1 (F := Ideal) x0 x1 (ix2 p q) = ∑ k : Fin 256, x0 (ix2 p k) * x1 (ix2 k q) := by
  unfold k0_pay1
  rw [shapeCast_self]
  show FloatOps.matmul dot_S2000x256_S256x256_S2000x256_1_0_0_1_n_n none (truncf .bf16 x0 bitsLt_bf16_f32) (truncf .bf16 x1 bitsLt_bf16_f32) (constant S2000x256 .f32 0x00000000#32) (ix2 p q) = _
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_row _ _).trans hk
    | ⟨1, _⟩ => exact rhs_col _ _)
  rw [el, er]
  rfl

/-! ## What the body leaves in the result's block -/

theorem zero_offsets : (![0, 0] : Fin 2 → Nat) = fun _ => 0 := funext fun a => by fin_cases a <;> rfl

/-- The body loads both blocks whole and stores once, over the whole 2000×256 block: the block ends holding the
    product of the two loaded blocks. -/
theorem stored_eq (x0 : Vec Ideal S2000x256 .f32) (x1 : Vec Ideal S256x256 .f32) :
    out0_2 (F := Ideal) x0 x1 = k0_pay1 (F := Ideal) x0 x1 := by
  unfold out0_2
  rw [View.canon_unit_zero zero_offsets]
  simp only [View.ld_unit_zero (S := S2000x256) zero_offsets, View.ld_unit_zero (S := S256x256) zero_offsets]

/-! ## Where the blocks sit -/

/-- At point t the left operand's block and the result's block are both the t-th block of 2000 rows (all
    columns), and the right operand's block is the whole array. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows of a product are the products of the rows: when x0 is rows 2000·t … 2000·t + 1999 of A and x1 is all
    of B, entry (p, q) of the product of the blocks is entry (2000·t + p, q) of the product of A and B. -/
theorem rows_of_product (A : S50000x256.Idx → EReal) (B : S256x256.Idx → EReal)
    (x0 : FVec Ideal S2000x256 .f32) (x1 : FVec Ideal S256x256 .f32) (t : Nat) (ht : t < 25)
    (hA : ∀ (p : Fin 2000) (k : Fin 256), x0 (ix2 p k) = A (ix2 (⟨2000 * t + p.val, by omega⟩ : Fin 50000) k))
    (hB : ∀ (k : Fin 256) (q : Fin 256), x1 (ix2 k q) = B (ix2 k q))
    (p : Fin 2000) (q : Fin 256) :
    k0_pay1 (F := Ideal) x0 x1 (ix2 p q)
      = Cert.Hgcn.mm 50000 256 256 A B (ix2 (⟨2000 * t + p.val, by omega⟩ : Fin 50000) q) := by
  rw [product_apply]
  unfold Cert.Hgcn.mm
  exact Finset.sum_congr rfl fun k _ => by rw [hA p k, hB k q]

/-! ## From the blocks to the array -/

variable (V : (c : Dev nD) → (b : Ref sig .tc) → Buf (Elt Ideal) ((c : Thread nD τ).loc b))

/-- What point t writes back is block t of the whole product of the two operand arrays. Entry (p, q) of a block sits
    in its array at row (block index) · 2000 + p and column q for the left operand and the result, and at (k, q)
    itself for the right operand, whose one block is the array. -/
theorem written_back (c : Dev nD) (t : Fin cfg0.N) :
    (dat0 (F := Ideal) V c).flushed 2 t
      = ((cfg0.win 2).blk t).view.read (Elt Ideal) (Cert.Hgcn.mm 50000 256 256 (V c main_arg0) (V c main_v62)) := by
  show (cfg0.win 2).cut (grid0.coords t) ((dat0 V c).after 2 t) = _
  rw [after0_2, stored_eq]
  have ht : t.val < 25 := lt_of_lt_of_eq t.isLt (show cfg0.N = 25 from N_0)
  obtain ⟨a0, a1, b0, b1, c0, c1⟩ := block_index t
  show (k0_pay1 (F := Ideal) (iblk0 V c 0 t) (iblk0 V c 1 t) : S2000x256.Idx → EReal)
      = fun j : S2000x256.Idx => Cert.Hgcn.mm 50000 256 256 (V c main_arg0) (V c main_v62) (((cfg0.win 2).blk t).view.emb j)
  funext j
  obtain ⟨p, q, rfl⟩ : ∃ (p : Fin 2000) (q : Fin 256), j = ix2 p q := ⟨j 0, j 1, eq_ix2 j⟩
  have hout : (((cfg0.win 2).blk t).view.emb (ix2 p q) : S50000x256.Idx) = ix2 (⟨2000 * t.val + p.val, by omega⟩ : Fin 50000) q := by
    funext a; apply Fin.ext
    match a with
    | ⟨0, _⟩ => show win0_2.index t (0 : Fin 2) * 2000 + 1 * p.val = 2000 * t.val + p.val; omega
    | ⟨1, _⟩ => show win0_2.index t (1 : Fin 2) * 256 + 1 * q.val = q.val; omega
  rw [hout]
  refine rows_of_product (V c main_arg0) (V c main_v62) _ _ t.val ht (fun p k => ?_) (fun k q => ?_) p q
  · show V c main_arg0 (((cfg0.win 0).blk t).view.emb (ix2 p k)) = V c main_arg0 _
    congr 1
    funext a; apply Fin.ext
    match a with
    | ⟨0, _⟩ => show win0_0.index t (0 : Fin 2) * 2000 + 1 * p.val = 2000 * t.val + p.val; omega
    | ⟨1, _⟩ => show win0_0.index t (1 : Fin 2) * 256 + 1 * k.val = k.val; omega
  · show V c main_v62 (((cfg0.win 1).blk t).view.emb (ix2 k q)) = V c main_v62 _
    congr 1
    funext a; apply Fin.ext
    match a with
    | ⟨0, _⟩ => show win0_1.index t (0 : Fin 2) * 256 + 1 * k.val = k.val; omega
    | ⟨1, _⟩ => show win0_1.index t (1 : Fin 2) * 256 + 1 * q.val = q.val; omega

/-- An entry of the result is in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v63).slice (win0_2.rect t)).set ↔ _
  rw [View.set_slice_whole, Rect.mem_set_unit]
  exact Iff.rfl

/-- Every entry (r, j) of the result is in the block of point r / 2000, and every point writes its block back:
    50000 = 25 · 2000 rows, and a block has all 256 columns. -/
theorem covered (i : S50000x256.Idx) :
    ∃ t : Fin cfg0.N, (cfg0.win 2).flush t = true ∧ i ∈ ((cfg0.win 2).blk t).view.set := by
  have hi0 : (i 0).val < 50000 := idx2_lt0 i
  have hi1 : (i 1).val < 256 := idx2_lt1 i
  obtain ⟨t, ht⟩ : ∃ t : Fin cfg0.N, t.val = (i 0).val / 2000 :=
    ⟨⟨(i 0).val / 2000, by rw [show cfg0.N = 25 from N_0]; omega⟩, rfl⟩
  obtain ⟨_, _, _, _, c0, c1⟩ := block_index t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The result array after the region's 25 points is the whole product of the left operand array and the right
    operand array as the region found them. -/
theorem region0 (c : Dev nD) :
    (dat0 (F := Ideal) V c).arrAt 2 cfg0.N
      = Cert.Hgcn.mm 50000 256 256 (V c (Pipeline.arrRef spec0 0)) (V c (Pipeline.arrRef spec0 1)) :=
  (dat0 V c).arrAt_eq_of_cover 2 (Cert.Hgcn.mm 50000 256 256 (V c main_arg0) (V c main_v62))
    (fun t _ => written_back V c t) covered

end Cert.KernelIdeal.RegionValue0

end
-- ==== Proof.Region1.lean ====
/-
  Region 1 of the kernel program is one whole matrix product.

  The region's grid has 25 points. Point t takes rows 2000·t … 2000·t + 1999 of the left operand (a 2000×128 block),
  the whole 128×256 right operand, multiplies the two into an accumulator that starts at zero, and writes the 2000×256
  product back as rows 2000·t … 2000·t + 1999 of the result. An entry (r, j) of the result therefore depends on row r
  of the left operand and column j of the right operand only: it is the sum over k of left (r, k) · right (k, j),
  whichever point wrote it, and every row r is written, by point r / 2000. So the result array after the region is
  the textbook product `Cert.Hgcn.mm 50000 128 256` of the two operand arrays as the region found them.

  The steps: the product of two loaded blocks at an entry (`product_apply`); what the body leaves in the result's
  block is that product (`stored_eq`); where each window's block sits in its array at point t (`block_index`);
  the rows of a product are the products of the rows (`rows_of_product`); what point t writes back is block t of the
  whole product (`written_back`); every entry of the result lies in some point's block (`covered`); the result
  (`region1`).
-/
import proofs.«116640_j87351044866138_2_alg».proof.Proof.Gen.KernelIdeal.Frame
import proofs.«116640_j87351044866138_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue1

open Cert.KernelIdeal Cert.KernelIdeal.Gen Idealize.ShloMosaic Idealize.ShloMosaic.TcCoe Idealize.SL.Sem
open Idealize.ShloMosaic.ValueIdx
open Idealize.ShloMosaic.Pipeline (Dat)

/-! ## The product of two blocks at an entry -/

/-- The left factor of term k of entry j sits in row (j 0) of the left block, -/
theorem lhs_row (j : S2000x256.Idx) (k : dot_S2000x128_S128x256_S2000x256_1_0_0_1_n_n.contr.Idx) :
    (dot_S2000x128_S128x256_S2000x256_1_0_0_1_n_n.lhsIdx j k 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- in column k; -/
theorem lhs_col (j : S2000x256.Idx) (k : dot_S2000x128_S128x256_S2000x256_1_0_0_1_n_n.contr.Idx) :
    (dot_S2000x128_S128x256_S2000x256_1_0_0_1_n_n.lhsIdx j k 1).val = (k ⟨0, by decide⟩).val :=
  dot_S2000x128_S128x256_S2000x256_1_0_0_1_n_n.lhsIdx_val_of_single rfl j k
/-- the right factor sits in row k of the right block, -/
theorem rhs_row (j : S2000x256.Idx) (k : dot_S2000x128_S128x256_S2000x256_1_0_0_1_n_n.contr.Idx) :
    (dot_S2000x128_S128x256_S2000x256_1_0_0_1_n_n.rhsIdx j k 0).val = (k ⟨0, by decide⟩).val :=
  dot_S2000x128_S128x256_S2000x256_1_0_0_1_n_n.rhsIdx_val_of_single rfl j k
/-- in column (j 1). -/
theorem rhs_col (j : S2000x256.Idx) (k : dot_S2000x128_S128x256_S2000x256_1_0_0_1_n_n.contr.Idx) :
    (dot_S2000x128_S128x256_S2000x256_1_0_0_1_n_n.rhsIdx j k 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- What the body computes from a 2000×128 block x0 and a 128×256 block x1, at entry (p, q): the sum over k of
    x0 (p, k) · x1 (k, q). On the extended reals the change of the operands' float format is the identity, a
    reshape to the same shape is the identity, and the accumulator the product is added to is zero; the sum over the
    one contracted axis is re-indexed by that axis's coordinate. -/
theorem product_apply (x0 : FVec Ideal S2000x128 .f32) (x1 : FVec Ideal S128x256 .f32) (p : Fin 2000) (q : Fin 256) :
    k1_pay1 (F := Ideal) x0 x1 (ix2 p q) = ∑ k : Fin 128, x0 (ix2 p k) * x1 (ix2 k q) := by
  unfold k1_pay1
  rw [shapeCast_self, shapeCast_self]
  show FloatOps.matmul dot_S2000x128_S128x256_S2000x256_1_0_0_1_n_n none (truncf .bf16 x0 bitsLt_bf16_f32) (truncf .bf16 x1 bitsLt_bf16_f32) (constant S2000x256 .f32 0x00000000#32) (ix2 p q) = _
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## What the body leaves in the result's block -/

theorem zero_offsets : (![0, 0] : Fin 2 → Nat) = fun _ => 0 := funext fun a => by fin_cases a <;> rfl

/-- The body loads both blocks whole and stores once, over the whole 2000×256 block: the block ends holding the
    product of the two loaded blocks. -/
theorem stored_eq (x0 : Vec Ideal S2000x128 .f32) (x1 : Vec Ideal S128x256 .f32) :
    out1_2 (F := Ideal) x0 x1 = k1_pay1 (F := Ideal) x0 x1 := by
  unfold out1_2
  rw [View.canon_unit_zero zero_offsets]
  simp only [View.ld_unit_zero (S := S2000x128) zero_offsets, View.ld_unit_zero (S := S128x256) zero_offsets]

/-! ## Where the blocks sit -/

/-- At point t the left operand's block and the result's block are both the t-th block of 2000 rows (all
    columns), and the right operand's block is the whole array. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The rows of a product are the products of the rows: when x0 is rows 2000·t … 2000·t + 1999 of A and x1 is all
    of B, entry (p, q) of the product of the blocks is entry (2000·t + p, q) of the product of A and B. -/
theorem rows_of_product (A : S50000x128.Idx → EReal) (B : S128x256.Idx → EReal)
    (x0 : FVec Ideal S2000x128 .f32) (x1 : FVec Ideal S128x256 .f32) (t : Nat) (ht : t < 25)
    (hA : ∀ (p : Fin 2000) (k : Fin 128), x0 (ix2 p k) = A (ix2 (⟨2000 * t + p.val, by omega⟩ : Fin 50000) k))
    (hB : ∀ (k : Fin 128) (q : Fin 256), x1 (ix2 k q) = B (ix2 k q))
    (p : Fin 2000) (q : Fin 256) :
    k1_pay1 (F := Ideal) x0 x1 (ix2 p q)
      = Cert.Hgcn.mm 50000 128 256 A B (ix2 (⟨2000 * t + p.val, by omega⟩ : Fin 50000) q) := by
  rw [product_apply]
  unfold Cert.Hgcn.mm
  exact Finset.sum_congr rfl fun k _ => by rw [hA p k, hB k q]

/-! ## From the blocks to the array -/

variable (V : (c : Dev nD) → (b : Ref sig .tc) → Buf (Elt Ideal) ((c : Thread nD τ).loc b))

/-- What point t writes back is block t of the whole product of the two operand arrays. Entry (p, q) of a block sits
    in its array at row (block index) · 2000 + p and column q for the left operand and the result, and at (k, q)
    itself for the right operand, whose one block is the array. -/
theorem written_back (c : Dev nD) (t : Fin cfg1.N) :
    (dat1 (F := Ideal) V c).flushed 2 t
      = ((cfg1.win 2).blk t).view.read (Elt Ideal) (Cert.Hgcn.mm 50000 128 256 (V c main_v103) (V c main_v106)) := by
  show (cfg1.win 2).cut (grid1.coords t) ((dat1 V c).after 2 t) = _
  rw [after1_2, stored_eq]
  have ht : t.val < 25 := lt_of_lt_of_eq t.isLt (show cfg1.N = 25 from N_1)
  obtain ⟨a0, a1, b0, b1, c0, c1⟩ := block_index t
  show (k1_pay1 (F := Ideal) (iblk1 V c 0 t) (iblk1 V c 1 t) : S2000x256.Idx → EReal)
      = fun j : S2000x256.Idx => Cert.Hgcn.mm 50000 128 256 (V c main_v103) (V c main_v106) (((cfg1.win 2).blk t).view.emb j)
  funext j
  obtain ⟨p, q, rfl⟩ : ∃ (p : Fin 2000) (q : Fin 256), j = ix2 p q := ⟨j 0, j 1, eq_ix2 j⟩
  have hout : (((cfg1.win 2).blk t).view.emb (ix2 p q) : S50000x256.Idx) = ix2 (⟨2000 * t.val + p.val, by omega⟩ : Fin 50000) q := by
    funext a; apply Fin.ext
    match a with
    | ⟨0, _⟩ => show win1_2.index t (0 : Fin 2) * 2000 + 1 * p.val = 2000 * t.val + p.val; omega
    | ⟨1, _⟩ => show win1_2.index t (1 : Fin 2) * 256 + 1 * q.val = q.val; omega
  rw [hout]
  refine rows_of_product (V c main_v103) (V c main_v106) _ _ t.val ht (fun p k => ?_) (fun k q => ?_) p q
  · show V c main_v103 (((cfg1.win 0).blk t).view.emb (ix2 p k)) = V c main_v103 _
    congr 1
    funext a; apply Fin.ext
    match a with
    | ⟨0, _⟩ => show win1_0.index t (0 : Fin 2) * 2000 + 1 * p.val = 2000 * t.val + p.val; omega
    | ⟨1, _⟩ => show win1_0.index t (1 : Fin 2) * 128 + 1 * k.val = k.val; omega
  · show V c main_v106 (((cfg1.win 1).blk t).view.emb (ix2 k q)) = V c main_v106 _
    congr 1
    funext a; apply Fin.ext
    match a with
    | ⟨0, _⟩ => show win1_1.index t (0 : Fin 2) * 128 + 1 * k.val = k.val; omega
    | ⟨1, _⟩ => show win1_1.index t (1 : Fin 2) * 256 + 1 * q.val = q.val; omega

/-- An entry of the result is in point t's block iff each coordinate is in the block's range on its axis. -/
theorem mem_block (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v107).slice (win1_2.rect t)).set ↔ _
  rw [View.set_slice_whole, Rect.mem_set_unit]
  exact Iff.rfl

/-- Every entry (r, j) of the result is in the block of point r / 2000, and every point writes its block back:
    50000 = 25 · 2000 rows, and a block has all 256 columns. -/
theorem covered (i : S50000x256.Idx) :
    ∃ t : Fin cfg1.N, (cfg1.win 2).flush t = true ∧ i ∈ ((cfg1.win 2).blk t).view.set := by
  have hi0 : (i 0).val < 50000 := idx2_lt0 i
  have hi1 : (i 1).val < 256 := idx2_lt1 i
  obtain ⟨t, ht⟩ : ∃ t : Fin cfg1.N, t.val = (i 0).val / 2000 :=
    ⟨⟨(i 0).val / 2000, by rw [show cfg1.N = 25 from N_1]; omega⟩, rfl⟩
  obtain ⟨_, _, _, _, c0, c1⟩ := block_index t
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- The result array after the region's 25 points is the whole product of the left operand array and the right
    operand array as the region found them. -/
theorem region1 (c : Dev nD) :
    (dat1 (F := Ideal) V c).arrAt 2 cfg1.N
      = Cert.Hgcn.mm 50000 128 256 (V c (Pipeline.arrRef spec1 0)) (V c (Pipeline.arrRef spec1 1)) :=
  (dat1 V c).arrAt_eq_of_cover 2 (Cert.Hgcn.mm 50000 128 256 (V c main_v103) (V c main_v106))
    (fun t _ => written_back V c t) covered

end Cert.KernelIdeal.RegionValue1

end
-- ==== Proof.Region2.lean ====
/-
  Region 2 of the kernel program is one whole matrix product.

  The region's grid has 25 points. Point t takes rows 2000·t … 2000·t + 1999 of the left operand (a 2000×128 block),
  the whole 128×4 right operand, multiplies the two into an accumulator that starts at zero, and writes the 2000×4
  product back as rows 2000·t … 2000·t + 1999 of the result. An entry (r, j) of the result therefore depends on row r
  of the left operand and column j of the right operand only: it is the sum over k of left (r, k) · right (k, j),
  whichever point wrote it, and every row r is written, by point r / 2000. So the result array after the region is
  the textbook product `Cert.Hgcn.mm 50000 128 4` of the two operand arrays as the region found them.

  The steps: the product of two loaded blocks at an entry (`product_apply`); what the body leaves in the result's
  block is that product (`stored_eq`); where each window's block sits in its array at point t (`block_index`);
  the rows of a product are the products of the rows (`rows_of_product`); what point t writes back is block t of the
  whole product (`written_back`); every entry of the result lies in some point's block (`covered`); the result
  (`region2`).
-/
import proofs.«116640_j87351044866138_2_alg».proof.Proof.Gen.KernelIdeal.Frame
import proofs.«116640_j87351044866138_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue2

open Cert.KernelIdeal Cert.KernelIdeal.Gen Idealize.ShloMosaic Idealize.ShloMosaic.TcCoe Idealize.SL.Sem
open Idealize.ShloMosaic.ValueIdx
open Idealize.ShloMosaic.Pipeline (Dat)

/-! ## The product of two blocks at an entry -/

/-- The left factor of term k of entry j sits in row (j 0) of the left block, -/
theorem lhs_row (j : S2000x4.Idx) (k : dot_S2000x128_S128x4_S2000x4_1_0_0_1_n_n.contr.Idx) :
    (dot_S2000x128_S128x4_S2000x4_1_0_0_1_n_n.lhsIdx j k 0).val = (j 0).val := by
  unfold DotDims.lhsIdx
  rw [dif_neg (show ¬(0 : Fin S2000x128.rank) ∈ dot_S2000x128_S128x4_S2000x4_1_0_0_1_n_n.lhsBatch by decide), dif_pos (show (0 : Fin S2000x128.rank) ∈ dot_S2000x128_S128x4_S2000x4_1_0_0_1_n_n.lhsNonContracting by decide)]
  rfl
/-- in column k; -/
theorem lhs_col (j : S2000x4.Idx) (k : dot_S2000x128_S128x4_S2000x4_1_0_0_1_n_n.contr.Idx) :
    (dot_S2000x128_S128x4_S2000x4_1_0_0_1_n_n.lhsIdx j k 1).val = (k ⟨0, by decide⟩).val :=
  dot_S2000x128_S128x4_S2000x4_1_0_0_1_n_n.lhsIdx_val_of_single rfl j k
/-- the right factor sits in row k of the right block, -/
theorem rhs_row (j : S2000x4.Idx) (k : dot_S2000x128_S128x4_S2000x4_1_0_0_1_n_n.contr.Idx) :
    (dot_S2000x128_S128x4_S2000x4_1_0_0_1_n_n.rhsIdx j k 0).val = (k ⟨0, by decide⟩).val :=
  dot_S2000x128_S128x4_S2000x4_1_0_0_1_n_n.rhsIdx_val_of_single rfl j k
/-- in column (j 1). -/
theorem rhs_col (j : S2000x4.Idx) (k : dot_S2000x128_S128x4_S2000x4_1_0_0_1_n_n.contr.Idx) :
    (dot_S2000x128_S128x4_S2000x4_1_0_0_1_n_n.rhsIdx j k 1).val = (j 1).val := by
  unfold DotDims.rhsIdx
  rw [dif_neg (show ¬(1 : Fin S128x4.rank) ∈ dot_S2000x128_S128x4_S2000x4_1_0_0_1_n_n.rhsBatch by decide), dif_pos (show (1 : Fin S128x4.rank) ∈ dot_S2000x128_S128x4_S2000x4_1_0_0_1_n_n.rhsNonContracting by decide)]
  rfl

/-- What the body computes from a 2000×128 block x0 and a 128×4 block x1, at entry (p, q): the sum over k of
    x0 (p, k) · x1 (k, q). On the extended reals the change of the operands' float format is the identity, a
    reshape to the same shape is the identity, and the accumulator the product is added to is zero; the sum over the
    one contracted axis is re-indexed by that axis's coordinate. -/
theorem product_apply (x0 : FVec Ideal S2000x128 .f32) (x1 : FVec Ideal S128x4 .f32) (p : Fin 2000) (q : Fin 4) :
    k2_pay1 (F := Ideal) x0 x1 (ix2 p q) = ∑ k : Fin 128, x0 (ix2 p k) * x1 (ix2 k q) := by
  unfold k2_pay1
  rw [shapeCast_self, shapeCast_self]
  show FloatOps.matmul dot_S2000x128_S128x4_S2000x4_1_0_0_1_n_n none (truncf .bf16 x0 bitsLt_bf16_f32) (truncf .bf16 x1 bitsLt_bf16_f32) (constant S2000x4 .f32 0x00000000#32) (ix2 p q) = _
  rw [Ideal.matmul_constant_zero_apply, ← Equiv.sum_comp (contrEquiv1 dot_S2000x128_S128x4_S2000x4_1_0_0_1_n_n 128 rfl rfl).symm]
  refine Finset.sum_congr rfl fun k _ => ?_
  have hk := contrEquiv1_symm_val dot_S2000x128_S128x4_S2000x4_1_0_0_1_n_n 128 rfl rfl k
  have el : dot_S2000x128_S128x4_S2000x4_1_0_0_1_n_n.lhsIdx (ix2 p q) ((contrEquiv1 dot_S2000x128_S128x4_S2000x4_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x4_S2000x4_1_0_0_1_n_n.rhsIdx (ix2 p q) ((contrEquiv1 dot_S2000x128_S128x4_S2000x4_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## What the body leaves in the result's block -/

theorem zero_offsets : (![0, 0] : Fin 2 → Nat) = fun _ => 0 := funext fun a => by fin_cases a <;> rfl

/-- The body loads both blocks whole and stores once, over the whole 2000×4 block: the block ends holding the
    product of the two loaded blocks. -/
theorem stored_eq (x0 : Vec Ideal S2000x128 .f32) (x1 : Vec Ideal S128x4 .f32) :
    out2_2 (F := Ideal) x0 x1 = k2_pay1 (F := Ideal) x0 x1 := by
  unfold out2_2
  rw [View.canon_unit_zero zero_offsets]
  simp only [View.ld_unit_zero (S := S2000x128) zero_offsets, View.ld_unit_zero (S := S128x4) zero_offsets]

/-! ## Where the blocks sit -/

/-- At point t the left operand's block and the result's block are both the t-th block of 2000 rows (all
    columns), and the right operand's block is the whole array. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The rows of a product are the products of the rows: when x0 is rows 2000·t … 2000·t + 1999 of A and x1 is all
    of B, entry (p, q) of the product of the blocks is entry (2000·t + p, q) of the product of A and B. -/
theorem rows_of_product (A : S50000x128.Idx → EReal) (B : S128x4.Idx → EReal)
    (x0 : FVec Ideal S2000x128 .f32) (x1 : FVec Ideal S128x4 .f32) (t : Nat) (ht : t < 25)
    (hA : ∀ (p : Fin 2000) (k : Fin 128), x0 (ix2 p k) = A (ix2 (⟨2000 * t + p.val, by omega⟩ : Fin 50000) k))
    (hB : ∀ (k : Fin 128) (q : Fin 4), x1 (ix2 k q) = B (ix2 k q))
    (p : Fin 2000) (q : Fin 4) :
    k2_pay1 (F := Ideal) x0 x1 (ix2 p q)
      = Cert.Hgcn.mm 50000 128 4 A B (ix2 (⟨2000 * t + p.val, by omega⟩ : Fin 50000) q) := by
  rw [product_apply]
  unfold Cert.Hgcn.mm
  exact Finset.sum_congr rfl fun k _ => by rw [hA p k, hB k q]

/-! ## From the blocks to the array -/

variable (V : (c : Dev nD) → (b : Ref sig .tc) → Buf (Elt Ideal) ((c : Thread nD τ).loc b))

/-- What point t writes back is block t of the whole product of the two operand arrays. Entry (p, q) of a block sits
    in its array at row (block index) · 2000 + p and column q for the left operand and the result, and at (k, q)
    itself for the right operand, whose one block is the array. -/
theorem written_back (c : Dev nD) (t : Fin cfg2.N) :
    (dat2 (F := Ideal) V c).flushed 2 t
      = ((cfg2.win 2).blk t).view.read (Elt Ideal) (Cert.Hgcn.mm 50000 128 4 (V c main_v147) (V c main_v150)) := by
  show (cfg2.win 2).cut (grid2.coords t) ((dat2 V c).after 2 t) = _
  rw [after2_2, stored_eq]
  have ht : t.val < 25 := lt_of_lt_of_eq t.isLt (show cfg2.N = 25 from N_2)
  obtain ⟨a0, a1, b0, b1, c0, c1⟩ := block_index t
  show (k2_pay1 (F := Ideal) (iblk2 V c 0 t) (iblk2 V c 1 t) : S2000x4.Idx → EReal)
      = fun j : S2000x4.Idx => Cert.Hgcn.mm 50000 128 4 (V c main_v147) (V c main_v150) (((cfg2.win 2).blk t).view.emb j)
  funext j
  obtain ⟨p, q, rfl⟩ : ∃ (p : Fin 2000) (q : Fin 4), j = ix2 p q := ⟨j 0, j 1, eq_ix2 j⟩
  have hout : (((cfg2.win 2).blk t).view.emb (ix2 p q) : S50000x4.Idx) = ix2 (⟨2000 * t.val + p.val, by omega⟩ : Fin 50000) q := by
    funext a; apply Fin.ext
    match a with
    | ⟨0, _⟩ => show win2_2.index t (0 : Fin 2) * 2000 + 1 * p.val = 2000 * t.val + p.val; omega
    | ⟨1, _⟩ => show win2_2.index t (1 : Fin 2) * 4 + 1 * q.val = q.val; omega
  rw [hout]
  refine rows_of_product (V c main_v147) (V c main_v150) _ _ t.val ht (fun p k => ?_) (fun k q => ?_) p q
  · show V c main_v147 (((cfg2.win 0).blk t).view.emb (ix2 p k)) = V c main_v147 _
    congr 1
    funext a; apply Fin.ext
    match a with
    | ⟨0, _⟩ => show win2_0.index t (0 : Fin 2) * 2000 + 1 * p.val = 2000 * t.val + p.val; omega
    | ⟨1, _⟩ => show win2_0.index t (1 : Fin 2) * 128 + 1 * k.val = k.val; omega
  · show V c main_v150 (((cfg2.win 1).blk t).view.emb (ix2 k q)) = V c main_v150 _
    congr 1
    funext a; apply Fin.ext
    match a with
    | ⟨0, _⟩ => show win2_1.index t (0 : Fin 2) * 128 + 1 * k.val = k.val; omega
    | ⟨1, _⟩ => show win2_1.index t (1 : Fin 2) * 4 + 1 * q.val = q.val; omega

/-- An entry of the result is in point t's block iff each coordinate is in the block's range on its axis. -/
theorem mem_block (t : Fin cfg2.N) (i : S50000x4.Idx) :
    i ∈ ((cfg2.win 2).blk t).view.set ↔ ∀ a : Fin 2, win2_2.index t a * S2000x4.size a ≤ (i a).val ∧ (i a).val < win2_2.index t a * S2000x4.size a + S2000x4.size a := by
  show i ∈ ((View.whole main_v151).slice (win2_2.rect t)).set ↔ _
  rw [View.set_slice_whole, Rect.mem_set_unit]
  exact Iff.rfl

/-- Every entry (r, j) of the result is in the block of point r / 2000, and every point writes its block back:
    50000 = 25 · 2000 rows, and a block has all 4 columns. -/
theorem covered (i : S50000x4.Idx) :
    ∃ t : Fin cfg2.N, (cfg2.win 2).flush t = true ∧ i ∈ ((cfg2.win 2).blk t).view.set := by
  have hi0 : (i 0).val < 50000 := idx2_lt0 i
  have hi1 : (i 1).val < 4 := idx2_lt1 i
  obtain ⟨t, ht⟩ : ∃ t : Fin cfg2.N, t.val = (i 0).val / 2000 :=
    ⟨⟨(i 0).val / 2000, by rw [show cfg2.N = 25 from N_2]; omega⟩, rfl⟩
  obtain ⟨_, _, _, _, c0, c1⟩ := block_index t
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 4 ≤ (i 1).val ∧ (i 1).val < win2_2.index t (1 : Fin 2) * 4 + 4; omega

/-- The result array after the region's 25 points is the whole product of the left operand array and the right
    operand array as the region found them. -/
theorem region2 (c : Dev nD) :
    (dat2 (F := Ideal) V c).arrAt 2 cfg2.N
      = Cert.Hgcn.mm 50000 128 4 (V c (Pipeline.arrRef spec2 0)) (V c (Pipeline.arrRef spec2 1)) :=
  (dat2 V c).arrAt_eq_of_cover 2 (Cert.Hgcn.mm 50000 128 4 (V c main_v147) (V c main_v150))
    (fun t _ => written_back V c t) covered

end Cert.KernelIdeal.RegionValue2

end
-- ==== Proof.RegionInputs.lean ====
/-
  The two operands of each region's matrix product are inputs of the region: their blocks are fetched, never written
  back. So whatever number of grid points has run, each operand array still holds what the region found in it; in
  particular after all 25 points. One statement per region (0, 1, 2) and operand (0 the left, 1 the right).
-/
import proofs.«116640_j87351044866138_2_alg».proof.Proof.Gen.KernelIdeal.Frame
import Idealize.ShloMosaic.PureOps.Ideal

noncomputable section

namespace Cert.KernelIdeal.RegionInputs

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Region 0 only reads its left operand: the array holds after the region what it held on entry. -/
theorem in0_0 (c : Dev nD) :
    (dat0 (F := Ideal) V c).arrAt 0 cfg0.N = V c (Pipeline.arrRef spec0 0) :=
  ((dat0 V c).arrAt_in 0 rfl _).trans (A_eq0 V c 0)

/-- Region 0 only reads its right operand: the array holds after the region what it held on entry. -/
theorem in0_1 (c : Dev nD) :
    (dat0 (F := Ideal) V c).arrAt 1 cfg0.N = V c (Pipeline.arrRef spec0 1) :=
  ((dat0 V c).arrAt_in 1 rfl _).trans (A_eq0 V c 1)

/-- Region 1 only reads its left operand: the array holds after the region what it held on entry. -/
theorem in1_0 (c : Dev nD) :
    (dat1 (F := Ideal) V c).arrAt 0 cfg1.N = V c (Pipeline.arrRef spec1 0) :=
  ((dat1 V c).arrAt_in 0 rfl _).trans (A_eq1 V c 0)

/-- Region 1 only reads its right operand: the array holds after the region what it held on entry. -/
theorem in1_1 (c : Dev nD) :
    (dat1 (F := Ideal) V c).arrAt 1 cfg1.N = V c (Pipeline.arrRef spec1 1) :=
  ((dat1 V c).arrAt_in 1 rfl _).trans (A_eq1 V c 1)

/-- Region 2 only reads its left operand: the array holds after the region what it held on entry. -/
theorem in2_0 (c : Dev nD) :
    (dat2 (F := Ideal) V c).arrAt 0 cfg2.N = V c (Pipeline.arrRef spec2 0) :=
  ((dat2 V c).arrAt_in 0 rfl _).trans (A_eq2 V c 0)

/-- Region 2 only reads its right operand: the array holds after the region what it held on entry. -/
theorem in2_1 (c : Dev nD) :
    (dat2 (F := Ideal) V c).arrAt 1 cfg2.N = V c (Pipeline.arrRef spec2 1) :=
  ((dat2 V c).arrAt_in 1 rfl _).trans (A_eq2 V c 1)

end Cert.KernelIdeal.RegionInputs

end
-- ==== Proof.Scale.lean ====
/-
  Multiplying by one half on the extended reals.

  One half is a finite, nonnegative constant, and multiplication by such a constant distributes over the addition
  of the extended reals whatever the summands are: if one summand is +∞ and the other −∞ their sum is −∞ by
  convention, and so is the sum of their halves. Hence the factor moves through any finite sum. Nothing here asks
  the summands to be finite.
-/
import proofs.«116640_j87351044866138_2_alg».proof.Proof.Spec

noncomputable section

namespace Cert.Hgcn

open Idealize.ShloMosaic

/-- The word 0x3F000000 denotes the real number 1/2. -/
theorem half_eq : half = ((1 / 2 : ℝ) : EReal) := by
  unfold half
  simp [Ideal.ofBits, Ideal.ieee, -EReal.coe_mul]; norm_num

theorem half_nonneg : (0 : EReal) ≤ half := by
  rw [half_eq]; exact_mod_cast (by norm_num : (0 : ℝ) ≤ 1 / 2)

theorem half_ne_top : half ≠ ⊤ := by
  rw [half_eq]; exact EReal.coe_ne_top _

/-- One half of a sum of two is the sum of the halves. -/
theorem half_mul_add (a b : EReal) : half * (a + b) = half * a + half * b :=
  EReal.left_distrib_of_nonneg_of_ne_top half_nonneg half_ne_top a b

/-- One half of a finite sum is the sum of the halves. -/
theorem half_mul_sum {ι : Type*} (s : Finset ι) (f : ι → EReal) : half * ∑ i ∈ s, f i = ∑ i ∈ s, half * f i := by
  classical
  induction s using Finset.induction_on with
  | empty => simp
  | insert a s ha ih => rw [Finset.sum_insert ha, Finset.sum_insert ha, half_mul_add, ih]

end Cert.Hgcn

end
-- ==== Proof.Layer.lean ====
/-
  One layer of the two-relation graph convolution, in the two arrangements the programs compute it in.

  A relation is an edge list e : i32[2, 1000000]; a self loop is appended for every node, which gives 1050000 edges
  with sources `ends0 e` and targets `ends1 e`. The degree of a node counts the edges that target it, `dinv` is
  degree^(-1/2) where the degree is positive and 0 elsewhere, and the weight of an edge is the product of `dinv` at
  its two ends (`norm e`). An index is wrapped before it addresses a row (a negative one is taken from the end).
  `aggr H e` sends the rows of H along the edges: entry (n, j) is the sum over the edges that target n of
  H (source, j) times the edge's weight.

  The reference applies, per relation r, the dense map first (H_r = a · W_r), aggregates, adds the bias b_r, adds the
  two relations and halves: relu (½ · ((aggr H_1 e_1 + b_1) + (aggr H_2 e_2 + b_2))).
  The kernel is handed the halved maps H'_r = ½ · H_r and adds the halved bias sum at the end:
  relu ((aggr H'_1 e_1 + aggr H'_2 e_2) + ½ · (b_1 + b_2)).
  The two agree entry by entry because the factor ½ moves through the product with an edge's weight, through the
  finite sum over the edges, and through the sums of two (`Scale.lean`), and the additions re-associate. No entry
  needs to be finite for that.
-/
import proofs.«116640_j87351044866138_2_alg».proof.ReferenceIdeal
import proofs.«116640_j87351044866138_2_alg».proof.KernelIdeal
import proofs.«116640_j87351044866138_2_alg».proof.Proof.Scale

noncomputable section

namespace Cert.Hgcn

open Idealize.ShloMosaic Idealize.ShloMosaic.ValueIdx Cert.ReferenceIdeal Cert.ReferenceIdeal.Facts₀

variable [Cert.ReferenceIdeal.Facts₀]

/-- The sources of a relation's edges, the self loops' after them. -/
def ends0 (e : IVec S2x1000000 32) : IVec S1050000 32 :=
  concatenate S1050000 0 [⟨S1000000, shapeCast _ (extractStridedSlice S1x1000000 ![0, 0] e slices_S2x1000000_S1x1000000_0_0) shapeCasts_S1x1000000_S1000000⟩, ⟨S50000, iotaInDim S50000 32 0⟩] concatenates_S1000000_S50000_S1050000_d0

/-- The targets of a relation's edges, the self loops' after them. -/
def ends1 (e : IVec S2x1000000 32) : IVec S1050000 32 :=
  concatenate S1050000 0 [⟨S1000000, shapeCast _ (extractStridedSlice S1x1000000 ![1, 0] e slices_S2x1000000_S1x1000000_1_0) shapeCasts_S1x1000000_S1000000⟩, ⟨S50000, iotaInDim S50000 32 0⟩] concatenates_S1000000_S50000_S1050000_d0

/-- An index list as a column of row indices, a negative index taken from the end. -/
def wrap (v : IVec S1050000 32) : IVec S1050000x1 32 :=
  broadcastInDim S1050000x1 ![0] bcast_S1050000_S1050000x1_0
    (select (cmpi .slt v (broadcastInDim S1050000 ![] bcast_S_S1050000 (constantI S_ 32 0#32)))
      (addi v (broadcastInDim S1050000 ![] bcast_S_S1050000 (constantI S_ 32 50000#32))) v)

/-- The number of edges that target each node. -/
def degree (e : IVec S2x1000000 32) : FVec Ideal S50000 .f32 :=
  Host.scatterAdd scatter_S50000_S1050000x1_S1050000_n_0_0_1
    (broadcastInDim S50000 ![] bcast_S_S50000 (constant S_ .f32 0x00000000#32))
    (broadcastInDim S1050000x1 ![0] bcast_S1050000_S1050000x1_0 (ends1 e))
    (broadcastInDim S1050000 ![] bcast_S_S1050000 (constant S_ .f32 0x3F800000#32))

/-- degree^(-1/2) where the degree is positive, 0 elsewhere. -/
def dinv (e : IVec S2x1000000 32) : FVec Ideal S50000 .f32 :=
  select (cmpf .ogt (degree e) (broadcastInDim S50000 ![] bcast_S_S50000 (constant S_ .f32 0x00000000#32)))
    (Host.rsqrt (degree e))
    (broadcastInDim S50000 ![] bcast_S_S50000 (id (constant S_ .f32 0x00000000#32)))

/-- An edge's weight: `dinv` at its source times `dinv` at its target. -/
def norm (e : IVec S2x1000000 32) : FVec Ideal S1050000 .f32 :=
  mulf (Host.gather gather_S50000_S1050000x1_S1050000_n_0_n_n_0_1_1 (dinv e) (wrap (ends0 e)))
    (Host.gather gather_S50000_S1050000x1_S1050000_n_0_n_n_0_1_1 (dinv e) (wrap (ends1 e)))

/-- The edges' weights, one row of 128 equal entries per edge. -/
def normRows (e : IVec S2x1000000 32) : FVec Ideal S1050000x128 .f32 :=
  broadcastInDim S1050000x128 ![0, 1] bcast_S1050000x1_S1050000x128_0_1
    (broadcastInDim S1050000x1 ![0] bcast_S1050000_S1050000x1_0 (norm e))

/-- The rows of `H` sent along the edges: each edge takes its source's row, weights it, and adds it into its
    target's row; the result starts from zero. -/
def aggr (H : FVec Ideal S50000x128 .f32) (e : IVec S2x1000000 32) : FVec Ideal S50000x128 .f32 :=
  Host.scatterAdd scatter_S50000x128_S1050000x1_S1050000x128_1_0_0_1
    (broadcastInDim S50000x128 ![] bcast_S_S50000x128 (constant S_ .f32 0x00000000#32))
    (broadcastInDim S1050000x1 ![0] bcast_S1050000_S1050000x1_0 (ends1 e))
    (mulf (Host.gather gather_S50000x128_S1050000x1_S1050000x128_1_0_n_n_0_1_1128 H (wrap (ends0 e))) (normRows e))

/-- A bias vector repeated down the 50000 rows. -/
def biasRows (b : FVec Ideal S128 .f32) : FVec Ideal S50000x128 .f32 :=
  broadcastInDim S50000x128 ![0, 1] bcast_S1x128_S50000x128_0_1 (broadcastInDim S1x128 ![1] bcast_S128_S1x128_1 b)

/-- The positive part, entry by entry. -/
def relu (X : FVec Ideal S50000x128 .f32) : FVec Ideal S50000x128 .f32 :=
  maximumf X (broadcastInDim S50000x128 ![] bcast_S_S50000x128 (constant S_ .f32 0x00000000#32))

/-- The reference's layer: aggregate each relation's map, add its bias, add the two, halve, positive part. -/
def layerRef (H1 H2 : FVec Ideal S50000x128 .f32) (b1 b2 : FVec Ideal S128 .f32) (e1 e2 : IVec S2x1000000 32) :
    FVec Ideal S50000x128 .f32 :=
  relu (mulf (broadcastInDim S50000x128 ![] bcast_S_S50000x128 (constant S_ .f32 0x3F000000#32))
    (addf (addf (aggr H1 e1) (biasRows b1)) (addf (aggr H2 e2) (biasRows b2))))

/-- The kernel's layer: aggregate each relation's (already halved) map, add the two, add the halved bias sum,
    positive part. -/
def layerKer [Cert.KernelIdeal.Facts₀] (H1 H2 : FVec Ideal S50000x128 .f32) (b1 b2 : FVec Ideal S128 .f32) (e1 e2 : IVec S2x1000000 32) :
    FVec Ideal S50000x128 .f32 :=
  relu (addf (addf (aggr H1 e1) (aggr H2 e2))
    (biasRows (mulf (broadcastInDim Cert.KernelIdeal.S128 ![] Cert.KernelIdeal.Facts₀.bcast_S_S128 (constant Cert.KernelIdeal.S_ .f32 0x3F000000#32)) (addf b1 b2))))

end Cert.Hgcn

end
-- ==== Proof.Pairs.lean ====
/-
  The link classifier's shared parts. A candidate pair list is an index array c : i32[2, 131072]; row 0 holds the
  first ends, row 1 the second ends, and an index is wrapped before it addresses a row of the node table (a negative
  one is taken from the end). Both programs turn a 131072×2 array of logits L into probabilities the same way: add the
  bias to every row, then 1 / (1 + exp (−·)) entry by entry. They differ only in how L is formed, which
  `PairLogits.lean` settles; here the common wrapping is named once so that neither side is ever opened.
-/
import proofs.«116640_j87351044866138_2_alg».proof.Proof.Layer

noncomputable section

namespace Cert.Hgcn

open Idealize.ShloMosaic Cert.ReferenceIdeal Cert.ReferenceIdeal.Facts₀

variable [Cert.ReferenceIdeal.Facts₀]

/-- The first ends of the candidate pairs, as a column of wrapped row indices. -/
def cand0 (e : IVec S2x131072 32) : IVec S131072x1 32 :=
  broadcastInDim S131072x1 ![0] bcast_S131072_S131072x1_0
    (select (cmpi .slt (shapeCast _ (extractStridedSlice S1x131072 ![0, 0] e slices_S2x131072_S1x131072_0_0) shapeCasts_S1x131072_S131072)
        (broadcastInDim S131072 ![] bcast_S_S131072 (constantI S_ 32 0#32)))
      (addi (shapeCast _ (extractStridedSlice S1x131072 ![0, 0] e slices_S2x131072_S1x131072_0_0) shapeCasts_S1x131072_S131072)
        (broadcastInDim S131072 ![] bcast_S_S131072 (constantI S_ 32 50000#32)))
      (shapeCast _ (extractStridedSlice S1x131072 ![0, 0] e slices_S2x131072_S1x131072_0_0) shapeCasts_S1x131072_S131072))

/-- The second ends of the candidate pairs, as a column of wrapped row indices. -/
def cand1 (e : IVec S2x131072 32) : IVec S131072x1 32 :=
  broadcastInDim S131072x1 ![0] bcast_S131072_S131072x1_0
    (select (cmpi .slt (shapeCast _ (extractStridedSlice S1x131072 ![1, 0] e slices_S2x131072_S1x131072_1_0) shapeCasts_S1x131072_S131072)
        (broadcastInDim S131072 ![] bcast_S_S131072 (constantI S_ 32 0#32)))
      (addi (shapeCast _ (extractStridedSlice S1x131072 ![1, 0] e slices_S2x131072_S1x131072_1_0) shapeCasts_S1x131072_S131072)
        (broadcastInDim S131072 ![] bcast_S_S131072 (constantI S_ 32 50000#32)))
      (shapeCast _ (extractStridedSlice S1x131072 ![1, 0] e slices_S2x131072_S1x131072_1_0) shapeCasts_S1x131072_S131072))

/-- Logits to probabilities: the bias added to every row, then the logistic function entry by entry. -/
def probsOf (L : FVec Ideal S131072x2 .f32) (bc : FVec Ideal S2 .f32) : FVec Ideal S131072x2 .f32 :=
  Host.divf (broadcastInDim S131072x2 ![] bcast_S_S131072x2 (constant S_ .f32 0x3F800000#32))
    (addf (broadcastInDim S131072x2 ![] bcast_S_S131072x2 (constant S_ .f32 0x3F800000#32))
      (Host.exp (Host.negf (addf L
        (broadcastInDim S131072x2 ![0, 1] bcast_S1x2_S131072x2_0_1 (broadcastInDim S1x2 ![1] bcast_S2_S1x2_1 bc))))))

end Cert.Hgcn

end
-- ==== Proof.Model.lean ====
/-
  The whole model in the two arrangements.

  Both programs compute two graph-convolution layers over the node features x and a link classifier over the node
  embeddings z they produce. The reference applies, per layer, each relation's dense map by one matrix product per
  relation (`refH`, `refZ`) and scores a candidate pair by the product of the pair's concatenated embeddings with the
  classifier's weights (`refP`). The kernel applies, per layer, ONE product with the two relations' weights set side by
  side and halved, and takes the product's left and right 128 columns apart (`kerH`, `kerZ`); it scores every node
  once against the classifier's two weight halves and picks the pair's two partial scores out of that table (`kerP`).
  The products of the kernel are whole-array sums (`mm`): that its pipelined, blockwise products compute them is
  shown where the kernel's run is read.
-/
import proofs.«116640_j87351044866138_2_alg».proof.KernelIdeal
import proofs.«116640_j87351044866138_2_alg».proof.Proof.Pairs

noncomputable section

namespace Cert.Hgcn

open Idealize.ShloMosaic

variable [Cert.KernelIdeal.Facts₀] [Cert.ReferenceIdeal.Facts₀]

/-! ## The reference's arrangement -/

/-- The hidden features: layer 0 over the node features. -/
def refH (x : FVec Ideal Cert.ReferenceIdeal.S50000x256 .f32) (e1 e2 : IVec Cert.ReferenceIdeal.S2x1000000 32)
    (W4 : FVec Ideal Cert.ReferenceIdeal.S256x128 .f32) (b5 : FVec Ideal Cert.ReferenceIdeal.S128 .f32)
    (W6 : FVec Ideal Cert.ReferenceIdeal.S256x128 .f32) (b7 : FVec Ideal Cert.ReferenceIdeal.S128 .f32) :
    FVec Ideal Cert.ReferenceIdeal.S50000x128 .f32 :=
  layerRef (Host.dotGeneral Cert.ReferenceIdeal.dot_S50000x256_S256x128_S50000x128_1_0_0_1_n_n none x W4)
    (Host.dotGeneral Cert.ReferenceIdeal.dot_S50000x256_S256x128_S50000x128_1_0_0_1_n_n none x W6) b5 b7 e1 e2

/-- The node embeddings: layer 1 over hidden features `h`. -/
def refZ (h : FVec Ideal Cert.ReferenceIdeal.S50000x128 .f32) (e1 e2 : IVec Cert.ReferenceIdeal.S2x1000000 32)
    (W8 : FVec Ideal Cert.ReferenceIdeal.S128x128 .f32) (b9 : FVec Ideal Cert.ReferenceIdeal.S128 .f32)
    (W10 : FVec Ideal Cert.ReferenceIdeal.S128x128 .f32) (b11 : FVec Ideal Cert.ReferenceIdeal.S128 .f32) :
    FVec Ideal Cert.ReferenceIdeal.S50000x128 .f32 :=
  layerRef (Host.dotGeneral Cert.ReferenceIdeal.dot_S50000x128_S128x128_S50000x128_1_0_0_1_n_n none h W8)
    (Host.dotGeneral Cert.ReferenceIdeal.dot_S50000x128_S128x128_S50000x128_1_0_0_1_n_n none h W10) b9 b11 e1 e2

/-- The pair probabilities over node embeddings `z`. -/
def refP (z : FVec Ideal Cert.ReferenceIdeal.S50000x128 .f32) (e3 : IVec Cert.ReferenceIdeal.S2x131072 32)
    (Wc : FVec Ideal Cert.ReferenceIdeal.S256x2 .f32) (bc : FVec Ideal Cert.ReferenceIdeal.S2 .f32) :
    FVec Ideal Cert.ReferenceIdeal.S131072x2 .f32 :=
  probsOf (Host.dotGeneral Cert.ReferenceIdeal.dot_S131072x256_S256x2_S131072x2_1_0_0_1_n_n none
    (concatenate Cert.ReferenceIdeal.S131072x256 1
      [⟨Cert.ReferenceIdeal.S131072x128, Host.gather Cert.ReferenceIdeal.gather_S50000x128_S131072x1_S131072x128_1_0_n_n_0_1_1128 z (cand0 e3)⟩,
       ⟨Cert.ReferenceIdeal.S131072x128, Host.gather Cert.ReferenceIdeal.gather_S50000x128_S131072x1_S131072x128_1_0_n_n_0_1_1128 z (cand1 e3)⟩]
      Cert.ReferenceIdeal.Facts₀.concatenates_S131072x128_S131072x128_S131072x256_d1) Wc) bc

/-! ## The kernel's arrangement -/

/-- The hidden features: one product with the halved, side-by-side weights, its column halves aggregated. -/
def kerH (x : FVec Ideal Cert.KernelIdeal.S50000x256 .f32) (e1 e2 : IVec Cert.ReferenceIdeal.S2x1000000 32)
    (W4 : FVec Ideal Cert.KernelIdeal.S256x128 .f32) (b5 : FVec Ideal Cert.ReferenceIdeal.S128 .f32)
    (W6 : FVec Ideal Cert.KernelIdeal.S256x128 .f32) (b7 : FVec Ideal Cert.ReferenceIdeal.S128 .f32) :
    FVec Ideal Cert.ReferenceIdeal.S50000x128 .f32 :=
  layerKer
    (extractStridedSlice Cert.KernelIdeal.S50000x128 ![0, 0]
      (mm 50000 256 256 x (mulf (F := Ideal) (broadcastInDim Cert.KernelIdeal.S256x256 ![] Cert.KernelIdeal.Facts₀.bcast_S_S256x256 (constant (F := Ideal) Cert.KernelIdeal.S_ .f32 0x3F000000#32))
        (concatenate Cert.KernelIdeal.S256x256 1 [⟨Cert.KernelIdeal.S256x128, W4⟩, ⟨Cert.KernelIdeal.S256x128, W6⟩] Cert.KernelIdeal.Facts₀.concatenates_S256x128_S256x128_S256x256_d1)))
      Cert.KernelIdeal.Facts₀.slices_S50000x256_S50000x128_0_0)
    (extractStridedSlice Cert.KernelIdeal.S50000x128 ![0, 128]
      (mm 50000 256 256 x (mulf (F := Ideal) (broadcastInDim Cert.KernelIdeal.S256x256 ![] Cert.KernelIdeal.Facts₀.bcast_S_S256x256 (constant (F := Ideal) Cert.KernelIdeal.S_ .f32 0x3F000000#32))
        (concatenate Cert.KernelIdeal.S256x256 1 [⟨Cert.KernelIdeal.S256x128, W4⟩, ⟨Cert.KernelIdeal.S256x128, W6⟩] Cert.KernelIdeal.Facts₀.concatenates_S256x128_S256x128_S256x256_d1)))
      Cert.KernelIdeal.Facts₀.slices_S50000x256_S50000x128_0_128)
    b5 b7 e1 e2

/-- The node embeddings over hidden features `h`, by the same arrangement. -/
def kerZ (h : FVec Ideal Cert.KernelIdeal.S50000x128 .f32) (e1 e2 : IVec Cert.ReferenceIdeal.S2x1000000 32)
    (W8 : FVec Ideal Cert.KernelIdeal.S128x128 .f32) (b9 : FVec Ideal Cert.ReferenceIdeal.S128 .f32)
    (W10 : FVec Ideal Cert.KernelIdeal.S128x128 .f32) (b11 : FVec Ideal Cert.ReferenceIdeal.S128 .f32) :
    FVec Ideal Cert.ReferenceIdeal.S50000x128 .f32 :=
  layerKer
    (extractStridedSlice Cert.KernelIdeal.S50000x128 ![0, 0]
      (mm 50000 128 256 h (mulf (F := Ideal) (broadcastInDim Cert.KernelIdeal.S128x256 ![] Cert.KernelIdeal.Facts₀.bcast_S_S128x256 (constant (F := Ideal) Cert.KernelIdeal.S_ .f32 0x3F000000#32))
        (concatenate Cert.KernelIdeal.S128x256 1 [⟨Cert.KernelIdeal.S128x128, W8⟩, ⟨Cert.KernelIdeal.S128x128, W10⟩] Cert.KernelIdeal.Facts₀.concatenates_S128x128_S128x128_S128x256_d1)))
      Cert.KernelIdeal.Facts₀.slices_S50000x256_S50000x128_0_0)
    (extractStridedSlice Cert.KernelIdeal.S50000x128 ![0, 128]
      (mm 50000 128 256 h (mulf (F := Ideal) (broadcastInDim Cert.KernelIdeal.S128x256 ![] Cert.KernelIdeal.Facts₀.bcast_S_S128x256 (constant (F := Ideal) Cert.KernelIdeal.S_ .f32 0x3F000000#32))
        (concatenate Cert.KernelIdeal.S128x256 1 [⟨Cert.KernelIdeal.S128x128, W8⟩, ⟨Cert.KernelIdeal.S128x128, W10⟩] Cert.KernelIdeal.Facts₀.concatenates_S128x128_S128x128_S128x256_d1)))
      Cert.KernelIdeal.Facts₀.slices_S50000x256_S50000x128_0_128)
    b9 b11 e1 e2

/-- The classifier's weights rearranged: its upper and lower 128 rows set side by side. -/
def wcPair (Wc : FVec Ideal Cert.KernelIdeal.S256x2 .f32) : FVec Ideal Cert.KernelIdeal.S128x4 .f32 :=
  concatenate Cert.KernelIdeal.S128x4 1
    [⟨Cert.KernelIdeal.S128x2, extractStridedSlice Cert.KernelIdeal.S128x2 ![0, 0] Wc Cert.KernelIdeal.Facts₀.slices_S256x2_S128x2_0_0⟩,
     ⟨Cert.KernelIdeal.S128x2, extractStridedSlice Cert.KernelIdeal.S128x2 ![128, 0] Wc Cert.KernelIdeal.Facts₀.slices_S256x2_S128x2_128_0⟩]
    Cert.KernelIdeal.Facts₀.concatenates_S128x2_S128x2_S128x4_d1

/-- The pair probabilities over node embeddings `z`: every node scored once, the pair's two partial scores added. -/
def kerP (z : FVec Ideal Cert.KernelIdeal.S50000x128 .f32) (e3 : IVec Cert.ReferenceIdeal.S2x131072 32)
    (Wc : FVec Ideal Cert.KernelIdeal.S256x2 .f32) (bc : FVec Ideal Cert.ReferenceIdeal.S2 .f32) :
    FVec Ideal Cert.ReferenceIdeal.S131072x2 .f32 :=
  probsOf (addf (F := Ideal)
    (Host.gather Cert.KernelIdeal.gather_S50000x2_S131072x1_S131072x2_1_0_n_n_0_1_12
      (extractStridedSlice Cert.KernelIdeal.S50000x2 ![0, 0] (mm 50000 128 4 z (wcPair Wc)) Cert.KernelIdeal.Facts₀.slices_S50000x4_S50000x2_0_0) (cand0 e3))
    (Host.gather Cert.KernelIdeal.gather_S50000x2_S131072x1_S131072x2_1_0_n_n_0_1_12
      (extractStridedSlice Cert.KernelIdeal.S50000x2 ![0, 2] (mm 50000 128 4 z (wcPair Wc)) Cert.KernelIdeal.Facts₀.slices_S50000x4_S50000x2_0_2) (cand1 e3))) bc

end Cert.Hgcn

end
-- ==== Proof.KStageA.lean ====
/-
  What the kernel program has computed on the host before its first region.

  Before the first product the program prepares, for each of the two relations, the data of the graph convolution's
  aggregation, and the first layer's weights:

  * a relation's edge list e gives the edges' sources and targets, a self loop appended for every node;
  * the degree of a node counts the edges that target it; where the degree is positive its inverse square root is
    taken, elsewhere zero (a comparison, an inverse square root, and a selection between the two);
  * an edge's weight is the product of that guarded inverse square root at its two ends, an end's index wrapped
    before it addresses a node;
  * the first layer's two weight matrices are set side by side and multiplied by one half.

  These operations come in five stretches. Each stretch is read here on its own, from arbitrary contents, with what it
  needs of the earlier stretches stated as hypotheses on the buffers it reads; a buffer that a stretch does not write
  keeps its contents. Composing the stretches gives the contents before the first region in terms of the launch
  contents: the edge ends, the edge weights, the halved side-by-side weights, and the arguments untouched.
-/
import proofs.«116640_j87351044866138_2_alg».proof.Proof.Gen.KernelIdeal.Frame
import proofs.«116640_j87351044866138_2_alg».proof.Proof.Gen.ReferenceIdeal
import proofs.«116640_j87351044866138_2_alg».proof.Proof.Model

set_option maxRecDepth 16384

noncomputable section

namespace Cert.KernelIdeal.KStage

open Idealize.ShloMosaic Idealize.ShloMosaic.TcCoe Idealize.SL.Sem Idealize.ShloMosaic.StableHlo
open Cert.KernelIdeal Cert.KernelIdeal.Gen

variable (X : Valuation τ sig (Elt Ideal))

/-! ## Stretch 0: relation 1's edge ends, the nodes' degrees, and the two operands of the inverse square root's guard -/

theorem s0_v3 : after hostOps0 X (Proc.devRef .tc main_v3) = Cert.Hgcn.ends0 (X (Proc.devRef .tc main_arg1)) := by
  dsimp only [hostOps0]; after_results_simp; rfl

theorem s0_v6 : after hostOps0 X (Proc.devRef .tc main_v6) = Cert.Hgcn.ends1 (X (Proc.devRef .tc main_arg1)) := by
  dsimp only [hostOps0]; after_results_simp; rfl

theorem s0_v12 : after hostOps0 X (Proc.devRef .tc main_v12)
    = cmpf .ogt (Cert.Hgcn.degree (X (Proc.devRef .tc main_arg1))) (broadcastInDim S50000 ![] Facts₀.bcast_S_S50000 (constant (F := Ideal) S_ .f32 0x00000000#32)) := by
  dsimp only [hostOps0]; after_results_simp; rfl

theorem s0_v13 : after hostOps0 X (Proc.devRef .tc main_v13) = Host.rsqrt (Cert.Hgcn.degree (X (Proc.devRef .tc main_arg1))) := by
  dsimp only [hostOps0]; after_results_simp; rfl

theorem s0_cst2 : after hostOps0 X (Proc.devRef .tc main_cst_2) = constant (F := Ideal) S_ .f32 0x00000000#32 := by
  dsimp only [hostOps0]; after_results_simp

/-! ## The outlined guard's typed references carry their contents unchanged -/

theorem toBuf_v14 (v : (⟨S50000, .f32⟩ : BufTy).Contents (Elt Ideal)) :
    (TRef.of main_v14 : TRef sig ⟨S50000, .f32⟩).toBuf v = v := rfl
theorem ofBuf_v12 (v : (⟨S50000, .i1⟩ : BufTy).Contents (Elt Ideal)) :
    (TRef.of main_v12 : TRef sig ⟨S50000, .i1⟩).ofBuf v = v := rfl
theorem ofBuf_v13 (v : (⟨S50000, .f32⟩ : BufTy).Contents (Elt Ideal)) :
    (TRef.of main_v13 : TRef sig ⟨S50000, .f32⟩).ofBuf v = v := rfl
theorem toBuf_call0_v1 (v : (⟨S50000, .f32⟩ : BufTy).Contents (Elt Ideal)) :
    (TRef.of main_call0_v1 : TRef sig ⟨S50000, .f32⟩).toBuf v = v := rfl
theorem ofBuf_call0_v1 (v : (⟨S50000, .f32⟩ : BufTy).Contents (Elt Ideal)) :
    (TRef.of main_call0_v1 : TRef sig ⟨S50000, .f32⟩).ofBuf v = v := rfl
theorem toBuf_call0_v0 (v : (⟨S_, .f32⟩ : BufTy).Contents (Elt Ideal)) :
    (TRef.of main_call0_v0 : TRef sig ⟨S_, .f32⟩).toBuf v = v := rfl
theorem ofBuf_call0_v0 (v : (⟨S_, .f32⟩ : BufTy).Contents (Elt Ideal)) :
    (TRef.of main_call0_v0 : TRef sig ⟨S_, .f32⟩).ofBuf v = v := rfl
theorem ofBuf_cst_2 (v : (⟨S_, .f32⟩ : BufTy).Contents (Elt Ideal)) :
    (TRef.of main_cst_2 : TRef sig ⟨S_, .f32⟩).ofBuf v = v := rfl

/-! ## Stretch 1: the guarded inverse square root of the degrees (zero where the degree is not positive) -/

theorem s1_v14 (Y : Valuation τ sig (Elt Ideal)) (e : IVec Cert.ReferenceIdeal.S2x1000000 32)
    (h12 : Y (Proc.devRef .tc main_v12) = cmpf .ogt (Cert.Hgcn.degree e) (broadcastInDim S50000 ![] Facts₀.bcast_S_S50000 (constant (F := Ideal) S_ .f32 0x00000000#32)))
    (h13 : Y (Proc.devRef .tc main_v13) = Host.rsqrt (Cert.Hgcn.degree e))
    (hc : Y (Proc.devRef .tc main_cst_2) = constant (F := Ideal) S_ .f32 0x00000000#32) :
    after hostOps0_1 Y (Proc.devRef .tc main_v14) = Cert.Hgcn.dinv e := by
  dsimp only [hostOps0_1]; after_results_simp
  rw [h12, h13, hc]
  rw [toBuf_v14, ofBuf_v12, ofBuf_v13, toBuf_call0_v1, ofBuf_call0_v1, toBuf_call0_v0, ofBuf_call0_v0, ofBuf_cst_2]
  unfold Cert.Hgcn.dinv
  rfl

/-! ## Stretch 2: relation 1's edge weights (the guarded inverse square roots at an edge's two wrapped ends, multiplied);
    then relation 2's edge ends, degrees and guard operands, as stretch 0 did for relation 1 -/

theorem s2_v29 (Y : Valuation τ sig (Elt Ideal)) (e : IVec Cert.ReferenceIdeal.S2x1000000 32)
    (h3 : Y (Proc.devRef .tc main_v3) = Cert.Hgcn.ends0 e) (h6 : Y (Proc.devRef .tc main_v6) = Cert.Hgcn.ends1 e)
    (h14 : Y (Proc.devRef .tc main_v14) = Cert.Hgcn.dinv e) :
    after hostOps0_2 Y (Proc.devRef .tc main_v29) = Cert.Hgcn.norm e := by
  dsimp only [hostOps0_2]; after_results_simp
  rw [h3, h6, h14]; rfl

theorem s2_v33 (Y : Valuation τ sig (Elt Ideal)) :
    after hostOps0_2 Y (Proc.devRef .tc main_v33) = Cert.Hgcn.ends0 (Y (Proc.devRef .tc main_arg2)) := by
  dsimp only [hostOps0_2]; after_results_simp; rfl

theorem s2_v36 (Y : Valuation τ sig (Elt Ideal)) :
    after hostOps0_2 Y (Proc.devRef .tc main_v36) = Cert.Hgcn.ends1 (Y (Proc.devRef .tc main_arg2)) := by
  dsimp only [hostOps0_2]; after_results_simp; rfl

theorem s2_v42 (Y : Valuation τ sig (Elt Ideal)) : after hostOps0_2 Y (Proc.devRef .tc main_v42)
    = cmpf .ogt (Cert.Hgcn.degree (Y (Proc.devRef .tc main_arg2))) (broadcastInDim S50000 ![] Facts₀.bcast_S_S50000 (constant (F := Ideal) S_ .f32 0x00000000#32)) := by
  dsimp only [hostOps0_2]; after_results_simp; rfl

theorem s2_v43 (Y : Valuation τ sig (Elt Ideal)) :
    after hostOps0_2 Y (Proc.devRef .tc main_v43) = Host.rsqrt (Cert.Hgcn.degree (Y (Proc.devRef .tc main_arg2))) := by
  dsimp only [hostOps0_2]; after_results_simp; rfl

theorem s2_cst9 (Y : Valuation τ sig (Elt Ideal)) :
    after hostOps0_2 Y (Proc.devRef .tc main_cst_9) = constant (F := Ideal) S_ .f32 0x00000000#32 := by
  dsimp only [hostOps0_2]; after_results_simp

theorem toBuf_v44 (v : (⟨S50000, .f32⟩ : BufTy).Contents (Elt Ideal)) :
    (TRef.of main_v44 : TRef sig ⟨S50000, .f32⟩).toBuf v = v := rfl
theorem ofBuf_v42 (v : (⟨S50000, .i1⟩ : BufTy).Contents (Elt Ideal)) :
    (TRef.of main_v42 : TRef sig ⟨S50000, .i1⟩).ofBuf v = v := rfl
theorem ofBuf_v43 (v : (⟨S50000, .f32⟩ : BufTy).Contents (Elt Ideal)) :
    (TRef.of main_v43 : TRef sig ⟨S50000, .f32⟩).ofBuf v = v := rfl
theorem toBuf_call1_v1 (v : (⟨S50000, .f32⟩ : BufTy).Contents (Elt Ideal)) :
    (TRef.of main_call1_v1 : TRef sig ⟨S50000, .f32⟩).toBuf v = v := rfl
theorem ofBuf_call1_v1 (v : (⟨S50000, .f32⟩ : BufTy).Contents (Elt Ideal)) :
    (TRef.of main_call1_v1 : TRef sig ⟨S50000, .f32⟩).ofBuf v = v := rfl
theorem toBuf_call1_v0 (v : (⟨S_, .f32⟩ : BufTy).Contents (Elt Ideal)) :
    (TRef.of main_call1_v0 : TRef sig ⟨S_, .f32⟩).toBuf v = v := rfl
theorem ofBuf_call1_v0 (v : (⟨S_, .f32⟩ : BufTy).Contents (Elt Ideal)) :
    (TRef.of main_call1_v0 : TRef sig ⟨S_, .f32⟩).ofBuf v = v := rfl
theorem ofBuf_cst_9 (v : (⟨S_, .f32⟩ : BufTy).Contents (Elt Ideal)) :
    (TRef.of main_cst_9 : TRef sig ⟨S_, .f32⟩).ofBuf v = v := rfl

/-! ## Stretch 3: the guarded inverse square root of relation 2's degrees -/

theorem s3_v44 (Y : Valuation τ sig (Elt Ideal)) (e : IVec Cert.ReferenceIdeal.S2x1000000 32)
    (h42 : Y (Proc.devRef .tc main_v42) = cmpf .ogt (Cert.Hgcn.degree e) (broadcastInDim S50000 ![] Facts₀.bcast_S_S50000 (constant (F := Ideal) S_ .f32 0x00000000#32)))
    (h43 : Y (Proc.devRef .tc main_v43) = Host.rsqrt (Cert.Hgcn.degree e))
    (hc : Y (Proc.devRef .tc main_cst_9) = constant (F := Ideal) S_ .f32 0x00000000#32) :
    after hostOps0_3 Y (Proc.devRef .tc main_v44) = Cert.Hgcn.dinv e := by
  dsimp only [hostOps0_3]; after_results_simp
  rw [h42, h43, hc]
  rw [toBuf_v44, ofBuf_v42, ofBuf_v43, toBuf_call1_v1, ofBuf_call1_v1, toBuf_call1_v0, ofBuf_call1_v0, ofBuf_cst_9]
  unfold Cert.Hgcn.dinv
  rfl

/-! ## Stretch 4: relation 2's edge weights, and the first layer's two weights set side by side and halved -/

theorem s4_v59 (Y : Valuation τ sig (Elt Ideal)) (e : IVec Cert.ReferenceIdeal.S2x1000000 32)
    (h33 : Y (Proc.devRef .tc main_v33) = Cert.Hgcn.ends0 e) (h36 : Y (Proc.devRef .tc main_v36) = Cert.Hgcn.ends1 e)
    (h44 : Y (Proc.devRef .tc main_v44) = Cert.Hgcn.dinv e) :
    after hostOps0_4 Y (Proc.devRef .tc main_v59) = Cert.Hgcn.norm e := by
  dsimp only [hostOps0_4]; after_results_simp
  rw [h33, h36, h44]; rfl

theorem s4_v62 (Y : Valuation τ sig (Elt Ideal)) :
    after hostOps0_4 Y (Proc.devRef .tc main_v62)
      = mulf (F := Ideal) (broadcastInDim S256x256 ![] Facts₀.bcast_S_S256x256 (constant (F := Ideal) S_ .f32 0x3F000000#32))
          (concatenate S256x256 1 [⟨S256x128, Y (Proc.devRef .tc main_arg4)⟩, ⟨S256x128, Y (Proc.devRef .tc main_arg6)⟩]
            Facts₀.concatenates_S256x128_S256x128_S256x256_d1) := by
  dsimp only [hostOps0_4]; after_results_simp; rfl

/-! ## Buffers a run of stretches does not write keep their contents -/

theorem k1_v3 (Y : Valuation τ sig (Elt Ideal)) :
    after hostOps0_1 (Y) (Proc.devRef .tc main_v3) = Y (Proc.devRef .tc main_v3) := by
  dsimp only [hostOps0_1]; after_results_simp

theorem k1_v6 (Y : Valuation τ sig (Elt Ideal)) :
    after hostOps0_1 (Y) (Proc.devRef .tc main_v6) = Y (Proc.devRef .tc main_v6) := by
  dsimp only [hostOps0_1]; after_results_simp

theorem k1234_v3 (Y : Valuation τ sig (Elt Ideal)) :
    after hostOps0_4 (after hostOps0_3 (after hostOps0_2 (after hostOps0_1 (Y)))) (Proc.devRef .tc main_v3) = Y (Proc.devRef .tc main_v3) := by
  dsimp only [hostOps0_4, hostOps0_3, hostOps0_2, hostOps0_1]; after_results_simp

theorem k1234_v6 (Y : Valuation τ sig (Elt Ideal)) :
    after hostOps0_4 (after hostOps0_3 (after hostOps0_2 (after hostOps0_1 (Y)))) (Proc.devRef .tc main_v6) = Y (Proc.devRef .tc main_v6) := by
  dsimp only [hostOps0_4, hostOps0_3, hostOps0_2, hostOps0_1]; after_results_simp

theorem k34_v29 (Y : Valuation τ sig (Elt Ideal)) :
    after hostOps0_4 (after hostOps0_3 (Y)) (Proc.devRef .tc main_v29) = Y (Proc.devRef .tc main_v29) := by
  dsimp only [hostOps0_4, hostOps0_3]; after_results_simp

theorem k34_v33 (Y : Valuation τ sig (Elt Ideal)) :
    after hostOps0_4 (after hostOps0_3 (Y)) (Proc.devRef .tc main_v33) = Y (Proc.devRef .tc main_v33) := by
  dsimp only [hostOps0_4, hostOps0_3]; after_results_simp

theorem k34_v36 (Y : Valuation τ sig (Elt Ideal)) :
    after hostOps0_4 (after hostOps0_3 (Y)) (Proc.devRef .tc main_v36) = Y (Proc.devRef .tc main_v36) := by
  dsimp only [hostOps0_4, hostOps0_3]; after_results_simp

theorem k3_v33 (Y : Valuation τ sig (Elt Ideal)) :
    after hostOps0_3 (Y) (Proc.devRef .tc main_v33) = Y (Proc.devRef .tc main_v33) := by
  dsimp only [hostOps0_3]; after_results_simp

theorem k3_v36 (Y : Valuation τ sig (Elt Ideal)) :
    after hostOps0_3 (Y) (Proc.devRef .tc main_v36) = Y (Proc.devRef .tc main_v36) := by
  dsimp only [hostOps0_3]; after_results_simp

theorem k01_arg2 (Y : Valuation τ sig (Elt Ideal)) :
    after hostOps0_1 (after hostOps0 (Y)) (Proc.devRef .tc main_arg2) = Y (Proc.devRef .tc main_arg2) := by
  dsimp only [hostOps0_1, hostOps0]; after_results_simp

theorem k0123_arg4 (Y : Valuation τ sig (Elt Ideal)) :
    after hostOps0_3 (after hostOps0_2 (after hostOps0_1 (after hostOps0 (Y)))) (Proc.devRef .tc main_arg4) = Y (Proc.devRef .tc main_arg4) := by
  dsimp only [hostOps0_3, hostOps0_2, hostOps0_1, hostOps0]; after_results_simp

theorem k0123_arg6 (Y : Valuation τ sig (Elt Ideal)) :
    after hostOps0_3 (after hostOps0_2 (after hostOps0_1 (after hostOps0 (Y)))) (Proc.devRef .tc main_arg6) = Y (Proc.devRef .tc main_arg6) := by
  dsimp only [hostOps0_3, hostOps0_2, hostOps0_1, hostOps0]; after_results_simp

/-! ## The contents before the first region -/

/-- The five stretches, in order, from the launch contents. -/
abbrev foldA : Valuation τ sig (Elt Ideal) :=
  after hostOps0_4 (after hostOps0_3 (after hostOps0_2 (after hostOps0_1 (after hostOps0 X))))

/-- Relation 1's edge sources, the self loops' after them. -/
theorem stageA_v3 : foldA X (Proc.devRef .tc main_v3) = Cert.Hgcn.ends0 (X (Proc.devRef .tc main_arg1)) :=
  (k1234_v3 (after hostOps0 X)).trans (s0_v3 X)

/-- Relation 1's edge targets. -/
theorem stageA_v6 : foldA X (Proc.devRef .tc main_v6) = Cert.Hgcn.ends1 (X (Proc.devRef .tc main_arg1)) :=
  (k1234_v6 (after hostOps0 X)).trans (s0_v6 X)

/-- Relation 1's edge weights: stretch 0 gives the guard's operands, stretch 1 the guarded inverse square root, stretch 2
    multiplies its values at an edge's two ends. -/
theorem stageA_v29 : foldA X (Proc.devRef .tc main_v29) = Cert.Hgcn.norm (X (Proc.devRef .tc main_arg1)) :=
  (k34_v29 (after hostOps0_2 (after hostOps0_1 (after hostOps0 X)))).trans
    (s2_v29 (after hostOps0_1 (after hostOps0 X)) (X (Proc.devRef .tc main_arg1))
      ((k1_v3 (after hostOps0 X)).trans (s0_v3 X))
      ((k1_v6 (after hostOps0 X)).trans (s0_v6 X))
      (s1_v14 (after hostOps0 X) (X (Proc.devRef .tc main_arg1)) (s0_v12 X) (s0_v13 X) (s0_cst2 X)))

/-- Relation 2's edge list is read, in stretch 2, as the launch left it. -/
theorem r2_v33 : after hostOps0_2 (after hostOps0_1 (after hostOps0 X)) (Proc.devRef .tc main_v33) = Cert.Hgcn.ends0 (X (Proc.devRef .tc main_arg2)) := by
  rw [s2_v33, k01_arg2]

theorem r2_v36 : after hostOps0_2 (after hostOps0_1 (after hostOps0 X)) (Proc.devRef .tc main_v36) = Cert.Hgcn.ends1 (X (Proc.devRef .tc main_arg2)) := by
  rw [s2_v36, k01_arg2]

theorem r2_v42 : after hostOps0_2 (after hostOps0_1 (after hostOps0 X)) (Proc.devRef .tc main_v42)
    = cmpf .ogt (Cert.Hgcn.degree (X (Proc.devRef .tc main_arg2))) (broadcastInDim S50000 ![] Facts₀.bcast_S_S50000 (constant (F := Ideal) S_ .f32 0x00000000#32)) := by
  rw [s2_v42, k01_arg2]

theorem r2_v43 : after hostOps0_2 (after hostOps0_1 (after hostOps0 X)) (Proc.devRef .tc main_v43) = Host.rsqrt (Cert.Hgcn.degree (X (Proc.devRef .tc main_arg2))) := by
  rw [s2_v43, k01_arg2]

/-- Relation 2's edge sources. -/
theorem stageA_v33 : foldA X (Proc.devRef .tc main_v33) = Cert.Hgcn.ends0 (X (Proc.devRef .tc main_arg2)) :=
  (k34_v33 (after hostOps0_2 (after hostOps0_1 (after hostOps0 X)))).trans (r2_v33 X)

/-- Relation 2's edge targets. -/
theorem stageA_v36 : foldA X (Proc.devRef .tc main_v36) = Cert.Hgcn.ends1 (X (Proc.devRef .tc main_arg2)) :=
  (k34_v36 (after hostOps0_2 (after hostOps0_1 (after hostOps0 X)))).trans (r2_v36 X)

/-- Relation 2's edge weights, by stretches 2, 3 and 4 as relation 1's by stretches 0, 1 and 2. -/
theorem stageA_v59 : foldA X (Proc.devRef .tc main_v59) = Cert.Hgcn.norm (X (Proc.devRef .tc main_arg2)) :=
  s4_v59 (after hostOps0_3 (after hostOps0_2 (after hostOps0_1 (after hostOps0 X)))) (X (Proc.devRef .tc main_arg2))
    ((k3_v33 (after hostOps0_2 (after hostOps0_1 (after hostOps0 X)))).trans (r2_v33 X))
    ((k3_v36 (after hostOps0_2 (after hostOps0_1 (after hostOps0 X)))).trans (r2_v36 X))
    (s3_v44 (after hostOps0_2 (after hostOps0_1 (after hostOps0 X))) (X (Proc.devRef .tc main_arg2)) (r2_v42 X) (r2_v43 X) (s2_cst9 (after hostOps0_1 (after hostOps0 X))))

/-- The first layer's two weights, side by side and halved. -/
theorem stageA_v62 : foldA X (Proc.devRef .tc main_v62)
    = mulf (F := Ideal) (broadcastInDim S256x256 ![] Facts₀.bcast_S_S256x256 (constant (F := Ideal) S_ .f32 0x3F000000#32))
        (concatenate S256x256 1 [⟨S256x128, X (Proc.devRef .tc main_arg4)⟩, ⟨S256x128, X (Proc.devRef .tc main_arg6)⟩]
          Facts₀.concatenates_S256x128_S256x128_S256x256_d1) := by
  dsimp only [foldA]
  rw [s4_v62, k0123_arg4, k0123_arg6]

/-! ## The arguments the stretches only read -/

theorem stageA_arg0 : foldA X (Proc.devRef .tc main_arg0) = X (Proc.devRef .tc main_arg0) := by
  dsimp only [foldA, hostOps0_4, hostOps0_3, hostOps0_2, hostOps0_1, hostOps0]; after_results_simp

theorem stageA_arg3 : foldA X (Proc.devRef .tc main_arg3) = X (Proc.devRef .tc main_arg3) := by
  dsimp only [foldA, hostOps0_4, hostOps0_3, hostOps0_2, hostOps0_1, hostOps0]; after_results_simp

theorem stageA_arg5 : foldA X (Proc.devRef .tc main_arg5) = X (Proc.devRef .tc main_arg5) := by
  dsimp only [foldA, hostOps0_4, hostOps0_3, hostOps0_2, hostOps0_1, hostOps0]; after_results_simp

theorem stageA_arg7 : foldA X (Proc.devRef .tc main_arg7) = X (Proc.devRef .tc main_arg7) := by
  dsimp only [foldA, hostOps0_4, hostOps0_3, hostOps0_2, hostOps0_1, hostOps0]; after_results_simp

theorem stageA_arg8 : foldA X (Proc.devRef .tc main_arg8) = X (Proc.devRef .tc main_arg8) := by
  dsimp only [foldA, hostOps0_4, hostOps0_3, hostOps0_2, hostOps0_1, hostOps0]; after_results_simp

theorem stageA_arg9 : foldA X (Proc.devRef .tc main_arg9) = X (Proc.devRef .tc main_arg9) := by
  dsimp only [foldA, hostOps0_4, hostOps0_3, hostOps0_2, hostOps0_1, hostOps0]; after_results_simp

theorem stageA_arg10 : foldA X (Proc.devRef .tc main_arg10) = X (Proc.devRef .tc main_arg10) := by
  dsimp only [foldA, hostOps0_4, hostOps0_3, hostOps0_2, hostOps0_1, hostOps0]; after_results_simp

theorem stageA_arg11 : foldA X (Proc.devRef .tc main_arg11) = X (Proc.devRef .tc main_arg11) := by
  dsimp only [foldA, hostOps0_4, hostOps0_3, hostOps0_2, hostOps0_1, hostOps0]; after_results_simp

theorem stageA_arg12 : foldA X (Proc.devRef .tc main_arg12) = X (Proc.devRef .tc main_arg12) := by
  dsimp only [foldA, hostOps0_4, hostOps0_3, hostOps0_2, hostOps0_1, hostOps0]; after_results_simp

theorem stageA_arg13 : foldA X (Proc.devRef .tc main_arg13) = X (Proc.devRef .tc main_arg13) := by
  dsimp only [foldA, hostOps0_4, hostOps0_3, hostOps0_2, hostOps0_1, hostOps0]; after_results_simp

end Cert.KernelIdeal.KStage

end
-- ==== Proof.KStageB.lean ====
/-
  The kernel's host operations between its first and second matrix products, read as functions of the buffer
  contents they start from.

  The first product leaves the halved dense maps of both relations side by side (`main_v63`). The stretch after it
  takes the left and right 128 columns apart, sends each along its relation's edges (gather the source rows — through
  a rounding to bf16 and back, which is the identity on the extended reals —, weight, add into the target rows), adds
  the two and the halved bias sum; the outlined positive part follows; and a last short stretch sets the second
  layer's two weight matrices side by side and halves them. The edges' ends and weights were computed before the
  first product and are only read here, so they enter as hypotheses about the starting contents.
-/
import proofs.«116640_j87351044866138_2_alg».proof.Proof.Gen.KernelIdeal.Frame
import proofs.«116640_j87351044866138_2_alg».proof.Proof.Gen.ReferenceIdeal
import proofs.«116640_j87351044866138_2_alg».proof.Proof.Model

set_option maxRecDepth 16384

noncomputable section

namespace Cert.KernelIdeal.KStage

open Idealize.ShloMosaic Idealize.ShloMosaic.TcCoe Idealize.SL.Sem Idealize.ShloMosaic.StableHlo
open Cert.KernelIdeal Cert.KernelIdeal.Gen

variable (Y : Valuation τ sig (Elt Ideal))

/-- The contents after the three stretches between the first and the second product. -/
abbrev foldB : Valuation τ sig (Elt Ideal) := after hostOps1_2 (after hostOps1_1 (after hostOps1 Y))

/-- Before the positive part: the two relations' aggregates of the product's column halves, and the halved bias sum. -/
theorem b0_sum (e1 e2 : IVec Cert.ReferenceIdeal.S2x1000000 32)
    (h3 : Y (Proc.devRef .tc main_v3) = Cert.Hgcn.ends0 e1) (h6 : Y (Proc.devRef .tc main_v6) = Cert.Hgcn.ends1 e1)
    (h29 : Y (Proc.devRef .tc main_v29) = Cert.Hgcn.norm e1)
    (h33 : Y (Proc.devRef .tc main_v33) = Cert.Hgcn.ends0 e2) (h36 : Y (Proc.devRef .tc main_v36) = Cert.Hgcn.ends1 e2)
    (h59 : Y (Proc.devRef .tc main_v59) = Cert.Hgcn.norm e2) :
    after hostOps1 Y (Proc.devRef .tc main_v102)
      = addf (F := Ideal) (φ := .f32)
          (addf (F := Ideal) (φ := .f32)
            (Cert.Hgcn.aggr (extractStridedSlice S50000x128 ![0, 0] (Y (Proc.devRef .tc main_v63)) Facts₀.slices_S50000x256_S50000x128_0_0) e1)
            (Cert.Hgcn.aggr (extractStridedSlice S50000x128 ![0, 128] (Y (Proc.devRef .tc main_v63)) Facts₀.slices_S50000x256_S50000x128_0_128) e2))
          (Cert.Hgcn.biasRows (mulf (F := Ideal) (broadcastInDim S128 ![] Facts₀.bcast_S_S128 (constant (F := Ideal) S_ .f32 0x3F000000#32))
            (addf (F := Ideal) (Y (Proc.devRef .tc main_arg5)) (Y (Proc.devRef .tc main_arg7))))) := by
  dsimp only [hostOps1]
  after_results_simp
  rw [h3, h6, h29, h33, h36, h59]
  rfl

/-- The outlined positive part. -/
theorem b1_relu : after hostOps1_1 Y (Proc.devRef .tc main_v103) = Cert.Hgcn.relu (Y (Proc.devRef .tc main_v102)) := by
  dsimp only [hostOps1_1]
  after_results_simp
  rfl

/-- The short last stretch does not touch the hidden features. -/
theorem b2_keep : after hostOps1_2 Y (Proc.devRef .tc main_v103) = Y (Proc.devRef .tc main_v103) := by
  dsimp only [hostOps1_2]
  after_results_simp

/-- The hidden features after the three stretches: the kernel's layer over the first product's column halves. -/
theorem foldB_h (e1 e2 : IVec Cert.ReferenceIdeal.S2x1000000 32)
    (h3 : Y (Proc.devRef .tc main_v3) = Cert.Hgcn.ends0 e1) (h6 : Y (Proc.devRef .tc main_v6) = Cert.Hgcn.ends1 e1)
    (h29 : Y (Proc.devRef .tc main_v29) = Cert.Hgcn.norm e1)
    (h33 : Y (Proc.devRef .tc main_v33) = Cert.Hgcn.ends0 e2) (h36 : Y (Proc.devRef .tc main_v36) = Cert.Hgcn.ends1 e2)
    (h59 : Y (Proc.devRef .tc main_v59) = Cert.Hgcn.norm e2) :
    foldB Y (Proc.devRef .tc main_v103)
      = Cert.Hgcn.layerKer (extractStridedSlice S50000x128 ![0, 0] (Y (Proc.devRef .tc main_v63)) Facts₀.slices_S50000x256_S50000x128_0_0)
          (extractStridedSlice S50000x128 ![0, 128] (Y (Proc.devRef .tc main_v63)) Facts₀.slices_S50000x256_S50000x128_0_128)
          (Y (Proc.devRef .tc main_arg5)) (Y (Proc.devRef .tc main_arg7)) e1 e2 := by
  dsimp only [foldB]
  rw [b2_keep, b1_relu, b0_sum Y e1 e2 h3 h6 h29 h33 h36 h59]
  rfl

/-- The second layer's weights, side by side and halved. -/
theorem foldB_w :
    foldB Y (Proc.devRef .tc main_v106)
      = mulf (F := Ideal) (broadcastInDim S128x256 ![] Facts₀.bcast_S_S128x256 (constant (F := Ideal) S_ .f32 0x3F000000#32))
          (concatenate S128x256 1 [⟨S128x128, Y (Proc.devRef .tc main_arg8)⟩, ⟨S128x128, Y (Proc.devRef .tc main_arg10)⟩] Facts₀.concatenates_S128x128_S128x128_S128x256_d1) := by
  have h8 : after hostOps1_1 (after hostOps1 Y) (Proc.devRef .tc main_arg8) = Y (Proc.devRef .tc main_arg8) := by
    dsimp only [hostOps1_1, hostOps1]; after_results_simp
  have h10 : after hostOps1_1 (after hostOps1 Y) (Proc.devRef .tc main_arg10) = Y (Proc.devRef .tc main_arg10) := by
    dsimp only [hostOps1_1, hostOps1]; after_results_simp
  dsimp only [foldB]
  generalize after hostOps1_1 (after hostOps1 Y) = Z at h8 h10 ⊢
  dsimp only [hostOps1_2]
  after_results_simp
  rw [← h8, ← h10]

/-! What the three stretches only read or never touch keeps its contents. -/

theorem foldB_v3 : foldB Y (Proc.devRef .tc main_v3) = Y (Proc.devRef .tc main_v3) := by
  dsimp only [foldB, hostOps1_2, hostOps1_1, hostOps1]
  after_results_simp

theorem foldB_v6 : foldB Y (Proc.devRef .tc main_v6) = Y (Proc.devRef .tc main_v6) := by
  dsimp only [foldB, hostOps1_2, hostOps1_1, hostOps1]
  after_results_simp

theorem foldB_v29 : foldB Y (Proc.devRef .tc main_v29) = Y (Proc.devRef .tc main_v29) := by
  dsimp only [foldB, hostOps1_2, hostOps1_1, hostOps1]
  after_results_simp

theorem foldB_v33 : foldB Y (Proc.devRef .tc main_v33) = Y (Proc.devRef .tc main_v33) := by
  dsimp only [foldB, hostOps1_2, hostOps1_1, hostOps1]
  after_results_simp

theorem foldB_v36 : foldB Y (Proc.devRef .tc main_v36) = Y (Proc.devRef .tc main_v36) := by
  dsimp only [foldB, hostOps1_2, hostOps1_1, hostOps1]
  after_results_simp

theorem foldB_v59 : foldB Y (Proc.devRef .tc main_v59) = Y (Proc.devRef .tc main_v59) := by
  dsimp only [foldB, hostOps1_2, hostOps1_1, hostOps1]
  after_results_simp

theorem foldB_arg3 : foldB Y (Proc.devRef .tc main_arg3) = Y (Proc.devRef .tc main_arg3) := by
  dsimp only [foldB, hostOps1_2, hostOps1_1, hostOps1]
  after_results_simp

theorem foldB_arg9 : foldB Y (Proc.devRef .tc main_arg9) = Y (Proc.devRef .tc main_arg9) := by
  dsimp only [foldB, hostOps1_2, hostOps1_1, hostOps1]
  after_results_simp

theorem foldB_arg11 : foldB Y (Proc.devRef .tc main_arg11) = Y (Proc.devRef .tc main_arg11) := by
  dsimp only [foldB, hostOps1_2, hostOps1_1, hostOps1]
  after_results_simp

theorem foldB_arg12 : foldB Y (Proc.devRef .tc main_arg12) = Y (Proc.devRef .tc main_arg12) := by
  dsimp only [foldB, hostOps1_2, hostOps1_1, hostOps1]
  after_results_simp

theorem foldB_arg13 : foldB Y (Proc.devRef .tc main_arg13) = Y (Proc.devRef .tc main_arg13) := by
  dsimp only [foldB, hostOps1_2, hostOps1_1, hostOps1]
  after_results_simp

end Cert.KernelIdeal.KStage

end
-- ==== Proof.KStageCD.lean ====
/-
  Two stretches of the kernel's host operations, folded from arbitrary buffer contents `X`.

  Between its second and third pipelined products the kernel aggregates the second layer (gather the rows of each
  relation's map along the edges, weight them, add them into the target rows), adds the halved bias sum, takes the
  positive part, and sets the classifier's upper and lower 128 weight rows side by side. After the third product it
  turns the per-node partial scores into pair probabilities: wrap the candidate indices, gather the 2-wide rows, add,
  add the bias, apply the logistic function. Each lemma reads one buffer after such a stretch as a named function of
  the buffers the stretch started from; at the ideal instance the narrowing to bf16 and the widening back around a
  gather are the identity.
-/
import proofs.«116640_j87351044866138_2_alg».proof.Proof.Gen.KernelIdeal.Frame
import proofs.«116640_j87351044866138_2_alg».proof.Proof.Gen.ReferenceIdeal
import proofs.«116640_j87351044866138_2_alg».proof.Proof.Model

set_option maxRecDepth 16384

noncomputable section

namespace Cert.KernelIdeal.KStage

open Idealize.ShloMosaic Idealize.ShloMosaic.TcCoe Idealize.SL.Sem Idealize.ShloMosaic.StableHlo
open Cert.KernelIdeal Cert.KernelIdeal.Gen

variable (X : Valuation τ sig (Elt Ideal))

/-! ## The outlined positive part's typed references: the transports along a computed type are the identity -/

theorem toBuf_v147 (v : (⟨S50000x128, .f32⟩ : BufTy).Contents (Elt Ideal)) :
    (TRef.of main_v147 : TRef sig ⟨S50000x128, .f32⟩).toBuf v = v := rfl
theorem ofBuf_v146 (v : (⟨S50000x128, .f32⟩ : BufTy).Contents (Elt Ideal)) :
    (TRef.of main_v146 : TRef sig ⟨S50000x128, .f32⟩).ofBuf v = v := rfl
theorem toBuf_call3_v0 (v : (⟨S50000x128, .f32⟩ : BufTy).Contents (Elt Ideal)) :
    (TRef.of main_call3_v0 : TRef sig ⟨S50000x128, .f32⟩).toBuf v = v := rfl
theorem ofBuf_call3_v0 (v : (⟨S50000x128, .f32⟩ : BufTy).Contents (Elt Ideal)) :
    (TRef.of main_call3_v0 : TRef sig ⟨S50000x128, .f32⟩).ofBuf v = v := rfl
theorem toBuf_call3_cst (v : (⟨S_, .f32⟩ : BufTy).Contents (Elt Ideal)) :
    (TRef.of main_call3_cst : TRef sig ⟨S_, .f32⟩).toBuf v = v := rfl
theorem ofBuf_call3_cst (v : (⟨S_, .f32⟩ : BufTy).Contents (Elt Ideal)) :
    (TRef.of main_call3_cst : TRef sig ⟨S_, .f32⟩).ofBuf v = v := rfl

/-- At the ideal instance the narrowing to bf16 before a gather and the widening after it are the identity; the
    two programs' gather records have the same dimension numbers. -/
theorem gather_bf16 (H : FVec Ideal S50000x128 .f32) (w : IVec S1050000x1 32) :
    extf .f32 (Host.gather gather_S50000x128_S1050000x1_S1050000x128_1_0_n_n_0_1_1128
        (truncf .bf16 H bitsLt_bf16_f32) w) bitsLt_bf16_f32
      = Host.gather Cert.ReferenceIdeal.gather_S50000x128_S1050000x1_S1050000x128_1_0_n_n_0_1_1128 H w := rfl

/-! ## The second layer's aggregation, the positive part, the weights' rearrangement -/

/-- After the second layer's host operations, the outlined positive part and the weights' rearrangement, the
    embeddings' buffer holds the kernel's layer over the two column halves of the layer's product. -/
theorem stageC_z (e1 e2 : IVec Cert.ReferenceIdeal.S2x1000000 32)
    (h3 : X (Proc.devRef .tc main_v3) = Cert.Hgcn.ends0 e1) (h6 : X (Proc.devRef .tc main_v6) = Cert.Hgcn.ends1 e1)
    (h29 : X (Proc.devRef .tc main_v29) = Cert.Hgcn.norm e1)
    (h33 : X (Proc.devRef .tc main_v33) = Cert.Hgcn.ends0 e2) (h36 : X (Proc.devRef .tc main_v36) = Cert.Hgcn.ends1 e2)
    (h59 : X (Proc.devRef .tc main_v59) = Cert.Hgcn.norm e2) :
    StableHlo.after hostOps2_2 (StableHlo.after hostOps2_1 (StableHlo.after hostOps2 X)) (Proc.devRef .tc main_v147)
      = Cert.Hgcn.layerKer
          (extractStridedSlice S50000x128 ![0, 0] (X (Proc.devRef .tc main_v107)) Facts₀.slices_S50000x256_S50000x128_0_0)
          (extractStridedSlice S50000x128 ![0, 128] (X (Proc.devRef .tc main_v107)) Facts₀.slices_S50000x256_S50000x128_0_128)
          (X (Proc.devRef .tc main_arg9)) (X (Proc.devRef .tc main_arg11)) e1 e2 := by
  dsimp only [hostOps2_2, hostOps2_1, hostOps2]
  after_results_simp
  rw [h3, h6, h29, h33, h36, h59]
  rw [toBuf_v147, ofBuf_v146, ofBuf_call3_v0, toBuf_call3_v0, ofBuf_call3_cst, toBuf_call3_cst]
  unfold Cert.Hgcn.layerKer Cert.Hgcn.relu Cert.Hgcn.aggr Cert.Hgcn.biasRows Cert.Hgcn.normRows Cert.Hgcn.wrap
  rw [gather_bf16, gather_bf16]
  rfl

/-- … the rearranged classifier weights' buffer holds the upper and lower 128 rows side by side. -/
theorem stageC_w :
    StableHlo.after hostOps2_2 (StableHlo.after hostOps2_1 (StableHlo.after hostOps2 X)) (Proc.devRef .tc main_v150) = Cert.Hgcn.wcPair (X (Proc.devRef .tc main_arg12)) := by
  dsimp only [hostOps2_2, hostOps2_1, hostOps2]
  after_results_simp
  rfl

/-- These stretches do not write the candidate pairs' buffer. -/
theorem stageC_arg3 :
    StableHlo.after hostOps2_2 (StableHlo.after hostOps2_1 (StableHlo.after hostOps2 X)) (Proc.devRef .tc main_arg3) = X (Proc.devRef .tc main_arg3) := by
  dsimp only [hostOps2_2, hostOps2_1, hostOps2]
  after_results_simp

/-- These stretches do not write the classifier bias's buffer. -/
theorem stageC_arg13 :
    StableHlo.after hostOps2_2 (StableHlo.after hostOps2_1 (StableHlo.after hostOps2 X)) (Proc.devRef .tc main_arg13) = X (Proc.devRef .tc main_arg13) := by
  dsimp only [hostOps2_2, hostOps2_1, hostOps2]
  after_results_simp

/-! ## The pair scores -/

/-- After the last stretch of host operations, the probabilities' buffer holds the logistic function of the biased
    pair logits: the two gathered 2-wide rows of the node scores added. -/
theorem stageD_p :
    StableHlo.after hostOps3 X (Proc.devRef .tc main_v181)
      = Cert.Hgcn.probsOf (addf (F := Ideal) (φ := .f32)
          (Host.gather gather_S50000x2_S131072x1_S131072x2_1_0_n_n_0_1_12
            (extractStridedSlice S50000x2 ![0, 0] (X (Proc.devRef .tc main_v151)) Facts₀.slices_S50000x4_S50000x2_0_0)
            (Cert.Hgcn.cand0 (X (Proc.devRef .tc main_arg3))))
          (Host.gather gather_S50000x2_S131072x1_S131072x2_1_0_n_n_0_1_12
            (extractStridedSlice S50000x2 ![0, 2] (X (Proc.devRef .tc main_v151)) Facts₀.slices_S50000x4_S50000x2_0_2)
            (Cert.Hgcn.cand1 (X (Proc.devRef .tc main_arg3)))))
        (X (Proc.devRef .tc main_arg13)) := by
  dsimp only [hostOps3]
  after_results_simp
  rfl

/-- The last stretch does not write the embeddings' buffer. -/
theorem stageD_z :
    StableHlo.after hostOps3 X (Proc.devRef .tc main_v147) = X (Proc.devRef .tc main_v147) := by
  dsimp only [hostOps3]
  after_results_simp

end Cert.KernelIdeal.KStage

end
-- ==== Proof.KernelValue.lean ====
/-
  The kernel program's two results as the model's functions of its arguments.

  @main is a chain: host stretches, the first matrix product, host stretches, the second product, host stretches,
  the third product, a last stretch. The contents of every buffer at every boundary of that chain are named by the
  frame's fold (`Gen.W0` … `Gen.W15`). Here the fold is walked once, boundary by boundary, and at each boundary the
  few buffers that later steps read are said in closed form:
    * before the first product (`W5`): both relations' edge ends and edge weights, and the halved side-by-side weights;
    * after it (`W6`): its output is the whole product (`Region0.lean`), everything else is untouched;
    * before the second product (`W9`): the hidden features are the kernel's layer over the first product
      (`Cert.Hgcn.kerH`), and the second layer's weights stand halved and side by side;
    * after it (`W10`), before the third (`W13`): the node embeddings are the kernel's layer over the second product
      (`Cert.Hgcn.kerZ`), and the classifier's weight halves stand side by side;
    * after the third (`W14`) and at the end (`W15`): the pair probabilities are `Cert.Hgcn.kerP` of the embeddings,
      which the third product read without changing.
-/
import proofs.«116640_j87351044866138_2_alg».proof.Proof.Region0
import proofs.«116640_j87351044866138_2_alg».proof.Proof.Region1
import proofs.«116640_j87351044866138_2_alg».proof.Proof.Region2
import proofs.«116640_j87351044866138_2_alg».proof.Proof.RegionInputs
import proofs.«116640_j87351044866138_2_alg».proof.Proof.KStageA
import proofs.«116640_j87351044866138_2_alg».proof.Proof.KStageB
import proofs.«116640_j87351044866138_2_alg».proof.Proof.KStageCD

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.KStage

variable (m : (ℓ : Loc nD τ sig) → Buf (Elt Ideal) ℓ) (ρ : Dev nD → PrngReg) (c : Dev nD)

/-- An argument array as launched. -/
abbrev arg (b : Ref sig .tc) : Buf (Elt Ideal) ((c.tc : Thread nD τ).loc b) := m ((c.tc : Thread nD τ).loc b)

/-- The model's hidden features, node embeddings and pair probabilities of the launched arguments. -/
abbrev hK := Cert.Hgcn.kerH (arg m c main_arg0) (arg m c main_arg1) (arg m c main_arg2) (arg m c main_arg4) (arg m c main_arg5)
  (arg m c main_arg6) (arg m c main_arg7)
abbrev zK := Cert.Hgcn.kerZ (hK m c) (arg m c main_arg1) (arg m c main_arg2) (arg m c main_arg8) (arg m c main_arg9)
  (arg m c main_arg10) (arg m c main_arg11)
abbrev pK := Cert.Hgcn.kerP (zK m c) (arg m c main_arg3) (arg m c main_arg12) (arg m c main_arg13)

/-! ## Before the first product -/

theorem W5_v3 : W5 m ρ c (Proc.devRef .tc main_v3) = Cert.Hgcn.ends0 (arg m c main_arg1) := stageA_v3 (W0 m ρ c)
theorem W5_v6 : W5 m ρ c (Proc.devRef .tc main_v6) = Cert.Hgcn.ends1 (arg m c main_arg1) := stageA_v6 (W0 m ρ c)
theorem W5_v29 : W5 m ρ c (Proc.devRef .tc main_v29) = Cert.Hgcn.norm (arg m c main_arg1) := stageA_v29 (W0 m ρ c)
theorem W5_v33 : W5 m ρ c (Proc.devRef .tc main_v33) = Cert.Hgcn.ends0 (arg m c main_arg2) := stageA_v33 (W0 m ρ c)
theorem W5_v36 : W5 m ρ c (Proc.devRef .tc main_v36) = Cert.Hgcn.ends1 (arg m c main_arg2) := stageA_v36 (W0 m ρ c)
theorem W5_v59 : W5 m ρ c (Proc.devRef .tc main_v59) = Cert.Hgcn.norm (arg m c main_arg2) := stageA_v59 (W0 m ρ c)
theorem W5_v62 : W5 m ρ c (Proc.devRef .tc main_v62)
    = mulf (F := Ideal) (broadcastInDim S256x256 ![] Facts₀.bcast_S_S256x256 (constant (F := Ideal) S_ .f32 0x3F000000#32))
        (concatenate S256x256 1 [⟨S256x128, arg m c main_arg4⟩, ⟨S256x128, arg m c main_arg6⟩] Facts₀.concatenates_S256x128_S256x128_S256x256_d1) :=
  stageA_v62 (W0 m ρ c)
theorem W5_arg0 : W5 m ρ c (Proc.devRef .tc main_arg0) = arg m c main_arg0 := stageA_arg0 (W0 m ρ c)
theorem W5_arg3 : W5 m ρ c (Proc.devRef .tc main_arg3) = arg m c main_arg3 := stageA_arg3 (W0 m ρ c)
theorem W5_arg5 : W5 m ρ c (Proc.devRef .tc main_arg5) = arg m c main_arg5 := stageA_arg5 (W0 m ρ c)
theorem W5_arg7 : W5 m ρ c (Proc.devRef .tc main_arg7) = arg m c main_arg7 := stageA_arg7 (W0 m ρ c)
theorem W5_arg8 : W5 m ρ c (Proc.devRef .tc main_arg8) = arg m c main_arg8 := stageA_arg8 (W0 m ρ c)
theorem W5_arg9 : W5 m ρ c (Proc.devRef .tc main_arg9) = arg m c main_arg9 := stageA_arg9 (W0 m ρ c)
theorem W5_arg10 : W5 m ρ c (Proc.devRef .tc main_arg10) = arg m c main_arg10 := stageA_arg10 (W0 m ρ c)
theorem W5_arg11 : W5 m ρ c (Proc.devRef .tc main_arg11) = arg m c main_arg11 := stageA_arg11 (W0 m ρ c)
theorem W5_arg12 : W5 m ρ c (Proc.devRef .tc main_arg12) = arg m c main_arg12 := stageA_arg12 (W0 m ρ c)
theorem W5_arg13 : W5 m ρ c (Proc.devRef .tc main_arg13) = arg m c main_arg13 := stageA_arg13 (W0 m ρ c)

/-! ## After the first product: its output is the whole product; nothing else moved -/

theorem W6_v63 : W6 m ρ c (Proc.devRef .tc main_v63)
    = Cert.Hgcn.mm 50000 256 256 (arg m c main_arg0)
        (mulf (F := Ideal) (broadcastInDim S256x256 ![] Facts₀.bcast_S_S256x256 (constant (F := Ideal) S_ .f32 0x3F000000#32))
          (concatenate S256x256 1 [⟨S256x128, arg m c main_arg4⟩, ⟨S256x128, arg m c main_arg6⟩] Facts₀.concatenates_S256x128_S256x128_S256x256_d1)) :=
  (W6_arr m ρ c 2).trans ((RegionValue0.region0 (V5 m ρ) c).trans
    (congrArg₂ (Cert.Hgcn.mm 50000 256 256) (W5_arg0 m ρ c) (W5_v62 m ρ c)))

theorem W6_v3 : W6 m ρ c (Proc.devRef .tc main_v3) = Cert.Hgcn.ends0 (arg m c main_arg1) := (W6_of_ne m ρ c main_v3 (by decide)).trans (W5_v3 m ρ c)
theorem W6_v6 : W6 m ρ c (Proc.devRef .tc main_v6) = Cert.Hgcn.ends1 (arg m c main_arg1) := (W6_of_ne m ρ c main_v6 (by decide)).trans (W5_v6 m ρ c)
theorem W6_v29 : W6 m ρ c (Proc.devRef .tc main_v29) = Cert.Hgcn.norm (arg m c main_arg1) := (W6_of_ne m ρ c main_v29 (by decide)).trans (W5_v29 m ρ c)
theorem W6_v33 : W6 m ρ c (Proc.devRef .tc main_v33) = Cert.Hgcn.ends0 (arg m c main_arg2) := (W6_of_ne m ρ c main_v33 (by decide)).trans (W5_v33 m ρ c)
theorem W6_v36 : W6 m ρ c (Proc.devRef .tc main_v36) = Cert.Hgcn.ends1 (arg m c main_arg2) := (W6_of_ne m ρ c main_v36 (by decide)).trans (W5_v36 m ρ c)
theorem W6_v59 : W6 m ρ c (Proc.devRef .tc main_v59) = Cert.Hgcn.norm (arg m c main_arg2) := (W6_of_ne m ρ c main_v59 (by decide)).trans (W5_v59 m ρ c)
theorem W6_arg3 : W6 m ρ c (Proc.devRef .tc main_arg3) = arg m c main_arg3 := (W6_of_ne m ρ c main_arg3 (by decide)).trans (W5_arg3 m ρ c)
theorem W6_arg5 : W6 m ρ c (Proc.devRef .tc main_arg5) = arg m c main_arg5 := (W6_of_ne m ρ c main_arg5 (by decide)).trans (W5_arg5 m ρ c)
theorem W6_arg7 : W6 m ρ c (Proc.devRef .tc main_arg7) = arg m c main_arg7 := (W6_of_ne m ρ c main_arg7 (by decide)).trans (W5_arg7 m ρ c)
theorem W6_arg8 : W6 m ρ c (Proc.devRef .tc main_arg8) = arg m c main_arg8 := (W6_of_ne m ρ c main_arg8 (by decide)).trans (W5_arg8 m ρ c)
theorem W6_arg9 : W6 m ρ c (Proc.devRef .tc main_arg9) = arg m c main_arg9 := (W6_of_ne m ρ c main_arg9 (by decide)).trans (W5_arg9 m ρ c)
theorem W6_arg10 : W6 m ρ c (Proc.devRef .tc main_arg10) = arg m c main_arg10 := (W6_of_ne m ρ c main_arg10 (by decide)).trans (W5_arg10 m ρ c)
theorem W6_arg11 : W6 m ρ c (Proc.devRef .tc main_arg11) = arg m c main_arg11 := (W6_of_ne m ρ c main_arg11 (by decide)).trans (W5_arg11 m ρ c)
theorem W6_arg12 : W6 m ρ c (Proc.devRef .tc main_arg12) = arg m c main_arg12 := (W6_of_ne m ρ c main_arg12 (by decide)).trans (W5_arg12 m ρ c)
theorem W6_arg13 : W6 m ρ c (Proc.devRef .tc main_arg13) = arg m c main_arg13 := (W6_of_ne m ρ c main_arg13 (by decide)).trans (W5_arg13 m ρ c)

/-! ## Before the second product: the hidden features and the second layer's weights -/

theorem W9_h : W9 m ρ c (Proc.devRef .tc main_v103) = hK m c := by
  have h := foldB_h (W6 m ρ c) (arg m c main_arg1) (arg m c main_arg2) (W6_v3 m ρ c) (W6_v6 m ρ c) (W6_v29 m ρ c)
    (W6_v33 m ρ c) (W6_v36 m ρ c) (W6_v59 m ρ c)
  rw [W6_v63, W6_arg5, W6_arg7] at h
  exact h

theorem W9_w : W9 m ρ c (Proc.devRef .tc main_v106)
    = mulf (F := Ideal) (broadcastInDim S128x256 ![] Facts₀.bcast_S_S128x256 (constant (F := Ideal) S_ .f32 0x3F000000#32))
        (concatenate S128x256 1 [⟨S128x128, arg m c main_arg8⟩, ⟨S128x128, arg m c main_arg10⟩] Facts₀.concatenates_S128x128_S128x128_S128x256_d1) := by
  have h := foldB_w (W6 m ρ c)
  rw [W6_arg8, W6_arg10] at h
  exact h

theorem W9_v3 : W9 m ρ c (Proc.devRef .tc main_v3) = Cert.Hgcn.ends0 (arg m c main_arg1) := (foldB_v3 (W6 m ρ c)).trans (W6_v3 m ρ c)
theorem W9_v6 : W9 m ρ c (Proc.devRef .tc main_v6) = Cert.Hgcn.ends1 (arg m c main_arg1) := (foldB_v6 (W6 m ρ c)).trans (W6_v6 m ρ c)
theorem W9_v29 : W9 m ρ c (Proc.devRef .tc main_v29) = Cert.Hgcn.norm (arg m c main_arg1) := (foldB_v29 (W6 m ρ c)).trans (W6_v29 m ρ c)
theorem W9_v33 : W9 m ρ c (Proc.devRef .tc main_v33) = Cert.Hgcn.ends0 (arg m c main_arg2) := (foldB_v33 (W6 m ρ c)).trans (W6_v33 m ρ c)
theorem W9_v36 : W9 m ρ c (Proc.devRef .tc main_v36) = Cert.Hgcn.ends1 (arg m c main_arg2) := (foldB_v36 (W6 m ρ c)).trans (W6_v36 m ρ c)
theorem W9_v59 : W9 m ρ c (Proc.devRef .tc main_v59) = Cert.Hgcn.norm (arg m c main_arg2) := (foldB_v59 (W6 m ρ c)).trans (W6_v59 m ρ c)
theorem W9_arg3 : W9 m ρ c (Proc.devRef .tc main_arg3) = arg m c main_arg3 := (foldB_arg3 (W6 m ρ c)).trans (W6_arg3 m ρ c)
theorem W9_arg9 : W9 m ρ c (Proc.devRef .tc main_arg9) = arg m c main_arg9 := (foldB_arg9 (W6 m ρ c)).trans (W6_arg9 m ρ c)
theorem W9_arg11 : W9 m ρ c (Proc.devRef .tc main_arg11) = arg m c main_arg11 := (foldB_arg11 (W6 m ρ c)).trans (W6_arg11 m ρ c)
theorem W9_arg12 : W9 m ρ c (Proc.devRef .tc main_arg12) = arg m c main_arg12 := (foldB_arg12 (W6 m ρ c)).trans (W6_arg12 m ρ c)
theorem W9_arg13 : W9 m ρ c (Proc.devRef .tc main_arg13) = arg m c main_arg13 := (foldB_arg13 (W6 m ρ c)).trans (W6_arg13 m ρ c)

/-! ## After the second product -/

theorem W10_v107 : W10 m ρ c (Proc.devRef .tc main_v107)
    = Cert.Hgcn.mm 50000 128 256 (hK m c)
        (mulf (F := Ideal) (broadcastInDim S128x256 ![] Facts₀.bcast_S_S128x256 (constant (F := Ideal) S_ .f32 0x3F000000#32))
          (concatenate S128x256 1 [⟨S128x128, arg m c main_arg8⟩, ⟨S128x128, arg m c main_arg10⟩] Facts₀.concatenates_S128x128_S128x128_S128x256_d1)) :=
  (W10_arr m ρ c 2).trans ((RegionValue1.region1 (V9 m ρ) c).trans
    (congrArg₂ (Cert.Hgcn.mm 50000 128 256) (W9_h m ρ c) (W9_w m ρ c)))

theorem W10_v3 : W10 m ρ c (Proc.devRef .tc main_v3) = Cert.Hgcn.ends0 (arg m c main_arg1) := (W10_of_ne m ρ c main_v3 (by decide)).trans (W9_v3 m ρ c)
theorem W10_v6 : W10 m ρ c (Proc.devRef .tc main_v6) = Cert.Hgcn.ends1 (arg m c main_arg1) := (W10_of_ne m ρ c main_v6 (by decide)).trans (W9_v6 m ρ c)
theorem W10_v29 : W10 m ρ c (Proc.devRef .tc main_v29) = Cert.Hgcn.norm (arg m c main_arg1) := (W10_of_ne m ρ c main_v29 (by decide)).trans (W9_v29 m ρ c)
theorem W10_v33 : W10 m ρ c (Proc.devRef .tc main_v33) = Cert.Hgcn.ends0 (arg m c main_arg2) := (W10_of_ne m ρ c main_v33 (by decide)).trans (W9_v33 m ρ c)
theorem W10_v36 : W10 m ρ c (Proc.devRef .tc main_v36) = Cert.Hgcn.ends1 (arg m c main_arg2) := (W10_of_ne m ρ c main_v36 (by decide)).trans (W9_v36 m ρ c)
theorem W10_v59 : W10 m ρ c (Proc.devRef .tc main_v59) = Cert.Hgcn.norm (arg m c main_arg2) := (W10_of_ne m ρ c main_v59 (by decide)).trans (W9_v59 m ρ c)
theorem W10_arg3 : W10 m ρ c (Proc.devRef .tc main_arg3) = arg m c main_arg3 := (W10_of_ne m ρ c main_arg3 (by decide)).trans (W9_arg3 m ρ c)
theorem W10_arg9 : W10 m ρ c (Proc.devRef .tc main_arg9) = arg m c main_arg9 := (W10_of_ne m ρ c main_arg9 (by decide)).trans (W9_arg9 m ρ c)
theorem W10_arg11 : W10 m ρ c (Proc.devRef .tc main_arg11) = arg m c main_arg11 := (W10_of_ne m ρ c main_arg11 (by decide)).trans (W9_arg11 m ρ c)
theorem W10_arg12 : W10 m ρ c (Proc.devRef .tc main_arg12) = arg m c main_arg12 := (W10_of_ne m ρ c main_arg12 (by decide)).trans (W9_arg12 m ρ c)
theorem W10_arg13 : W10 m ρ c (Proc.devRef .tc main_arg13) = arg m c main_arg13 := (W10_of_ne m ρ c main_arg13 (by decide)).trans (W9_arg13 m ρ c)

/-! ## Before the third product: the node embeddings and the classifier's weight halves -/

theorem W13_z : W13 m ρ c (Proc.devRef .tc main_v147) = zK m c := by
  have h := stageC_z (W10 m ρ c) (arg m c main_arg1) (arg m c main_arg2) (W10_v3 m ρ c) (W10_v6 m ρ c) (W10_v29 m ρ c)
    (W10_v33 m ρ c) (W10_v36 m ρ c) (W10_v59 m ρ c)
  rw [W10_v107, W10_arg9, W10_arg11] at h
  exact h

theorem W13_w : W13 m ρ c (Proc.devRef .tc main_v150) = Cert.Hgcn.wcPair (arg m c main_arg12) := by
  have h := stageC_w (W10 m ρ c)
  rw [W10_arg12] at h
  exact h

theorem W13_arg3 : W13 m ρ c (Proc.devRef .tc main_arg3) = arg m c main_arg3 := (stageC_arg3 (W10 m ρ c)).trans (W10_arg3 m ρ c)
theorem W13_arg13 : W13 m ρ c (Proc.devRef .tc main_arg13) = arg m c main_arg13 := (stageC_arg13 (W10 m ρ c)).trans (W10_arg13 m ρ c)

/-! ## After the third product, and at the end -/

theorem W14_v151 : W14 m ρ c (Proc.devRef .tc main_v151) = Cert.Hgcn.mm 50000 128 4 (zK m c) (Cert.Hgcn.wcPair (arg m c main_arg12)) :=
  (W14_arr m ρ c 2).trans ((RegionValue2.region2 (V13 m ρ) c).trans
    (congrArg₂ (Cert.Hgcn.mm 50000 128 4) (W13_z m ρ c) (W13_w m ρ c)))

/-- The third product reads the node embeddings through an input window: they come out as they went in. -/
theorem W14_z : W14 m ρ c (Proc.devRef .tc main_v147) = zK m c :=
  (W14_arr m ρ c 0).trans ((RegionInputs.in2_0 (V13 m ρ) c).trans (W13_z m ρ c))

theorem W14_arg3 : W14 m ρ c (Proc.devRef .tc main_arg3) = arg m c main_arg3 := (W14_of_ne m ρ c main_arg3 (by decide)).trans (W13_arg3 m ρ c)
theorem W14_arg13 : W14 m ρ c (Proc.devRef .tc main_arg13) = arg m c main_arg13 := (W14_of_ne m ρ c main_arg13 (by decide)).trans (W13_arg13 m ρ c)

/-- The node embeddings at the end of @main. -/
theorem W15_z : W15 m ρ c (Proc.devRef .tc main_v147) = zK m c := (stageD_z (W14 m ρ c)).trans (W14_z m ρ c)

/-- The pair probabilities at the end of @main. -/
theorem W15_p : W15 m ρ c (Proc.devRef .tc main_v181) = pK m c := by
  have h := stageD_p (W14 m ρ c)
  rw [W14_v151, W14_arg3, W14_arg13] at h
  exact h

end Cert.KernelIdeal.KernelValue

end
-- ==== Proof.RefCasts.lean ====
/-
  The typed references of the reference program's outlined functions carry their contents unchanged.

  The reference program calls two small functions: a selection (where the degree is positive take its inverse square
  root, elsewhere zero), four times, and the positive part of a layer's output, twice. A called function's operations
  address their buffers through references that carry the type of the value held; moving contents to such a reference
  and back is the identity, because the carried type is the buffer's own. One equation per buffer and direction says
  so, for rewriting a value read through these operations down to the plain operations on the plain contents.
-/
import proofs.«116640_j87351044866138_2_alg».proof.Proof.RefRun
import Idealize.ShloMosaic.PureOps.Ideal

set_option maxRecDepth 16384

noncomputable section

namespace Cert.ReferenceIdeal.RefValue

open Idealize.ShloMosaic Idealize.ShloMosaic.TcCoe Idealize.SL.Sem Idealize.ShloMosaic.StableHlo Cert.ReferenceIdeal

/-! ## The first layer, relation 1: the guarded inverse square root of the degrees (compare, inverse square root, zero, selection) -/

theorem toBuf_cst_2 (v : (⟨S_, .f32⟩ : BufTy).Contents (Elt Ideal)) :
    (TRef.of main_cst_2 : TRef sig ⟨S_, .f32⟩).toBuf v = v := rfl
theorem ofBuf_cst_2 (v : (⟨S_, .f32⟩ : BufTy).Contents (Elt Ideal)) :
    (TRef.of main_cst_2 : TRef sig ⟨S_, .f32⟩).ofBuf v = v := rfl
theorem toBuf_call0_v0 (v : (⟨S_, .f32⟩ : BufTy).Contents (Elt Ideal)) :
    (TRef.of main_call0_v0 : TRef sig ⟨S_, .f32⟩).toBuf v = v := rfl
theorem ofBuf_call0_v0 (v : (⟨S_, .f32⟩ : BufTy).Contents (Elt Ideal)) :
    (TRef.of main_call0_v0 : TRef sig ⟨S_, .f32⟩).ofBuf v = v := rfl
theorem toBuf_call0_v1 (v : (⟨S50000, .f32⟩ : BufTy).Contents (Elt Ideal)) :
    (TRef.of main_call0_v1 : TRef sig ⟨S50000, .f32⟩).toBuf v = v := rfl
theorem ofBuf_call0_v1 (v : (⟨S50000, .f32⟩ : BufTy).Contents (Elt Ideal)) :
    (TRef.of main_call0_v1 : TRef sig ⟨S50000, .f32⟩).ofBuf v = v := rfl
theorem toBuf_v12 (v : (⟨S50000, .i1⟩ : BufTy).Contents (Elt Ideal)) :
    (TRef.of main_v12 : TRef sig ⟨S50000, .i1⟩).toBuf v = v := rfl
theorem ofBuf_v12 (v : (⟨S50000, .i1⟩ : BufTy).Contents (Elt Ideal)) :
    (TRef.of main_v12 : TRef sig ⟨S50000, .i1⟩).ofBuf v = v := rfl
theorem toBuf_v13 (v : (⟨S50000, .f32⟩ : BufTy).Contents (Elt Ideal)) :
    (TRef.of main_v13 : TRef sig ⟨S50000, .f32⟩).toBuf v = v := rfl
theorem ofBuf_v13 (v : (⟨S50000, .f32⟩ : BufTy).Contents (Elt Ideal)) :
    (TRef.of main_v13 : TRef sig ⟨S50000, .f32⟩).ofBuf v = v := rfl
theorem toBuf_v14 (v : (⟨S50000, .f32⟩ : BufTy).Contents (Elt Ideal)) :
    (TRef.of main_v14 : TRef sig ⟨S50000, .f32⟩).toBuf v = v := rfl
theorem ofBuf_v14 (v : (⟨S50000, .f32⟩ : BufTy).Contents (Elt Ideal)) :
    (TRef.of main_v14 : TRef sig ⟨S50000, .f32⟩).ofBuf v = v := rfl

/-! ## The first layer, relation 2 -/

theorem toBuf_cst_12 (v : (⟨S_, .f32⟩ : BufTy).Contents (Elt Ideal)) :
    (TRef.of main_cst_12 : TRef sig ⟨S_, .f32⟩).toBuf v = v := rfl
theorem ofBuf_cst_12 (v : (⟨S_, .f32⟩ : BufTy).Contents (Elt Ideal)) :
    (TRef.of main_cst_12 : TRef sig ⟨S_, .f32⟩).ofBuf v = v := rfl
theorem toBuf_call1_v0 (v : (⟨S_, .f32⟩ : BufTy).Contents (Elt Ideal)) :
    (TRef.of main_call1_v0 : TRef sig ⟨S_, .f32⟩).toBuf v = v := rfl
theorem ofBuf_call1_v0 (v : (⟨S_, .f32⟩ : BufTy).Contents (Elt Ideal)) :
    (TRef.of main_call1_v0 : TRef sig ⟨S_, .f32⟩).ofBuf v = v := rfl
theorem toBuf_call1_v1 (v : (⟨S50000, .f32⟩ : BufTy).Contents (Elt Ideal)) :
    (TRef.of main_call1_v1 : TRef sig ⟨S50000, .f32⟩).toBuf v = v := rfl
theorem ofBuf_call1_v1 (v : (⟨S50000, .f32⟩ : BufTy).Contents (Elt Ideal)) :
    (TRef.of main_call1_v1 : TRef sig ⟨S50000, .f32⟩).ofBuf v = v := rfl
theorem toBuf_v59 (v : (⟨S50000, .i1⟩ : BufTy).Contents (Elt Ideal)) :
    (TRef.of main_v59 : TRef sig ⟨S50000, .i1⟩).toBuf v = v := rfl
theorem ofBuf_v59 (v : (⟨S50000, .i1⟩ : BufTy).Contents (Elt Ideal)) :
    (TRef.of main_v59 : TRef sig ⟨S50000, .i1⟩).ofBuf v = v := rfl
theorem toBuf_v60 (v : (⟨S50000, .f32⟩ : BufTy).Contents (Elt Ideal)) :
    (TRef.of main_v60 : TRef sig ⟨S50000, .f32⟩).toBuf v = v := rfl
theorem ofBuf_v60 (v : (⟨S50000, .f32⟩ : BufTy).Contents (Elt Ideal)) :
    (TRef.of main_v60 : TRef sig ⟨S50000, .f32⟩).ofBuf v = v := rfl
theorem toBuf_v61 (v : (⟨S50000, .f32⟩ : BufTy).Contents (Elt Ideal)) :
    (TRef.of main_v61 : TRef sig ⟨S50000, .f32⟩).toBuf v = v := rfl
theorem ofBuf_v61 (v : (⟨S50000, .f32⟩ : BufTy).Contents (Elt Ideal)) :
    (TRef.of main_v61 : TRef sig ⟨S50000, .f32⟩).ofBuf v = v := rfl

/-! ## The first layer's positive part (zero, its broadcast, the maximum) -/

theorem toBuf_call2_cst (v : (⟨S_, .f32⟩ : BufTy).Contents (Elt Ideal)) :
    (TRef.of main_call2_cst : TRef sig ⟨S_, .f32⟩).toBuf v = v := rfl
theorem ofBuf_call2_cst (v : (⟨S_, .f32⟩ : BufTy).Contents (Elt Ideal)) :
    (TRef.of main_call2_cst : TRef sig ⟨S_, .f32⟩).ofBuf v = v := rfl
theorem toBuf_call2_v0 (v : (⟨S50000x128, .f32⟩ : BufTy).Contents (Elt Ideal)) :
    (TRef.of main_call2_v0 : TRef sig ⟨S50000x128, .f32⟩).toBuf v = v := rfl
theorem ofBuf_call2_v0 (v : (⟨S50000x128, .f32⟩ : BufTy).Contents (Elt Ideal)) :
    (TRef.of main_call2_v0 : TRef sig ⟨S50000x128, .f32⟩).ofBuf v = v := rfl
theorem toBuf_v96 (v : (⟨S50000x128, .f32⟩ : BufTy).Contents (Elt Ideal)) :
    (TRef.of main_v96 : TRef sig ⟨S50000x128, .f32⟩).toBuf v = v := rfl
theorem ofBuf_v96 (v : (⟨S50000x128, .f32⟩ : BufTy).Contents (Elt Ideal)) :
    (TRef.of main_v96 : TRef sig ⟨S50000x128, .f32⟩).ofBuf v = v := rfl
theorem toBuf_v97 (v : (⟨S50000x128, .f32⟩ : BufTy).Contents (Elt Ideal)) :
    (TRef.of main_v97 : TRef sig ⟨S50000x128, .f32⟩).toBuf v = v := rfl
theorem ofBuf_v97 (v : (⟨S50000x128, .f32⟩ : BufTy).Contents (Elt Ideal)) :
    (TRef.of main_v97 : TRef sig ⟨S50000x128, .f32⟩).ofBuf v = v := rfl

/-! ## The second layer, relation 1 -/

theorem toBuf_cst_24 (v : (⟨S_, .f32⟩ : BufTy).Contents (Elt Ideal)) :
    (TRef.of main_cst_24 : TRef sig ⟨S_, .f32⟩).toBuf v = v := rfl
theorem ofBuf_cst_24 (v : (⟨S_, .f32⟩ : BufTy).Contents (Elt Ideal)) :
    (TRef.of main_cst_24 : TRef sig ⟨S_, .f32⟩).ofBuf v = v := rfl
theorem toBuf_call3_v0 (v : (⟨S_, .f32⟩ : BufTy).Contents (Elt Ideal)) :
    (TRef.of main_call3_v0 : TRef sig ⟨S_, .f32⟩).toBuf v = v := rfl
theorem ofBuf_call3_v0 (v : (⟨S_, .f32⟩ : BufTy).Contents (Elt Ideal)) :
    (TRef.of main_call3_v0 : TRef sig ⟨S_, .f32⟩).ofBuf v = v := rfl
theorem toBuf_call3_v1 (v : (⟨S50000, .f32⟩ : BufTy).Contents (Elt Ideal)) :
    (TRef.of main_call3_v1 : TRef sig ⟨S50000, .f32⟩).toBuf v = v := rfl
theorem ofBuf_call3_v1 (v : (⟨S50000, .f32⟩ : BufTy).Contents (Elt Ideal)) :
    (TRef.of main_call3_v1 : TRef sig ⟨S50000, .f32⟩).ofBuf v = v := rfl
theorem toBuf_v110 (v : (⟨S50000, .i1⟩ : BufTy).Contents (Elt Ideal)) :
    (TRef.of main_v110 : TRef sig ⟨S50000, .i1⟩).toBuf v = v := rfl
theorem ofBuf_v110 (v : (⟨S50000, .i1⟩ : BufTy).Contents (Elt Ideal)) :
    (TRef.of main_v110 : TRef sig ⟨S50000, .i1⟩).ofBuf v = v := rfl
theorem toBuf_v111 (v : (⟨S50000, .f32⟩ : BufTy).Contents (Elt Ideal)) :
    (TRef.of main_v111 : TRef sig ⟨S50000, .f32⟩).toBuf v = v := rfl
theorem ofBuf_v111 (v : (⟨S50000, .f32⟩ : BufTy).Contents (Elt Ideal)) :
    (TRef.of main_v111 : TRef sig ⟨S50000, .f32⟩).ofBuf v = v := rfl
theorem toBuf_v112 (v : (⟨S50000, .f32⟩ : BufTy).Contents (Elt Ideal)) :
    (TRef.of main_v112 : TRef sig ⟨S50000, .f32⟩).toBuf v = v := rfl
theorem ofBuf_v112 (v : (⟨S50000, .f32⟩ : BufTy).Contents (Elt Ideal)) :
    (TRef.of main_v112 : TRef sig ⟨S50000, .f32⟩).ofBuf v = v := rfl

/-! ## The second layer, relation 2 -/

theorem toBuf_cst_35 (v : (⟨S_, .f32⟩ : BufTy).Contents (Elt Ideal)) :
    (TRef.of main_cst_35 : TRef sig ⟨S_, .f32⟩).toBuf v = v := rfl
theorem ofBuf_cst_35 (v : (⟨S_, .f32⟩ : BufTy).Contents (Elt Ideal)) :
    (TRef.of main_cst_35 : TRef sig ⟨S_, .f32⟩).ofBuf v = v := rfl
theorem toBuf_call4_v0 (v : (⟨S_, .f32⟩ : BufTy).Contents (Elt Ideal)) :
    (TRef.of main_call4_v0 : TRef sig ⟨S_, .f32⟩).toBuf v = v := rfl
theorem ofBuf_call4_v0 (v : (⟨S_, .f32⟩ : BufTy).Contents (Elt Ideal)) :
    (TRef.of main_call4_v0 : TRef sig ⟨S_, .f32⟩).ofBuf v = v := rfl
theorem toBuf_call4_v1 (v : (⟨S50000, .f32⟩ : BufTy).Contents (Elt Ideal)) :
    (TRef.of main_call4_v1 : TRef sig ⟨S50000, .f32⟩).toBuf v = v := rfl
theorem ofBuf_call4_v1 (v : (⟨S50000, .f32⟩ : BufTy).Contents (Elt Ideal)) :
    (TRef.of main_call4_v1 : TRef sig ⟨S50000, .f32⟩).ofBuf v = v := rfl
theorem toBuf_v157 (v : (⟨S50000, .i1⟩ : BufTy).Contents (Elt Ideal)) :
    (TRef.of main_v157 : TRef sig ⟨S50000, .i1⟩).toBuf v = v := rfl
theorem ofBuf_v157 (v : (⟨S50000, .i1⟩ : BufTy).Contents (Elt Ideal)) :
    (TRef.of main_v157 : TRef sig ⟨S50000, .i1⟩).ofBuf v = v := rfl
theorem toBuf_v158 (v : (⟨S50000, .f32⟩ : BufTy).Contents (Elt Ideal)) :
    (TRef.of main_v158 : TRef sig ⟨S50000, .f32⟩).toBuf v = v := rfl
theorem ofBuf_v158 (v : (⟨S50000, .f32⟩ : BufTy).Contents (Elt Ideal)) :
    (TRef.of main_v158 : TRef sig ⟨S50000, .f32⟩).ofBuf v = v := rfl
theorem toBuf_v159 (v : (⟨S50000, .f32⟩ : BufTy).Contents (Elt Ideal)) :
    (TRef.of main_v159 : TRef sig ⟨S50000, .f32⟩).toBuf v = v := rfl
theorem ofBuf_v159 (v : (⟨S50000, .f32⟩ : BufTy).Contents (Elt Ideal)) :
    (TRef.of main_v159 : TRef sig ⟨S50000, .f32⟩).ofBuf v = v := rfl

/-! ## The second layer's positive part -/

theorem toBuf_call5_cst (v : (⟨S_, .f32⟩ : BufTy).Contents (Elt Ideal)) :
    (TRef.of main_call5_cst : TRef sig ⟨S_, .f32⟩).toBuf v = v := rfl
theorem ofBuf_call5_cst (v : (⟨S_, .f32⟩ : BufTy).Contents (Elt Ideal)) :
    (TRef.of main_call5_cst : TRef sig ⟨S_, .f32⟩).ofBuf v = v := rfl
theorem toBuf_call5_v0 (v : (⟨S50000x128, .f32⟩ : BufTy).Contents (Elt Ideal)) :
    (TRef.of main_call5_v0 : TRef sig ⟨S50000x128, .f32⟩).toBuf v = v := rfl
theorem ofBuf_call5_v0 (v : (⟨S50000x128, .f32⟩ : BufTy).Contents (Elt Ideal)) :
    (TRef.of main_call5_v0 : TRef sig ⟨S50000x128, .f32⟩).ofBuf v = v := rfl
theorem toBuf_v194 (v : (⟨S50000x128, .f32⟩ : BufTy).Contents (Elt Ideal)) :
    (TRef.of main_v194 : TRef sig ⟨S50000x128, .f32⟩).toBuf v = v := rfl
theorem ofBuf_v194 (v : (⟨S50000x128, .f32⟩ : BufTy).Contents (Elt Ideal)) :
    (TRef.of main_v194 : TRef sig ⟨S50000x128, .f32⟩).ofBuf v = v := rfl
theorem toBuf_v195 (v : (⟨S50000x128, .f32⟩ : BufTy).Contents (Elt Ideal)) :
    (TRef.of main_v195 : TRef sig ⟨S50000x128, .f32⟩).toBuf v = v := rfl
theorem ofBuf_v195 (v : (⟨S50000x128, .f32⟩ : BufTy).Contents (Elt Ideal)) :
    (TRef.of main_v195 : TRef sig ⟨S50000x128, .f32⟩).ofBuf v = v := rfl

end Cert.ReferenceIdeal.RefValue

end
-- ==== Proof.RefArgs.lean ====
/-
  The reference's arguments end as launched.

  The reference program is one straight line of 289 operations, each of which writes one buffer of its own; the
  fourteen arguments' buffers are the first fourteen of the buffer table and every written buffer comes after them.
  So an argument's buffer holds, after the whole line or any part of it, what it held before.
-/
import proofs.«116640_j87351044866138_2_alg».proof.Proof.RefRun
import Idealize.ShloMosaic.PureOps.Ideal

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

/-- Every buffer an operation of the reference writes sits past the fourteen arguments in the buffer table. -/
theorem ops_writes_ge :
    (RunP.ops (F := Ideal)).Forall fun op =>
      ∀ r : Ref sig .tc, Proc.devRef (τ := τ) .tc r ∈ op.writes → 14 ≤ r.idx.val := by
  simp only [RunP.ops, List.Forall, nullary_writes, unary_writes, binary_writes, ternary_writes, reshape_writes,
    Finset.mem_singleton]
  repeat' apply And.intro
  all_goals exact fun r h => by cases Proc.devRef_injective _ h; decide

/-- A buffer among the first fourteen of the table keeps its contents through any of the reference's operations. -/
theorem unwritten_of_sub (l : List (HloOp τ sig (Elt Ideal))) (hl : ∀ op ∈ l, op ∈ RunP.ops (F := Ideal))
    (X : Valuation τ sig (Elt Ideal)) (r : Ref sig .tc) (hr : r.idx.val < 14) :
    StableHlo.after l X (Proc.devRef .tc r) = X (Proc.devRef .tc r) :=
  StableHlo.after_of_forall_not_mem l X fun op hop hb =>
    absurd ((List.forall_iff_forall_mem.mp ops_writes_ge) op (hl op hop) r hb) (by omega)

/-- Such a buffer ends the whole run as launched. -/
theorem ref_unwritten (m : (ℓ : Loc nD τ sig) → Buf (Elt Ideal) ℓ) (c : Dev nD) (r : Ref sig .tc) (hr : r.idx.val < 14) :
    StableHlo.after (RunP.ops (F := Ideal)) (StableHlo.launchContents m c) (Proc.devRef .tc r)
      = m ((c.tc : Thread nD τ).loc r) :=
  unwritten_of_sub _ (fun _ h => h) _ r hr

theorem ref_arg0 (m : (ℓ : Loc nD τ sig) → Buf (Elt Ideal) ℓ) (c : Dev nD) :
    StableHlo.after (RunP.ops (F := Ideal)) (StableHlo.launchContents m c) (Proc.devRef .tc main_arg0)
      = m ((c.tc : Thread nD τ).loc main_arg0) :=
  ref_unwritten m c main_arg0 (by decide)

theorem ref_arg1 (m : (ℓ : Loc nD τ sig) → Buf (Elt Ideal) ℓ) (c : Dev nD) :
    StableHlo.after (RunP.ops (F := Ideal)) (StableHlo.launchContents m c) (Proc.devRef .tc main_arg1)
      = m ((c.tc : Thread nD τ).loc main_arg1) :=
  ref_unwritten m c main_arg1 (by decide)

theorem ref_arg2 (m : (ℓ : Loc nD τ sig) → Buf (Elt Ideal) ℓ) (c : Dev nD) :
    StableHlo.after (RunP.ops (F := Ideal)) (StableHlo.launchContents m c) (Proc.devRef .tc main_arg2)
      = m ((c.tc : Thread nD τ).loc main_arg2) :=
  ref_unwritten m c main_arg2 (by decide)

theorem ref_arg3 (m : (ℓ : Loc nD τ sig) → Buf (Elt Ideal) ℓ) (c : Dev nD) :
    StableHlo.after (RunP.ops (F := Ideal)) (StableHlo.launchContents m c) (Proc.devRef .tc main_arg3)
      = m ((c.tc : Thread nD τ).loc main_arg3) :=
  ref_unwritten m c main_arg3 (by decide)

theorem ref_arg4 (m : (ℓ : Loc nD τ sig) → Buf (Elt Ideal) ℓ) (c : Dev nD) :
    StableHlo.after (RunP.ops (F := Ideal)) (StableHlo.launchContents m c) (Proc.devRef .tc main_arg4)
      = m ((c.tc : Thread nD τ).loc main_arg4) :=
  ref_unwritten m c main_arg4 (by decide)

theorem ref_arg5 (m : (ℓ : Loc nD τ sig) → Buf (Elt Ideal) ℓ) (c : Dev nD) :
    StableHlo.after (RunP.ops (F := Ideal)) (StableHlo.launchContents m c) (Proc.devRef .tc main_arg5)
      = m ((c.tc : Thread nD τ).loc main_arg5) :=
  ref_unwritten m c main_arg5 (by decide)

theorem ref_arg6 (m : (ℓ : Loc nD τ sig) → Buf (Elt Ideal) ℓ) (c : Dev nD) :
    StableHlo.after (RunP.ops (F := Ideal)) (StableHlo.launchContents m c) (Proc.devRef .tc main_arg6)
      = m ((c.tc : Thread nD τ).loc main_arg6) :=
  ref_unwritten m c main_arg6 (by decide)

theorem ref_arg7 (m : (ℓ : Loc nD τ sig) → Buf (Elt Ideal) ℓ) (c : Dev nD) :
    StableHlo.after (RunP.ops (F := Ideal)) (StableHlo.launchContents m c) (Proc.devRef .tc main_arg7)
      = m ((c.tc : Thread nD τ).loc main_arg7) :=
  ref_unwritten m c main_arg7 (by decide)

theorem ref_arg8 (m : (ℓ : Loc nD τ sig) → Buf (Elt Ideal) ℓ) (c : Dev nD) :
    StableHlo.after (RunP.ops (F := Ideal)) (StableHlo.launchContents m c) (Proc.devRef .tc main_arg8)
      = m ((c.tc : Thread nD τ).loc main_arg8) :=
  ref_unwritten m c main_arg8 (by decide)

theorem ref_arg9 (m : (ℓ : Loc nD τ sig) → Buf (Elt Ideal) ℓ) (c : Dev nD) :
    StableHlo.after (RunP.ops (F := Ideal)) (StableHlo.launchContents m c) (Proc.devRef .tc main_arg9)
      = m ((c.tc : Thread nD τ).loc main_arg9) :=
  ref_unwritten m c main_arg9 (by decide)

theorem ref_arg10 (m : (ℓ : Loc nD τ sig) → Buf (Elt Ideal) ℓ) (c : Dev nD) :
    StableHlo.after (RunP.ops (F := Ideal)) (StableHlo.launchContents m c) (Proc.devRef .tc main_arg10)
      = m ((c.tc : Thread nD τ).loc main_arg10) :=
  ref_unwritten m c main_arg10 (by decide)

theorem ref_arg11 (m : (ℓ : Loc nD τ sig) → Buf (Elt Ideal) ℓ) (c : Dev nD) :
    StableHlo.after (RunP.ops (F := Ideal)) (StableHlo.launchContents m c) (Proc.devRef .tc main_arg11)
      = m ((c.tc : Thread nD τ).loc main_arg11) :=
  ref_unwritten m c main_arg11 (by decide)

theorem ref_arg12 (m : (ℓ : Loc nD τ sig) → Buf (Elt Ideal) ℓ) (c : Dev nD) :
    StableHlo.after (RunP.ops (F := Ideal)) (StableHlo.launchContents m c) (Proc.devRef .tc main_arg12)
      = m ((c.tc : Thread nD τ).loc main_arg12) :=
  ref_unwritten m c main_arg12 (by decide)

theorem ref_arg13 (m : (ℓ : Loc nD τ sig) → Buf (Elt Ideal) ℓ) (c : Dev nD) :
    StableHlo.after (RunP.ops (F := Ideal)) (StableHlo.launchContents m c) (Proc.devRef .tc main_arg13)
      = m ((c.tc : Thread nD τ).loc main_arg13) :=
  ref_unwritten m c main_arg13 (by decide)

end Cert.ReferenceIdeal.RefValue

end
-- ==== Proof.RefTail.lean ====
/-
  The reference's run, cut after the node embeddings.

  The reference's 289 operations are one straight line; the 254th writes the node embeddings and the remaining 35
  compute the pair probabilities from them: wrap the candidate indices, gather the two ends' embedding rows, set them
  side by side, multiply by the classifier's weights, add the bias, apply the logistic function. Folding a
  concatenated line is folding its two parts in turn, so the whole run's probabilities are the classifier applied to
  whatever the first 254 operations leave in the embeddings' buffer, and nothing later touches that buffer.
-/
import proofs.«116640_j87351044866138_2_alg».proof.Proof.RefRun
import proofs.«116640_j87351044866138_2_alg».proof.Proof.RefArgs
import proofs.«116640_j87351044866138_2_alg».proof.Proof.Model
import proofs.«116640_j87351044866138_2_alg».proof.Proof.Gen.ReferenceIdeal
import proofs.«116640_j87351044866138_2_alg».proof.Proof.Gen.KernelIdeal

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

section Tail
variable {F : FTy → Type} [FloatOps F]

/-- The reference's operations after the one that writes the node embeddings: the pair probabilities' part
    (the last 35 of the 289, in order). -/
abbrev tailOps : List (HloOp τ sig (Elt F)) :=
  [ unary main_arg3 main_v196 ((extractStridedSlice S1x131072 ![0, 0] · slices_S2x131072_S1x131072_0_0) : (⟨S2x131072, .i32⟩ : BufTy).Contents (Elt F) → (⟨S1x131072, .i32⟩ : BufTy).Contents (Elt F)),
    reshape main_v196 main_v197 rfl shapeCasts_S1x131072_S131072,
    unary main_arg3 main_v198 ((extractStridedSlice S1x131072 ![1, 0] · slices_S2x131072_S1x131072_1_0) : (⟨S2x131072, .i32⟩ : BufTy).Contents (Elt F) → (⟨S1x131072, .i32⟩ : BufTy).Contents (Elt F)),
    reshape main_v198 main_v199 rfl shapeCasts_S1x131072_S131072,
    nullary main_c_44 (constantI S_ 32 0#32),
    unary main_c_44 main_v200 (broadcastInDim S131072 ![] bcast_S_S131072 : (⟨S_, .i32⟩ : BufTy).Contents (Elt F) → (⟨S131072, .i32⟩ : BufTy).Contents (Elt F)),
    binary main_v197 main_v200 main_v201 (cmpi .slt : (⟨S131072, .i32⟩ : BufTy).Contents (Elt F) → (⟨S131072, .i32⟩ : BufTy).Contents (Elt F) → (⟨S131072, .i1⟩ : BufTy).Contents (Elt F)),
    nullary main_c_45 (constantI S_ 32 50000#32),
    unary main_c_45 main_v202 (broadcastInDim S131072 ![] bcast_S_S131072 : (⟨S_, .i32⟩ : BufTy).Contents (Elt F) → (⟨S131072, .i32⟩ : BufTy).Contents (Elt F)),
    binary main_v197 main_v202 main_v203 (addi : (⟨S131072, .i32⟩ : BufTy).Contents (Elt F) → (⟨S131072, .i32⟩ : BufTy).Contents (Elt F) → (⟨S131072, .i32⟩ : BufTy).Contents (Elt F)),
    ternary main_v201 main_v203 main_v197 main_v204 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v204 main_v205 (broadcastInDim S131072x1 ![0] bcast_S131072_S131072x1_0 : (⟨S131072, .i32⟩ : BufTy).Contents (Elt F) → (⟨S131072x1, .i32⟩ : BufTy).Contents (Elt F)),
    binary main_v195 main_v205 main_v206 ((fun x i => Host.gather gather_S50000x128_S131072x1_S131072x128_1_0_n_n_0_1_1128 x i) : (⟨S50000x128, .f32⟩ : BufTy).Contents (Elt F) → (⟨S131072x1, .i32⟩ : BufTy).Contents (Elt F) → (⟨S131072x128, .f32⟩ : BufTy).Contents (Elt F)),
    nullary main_c_46 (constantI S_ 32 0#32),
    unary main_c_46 main_v207 (broadcastInDim S131072 ![] bcast_S_S131072 : (⟨S_, .i32⟩ : BufTy).Contents (Elt F) → (⟨S131072, .i32⟩ : BufTy).Contents (Elt F)),
    binary main_v199 main_v207 main_v208 (cmpi .slt : (⟨S131072, .i32⟩ : BufTy).Contents (Elt F) → (⟨S131072, .i32⟩ : BufTy).Contents (Elt F) → (⟨S131072, .i1⟩ : BufTy).Contents (Elt F)),
    nullary main_c_47 (constantI S_ 32 50000#32),
    unary main_c_47 main_v209 (broadcastInDim S131072 ![] bcast_S_S131072 : (⟨S_, .i32⟩ : BufTy).Contents (Elt F) → (⟨S131072, .i32⟩ : BufTy).Contents (Elt F)),
    binary main_v199 main_v209 main_v210 (addi : (⟨S131072, .i32⟩ : BufTy).Contents (Elt F) → (⟨S131072, .i32⟩ : BufTy).Contents (Elt F) → (⟨S131072, .i32⟩ : BufTy).Contents (Elt F)),
    ternary main_v208 main_v210 main_v199 main_v211 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v211 main_v212 (broadcastInDim S131072x1 ![0] bcast_S131072_S131072x1_0 : (⟨S131072, .i32⟩ : BufTy).Contents (Elt F) → (⟨S131072x1, .i32⟩ : BufTy).Contents (Elt F)),
    binary main_v195 main_v212 main_v213 ((fun x i => Host.gather gather_S50000x128_S131072x1_S131072x128_1_0_n_n_0_1_1128 x i) : (⟨S50000x128, .f32⟩ : BufTy).Contents (Elt F) → (⟨S131072x1, .i32⟩ : BufTy).Contents (Elt F) → (⟨S131072x128, .f32⟩ : BufTy).Contents (Elt F)),
    binary main_v206 main_v213 main_v214 ((fun a b => concatenate S131072x256 1 [⟨S131072x128, a⟩, ⟨S131072x128, b⟩] concatenates_S131072x128_S131072x128_S131072x256_d1) : (⟨S131072x128, .f32⟩ : BufTy).Contents (Elt F) → (⟨S131072x128, .f32⟩ : BufTy).Contents (Elt F) → (⟨S131072x256, .f32⟩ : BufTy).Contents (Elt F)),
    binary main_v214 main_arg12 main_v215 ((fun l r => Host.dotGeneral dot_S131072x256_S256x2_S131072x2_1_0_0_1_n_n none l r) : (⟨S131072x256, .f32⟩ : BufTy).Contents (Elt F) → (⟨S256x2, .f32⟩ : BufTy).Contents (Elt F) → (⟨S131072x2, .f32⟩ : BufTy).Contents (Elt F)),
    unary main_arg13 main_v216 (broadcastInDim S1x2 ![1] bcast_S2_S1x2_1 : (⟨S2, .f32⟩ : BufTy).Contents (Elt F) → (⟨S1x2, .f32⟩ : BufTy).Contents (Elt F)),
    unary main_v216 main_v217 (broadcastInDim S131072x2 ![0, 1] bcast_S1x2_S131072x2_0_1 : (⟨S1x2, .f32⟩ : BufTy).Contents (Elt F) → (⟨S131072x2, .f32⟩ : BufTy).Contents (Elt F)),
    binary main_v215 main_v217 main_v218 (addf : (⟨S131072x2, .f32⟩ : BufTy).Contents (Elt F) → (⟨S131072x2, .f32⟩ : BufTy).Contents (Elt F) → (⟨S131072x2, .f32⟩ : BufTy).Contents (Elt F)),
    unary main_v218 main_v219 (Host.negf : (⟨S131072x2, .f32⟩ : BufTy).Contents (Elt F) → (⟨S131072x2, .f32⟩ : BufTy).Contents (Elt F)),
    unary main_v219 main_v220 (Host.exp : (⟨S131072x2, .f32⟩ : BufTy).Contents (Elt F) → (⟨S131072x2, .f32⟩ : BufTy).Contents (Elt F)),
    nullary main_cst_48 (constant S_ .f32 0x3F800000#32),
    unary main_cst_48 main_v221 (broadcastInDim S131072x2 ![] bcast_S_S131072x2 : (⟨S_, .f32⟩ : BufTy).Contents (Elt F) → (⟨S131072x2, .f32⟩ : BufTy).Contents (Elt F)),
    binary main_v221 main_v220 main_v222 (addf : (⟨S131072x2, .f32⟩ : BufTy).Contents (Elt F) → (⟨S131072x2, .f32⟩ : BufTy).Contents (Elt F) → (⟨S131072x2, .f32⟩ : BufTy).Contents (Elt F)),
    nullary main_cst_49 (constant S_ .f32 0x3F800000#32),
    unary main_cst_49 main_v223 (broadcastInDim S131072x2 ![] bcast_S_S131072x2 : (⟨S_, .f32⟩ : BufTy).Contents (Elt F) → (⟨S131072x2, .f32⟩ : BufTy).Contents (Elt F)),
    binary main_v223 main_v222 main_v224 (Host.divf : (⟨S131072x2, .f32⟩ : BufTy).Contents (Elt F) → (⟨S131072x2, .f32⟩ : BufTy).Contents (Elt F) → (⟨S131072x2, .f32⟩ : BufTy).Contents (Elt F)) ]

/-- The list cut after its 254th operation leaves exactly those. -/
theorem drop_ops : (RunP.ops (F := F)).drop 254 = tailOps := rfl

end Tail

/-- Two lines run one after the other: the fold of the concatenation is the second's fold of the first's. -/
theorem after_append (l₁ l₂ : List (HloOp τ sig (Elt Ideal))) (X : Valuation τ sig (Elt Ideal)) :
    StableHlo.after (l₁ ++ l₂) X = StableHlo.after l₂ (StableHlo.after l₁ X) := by
  induction l₁ generalizing X with
  | nil => rfl
  | cons op l ih => simp only [List.cons_append, after_cons, ih]

/-- From any contents `X`, the operations after the embeddings leave the pair probabilities of the reference's
    classifier over the embeddings' buffer as `X` has it. -/
theorem ref_tail (X : Valuation τ sig (Elt Ideal)) :
    StableHlo.after ((RunP.ops (F := Ideal)).drop 254) X (Proc.devRef .tc main_v224)
      = Cert.Hgcn.refP (X (Proc.devRef .tc main_v195)) (X (Proc.devRef .tc main_arg3))
          (X (Proc.devRef .tc main_arg12)) (X (Proc.devRef .tc main_arg13)) := by
  rw [drop_ops]
  dsimp only [tailOps]
  after_results_simp
  rfl

/-- The operations after the embeddings do not write the embeddings' buffer. -/
theorem tail_v195 (X : Valuation τ sig (Elt Ideal)) :
    StableHlo.after ((RunP.ops (F := Ideal)).drop 254) X (Proc.devRef .tc main_v195) = X (Proc.devRef .tc main_v195) := by
  rw [drop_ops]
  dsimp only [tailOps]
  after_results_simp

/-- The operations up to the one that writes the embeddings leave an argument's buffer as launched. -/
theorem take_arg (m : (ℓ : Loc nD τ sig) → Buf (Elt Ideal) ℓ) (c : Dev nD) (r : Ref sig .tc) (hr : r.idx.val < 14) :
    StableHlo.after ((RunP.ops (F := Ideal)).take 254) (StableHlo.launchContents m c) (Proc.devRef .tc r) = m ((c.tc : Thread nD τ).loc r) :=
  unwritten_of_sub _ (fun _ h => List.mem_of_mem_take h) _ r hr

/-- The whole run's pair probabilities are the reference's classifier over whatever embeddings `z` the first 254
    operations leave, at the launched candidate pairs, weights and bias. -/
theorem ref_p_of_z (m : (ℓ : Loc nD τ sig) → Buf (Elt Ideal) ℓ) (c : Dev nD) (z : FVec Ideal S50000x128 .f32)
    (hz : StableHlo.after ((RunP.ops (F := Ideal)).take 254) (StableHlo.launchContents m c) (Proc.devRef .tc main_v195) = z) :
    StableHlo.after (RunP.ops (F := Ideal)) (StableHlo.launchContents m c) (Proc.devRef .tc main_v224)
      = Cert.Hgcn.refP z (m ((c.tc : Thread nD τ).loc main_arg3)) (m ((c.tc : Thread nD τ).loc main_arg12)) (m ((c.tc : Thread nD τ).loc main_arg13)) := by
  calc StableHlo.after (RunP.ops (F := Ideal)) (StableHlo.launchContents m c) (Proc.devRef .tc main_v224)
      = StableHlo.after ((RunP.ops (F := Ideal)).take 254 ++ (RunP.ops (F := Ideal)).drop 254) (StableHlo.launchContents m c) (Proc.devRef .tc main_v224) := by
        rw [List.take_append_drop]
    _ = StableHlo.after ((RunP.ops (F := Ideal)).drop 254) (StableHlo.after ((RunP.ops (F := Ideal)).take 254) (StableHlo.launchContents m c)) (Proc.devRef .tc main_v224) := by
        rw [after_append]
    _ = _ := by
        rw [ref_tail, hz, take_arg m c main_arg3 (by decide), take_arg m c main_arg12 (by decide),
          take_arg m c main_arg13 (by decide)]

/-- The embeddings are final once written: nothing after the 254th operation writes their buffer. -/
theorem ref_z_take (m : (ℓ : Loc nD τ sig) → Buf (Elt Ideal) ℓ) (c : Dev nD) :
    StableHlo.after (RunP.ops (F := Ideal)) (StableHlo.launchContents m c) (Proc.devRef .tc main_v195)
      = StableHlo.after ((RunP.ops (F := Ideal)).take 254) (StableHlo.launchContents m c) (Proc.devRef .tc main_v195) := by
  calc StableHlo.after (RunP.ops (F := Ideal)) (StableHlo.launchContents m c) (Proc.devRef .tc main_v195)
      = StableHlo.after ((RunP.ops (F := Ideal)).take 254 ++ (RunP.ops (F := Ideal)).drop 254) (StableHlo.launchContents m c) (Proc.devRef .tc main_v195) := by
        rw [List.take_append_drop]
    _ = StableHlo.after ((RunP.ops (F := Ideal)).drop 254) (StableHlo.after ((RunP.ops (F := Ideal)).take 254) (StableHlo.launchContents m c)) (Proc.devRef .tc main_v195) := by
        rw [after_append]
    _ = _ := tail_v195 _

end Cert.ReferenceIdeal.RefValue

end
-- ==== Proof.RefHidden.lean ====
/-
  The reference program's first layer, read from its operations.

  The first layer is two convolutions of the node features, one per relation, their sum halved, and the positive part.
  A relation's convolution is: the edge list's sources and targets, a self loop appended for every node; the degree of
  a node, counting the edges that target it; its inverse square root where the degree is positive and zero elsewhere;
  an edge's weight, the product of that value at the edge's two wrapped ends; the dense map of the features by the
  relation's weight matrix; the aggregation, which gathers the dense map's row at every edge's source, weights it by
  the edge's weight and adds it into the row of the edge's target, starting from zero; and the relation's bias added
  to every row.

  The reference's first 127 operations are read here as four consecutive stretches — relation 1's convolution,
  relation 2's convolution, the sum and its halving, the positive part —, each as a function of whatever contents it
  starts from, with the earlier stretches' results it reads stated as hypotheses on their buffers. A stretch leaves
  the buffers it does not write as they were. Composing the four gives the hidden features as the reference's
  arrangement of the model names them, in terms of the arguments alone.
-/
import proofs.«116640_j87351044866138_2_alg».proof.Proof.RefRun
import proofs.«116640_j87351044866138_2_alg».proof.Proof.RefCasts
import proofs.«116640_j87351044866138_2_alg».proof.Proof.RefTail
import proofs.«116640_j87351044866138_2_alg».proof.Proof.Model
import proofs.«116640_j87351044866138_2_alg».proof.Proof.Gen.ReferenceIdeal
import proofs.«116640_j87351044866138_2_alg».proof.Proof.Gen.KernelIdeal

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The first layer's operations, in four runs -/

/-- Relation 1's convolution: edge ends, degrees, edge weights, the dense map, the aggregation, the bias. -/
abbrev l0_conv1Ops : List (HloOp τ sig (Elt F)) :=
  [ nullary main_v0 (iotaInDim S50000 32 0),
    unary main_arg1 main_v1 ((extractStridedSlice S1x1000000 ![0, 0] · slices_S2x1000000_S1x1000000_0_0) : (⟨S2x1000000, .i32⟩ : BufTy).Contents (Elt F) → (⟨S1x1000000, .i32⟩ : BufTy).Contents (Elt F)),
    reshape main_v1 main_v2 rfl shapeCasts_S1x1000000_S1000000,
    binary main_v2 main_v0 main_v3 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    unary main_arg1 main_v4 ((extractStridedSlice S1x1000000 ![1, 0] · slices_S2x1000000_S1x1000000_1_0) : (⟨S2x1000000, .i32⟩ : BufTy).Contents (Elt F) → (⟨S1x1000000, .i32⟩ : BufTy).Contents (Elt F)),
    reshape main_v4 main_v5 rfl shapeCasts_S1x1000000_S1000000,
    binary main_v5 main_v0 main_v6 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    nullary main_cst (constant S_ .f32 0x3F800000#32),
    unary main_cst main_v7 (broadcastInDim S1050000 ![] bcast_S_S1050000 : (⟨S_, .f32⟩ : BufTy).Contents (Elt F) → (⟨S1050000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1050000x1 ![0] bcast_S1050000_S1050000x1_0 : (⟨S1050000, .i32⟩ : BufTy).Contents (Elt F) → (⟨S1050000x1, .i32⟩ : BufTy).Contents (Elt F)),
    ternary main_v8 main_v9 main_v7 main_v10 ((fun x i u => Host.scatterAdd scatter_S50000_S1050000x1_S1050000_n_0_0_1 x i u) : (⟨S50000, .f32⟩ : BufTy).Contents (Elt F) → (⟨S1050000x1, .i32⟩ : BufTy).Contents (Elt F) → (⟨S1050000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S1050000 ![] bcast_S_S1050000 : (⟨S_, .i32⟩ : BufTy).Contents (Elt F) → (⟨S1050000, .i32⟩ : BufTy).Contents (Elt F)),
    binary main_v3 main_v15 main_v16 (cmpi .slt : (⟨S1050000, .i32⟩ : BufTy).Contents (Elt F) → (⟨S1050000, .i32⟩ : BufTy).Contents (Elt F) → (⟨S1050000, .i1⟩ : BufTy).Contents (Elt F)),
    nullary main_c_3 (constantI S_ 32 50000#32),
    unary main_c_3 main_v17 (broadcastInDim S1050000 ![] bcast_S_S1050000 : (⟨S_, .i32⟩ : BufTy).Contents (Elt F) → (⟨S1050000, .i32⟩ : BufTy).Contents (Elt F)),
    binary main_v3 main_v17 main_v18 (addi : (⟨S1050000, .i32⟩ : BufTy).Contents (Elt F) → (⟨S1050000, .i32⟩ : BufTy).Contents (Elt F) → (⟨S1050000, .i32⟩ : BufTy).Contents (Elt F)),
    ternary main_v16 main_v18 main_v3 main_v19 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    unary main_v19 main_v20 (broadcastInDim S1050000x1 ![0] bcast_S1050000_S1050000x1_0 : (⟨S1050000, .i32⟩ : BufTy).Contents (Elt F) → (⟨S1050000x1, .i32⟩ : BufTy).Contents (Elt F)),
    binary main_v14 main_v20 main_v21 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    nullary main_c_4 (constantI S_ 32 0#32),
    unary main_c_4 main_v22 (broadcastInDim S1050000 ![] bcast_S_S1050000 : (⟨S_, .i32⟩ : BufTy).Contents (Elt F) → (⟨S1050000, .i32⟩ : BufTy).Contents (Elt F)),
    binary main_v6 main_v22 main_v23 (cmpi .slt : (⟨S1050000, .i32⟩ : BufTy).Contents (Elt F) → (⟨S1050000, .i32⟩ : BufTy).Contents (Elt F) → (⟨S1050000, .i1⟩ : BufTy).Contents (Elt F)),
    nullary main_c_5 (constantI S_ 32 50000#32),
    unary main_c_5 main_v24 (broadcastInDim S1050000 ![] bcast_S_S1050000 : (⟨S_, .i32⟩ : BufTy).Contents (Elt F) → (⟨S1050000, .i32⟩ : BufTy).Contents (Elt F)),
    binary main_v6 main_v24 main_v25 (addi : (⟨S1050000, .i32⟩ : BufTy).Contents (Elt F) → (⟨S1050000, .i32⟩ : BufTy).Contents (Elt F) → (⟨S1050000, .i32⟩ : BufTy).Contents (Elt F)),
    ternary main_v23 main_v25 main_v6 main_v26 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    unary main_v26 main_v27 (broadcastInDim S1050000x1 ![0] bcast_S1050000_S1050000x1_0 : (⟨S1050000, .i32⟩ : BufTy).Contents (Elt F) → (⟨S1050000x1, .i32⟩ : BufTy).Contents (Elt F)),
    binary main_v14 main_v27 main_v28 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    binary main_v21 main_v28 main_v29 (mulf : (⟨S1050000, .f32⟩ : BufTy).Contents (Elt F) → (⟨S1050000, .f32⟩ : BufTy).Contents (Elt F) → (⟨S1050000, .f32⟩ : BufTy).Contents (Elt F)),
    binary main_arg0 main_arg4 main_v30 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_6 (constantI S_ 32 0#32),
    unary main_c_6 main_v31 (broadcastInDim S1050000 ![] bcast_S_S1050000 : (⟨S_, .i32⟩ : BufTy).Contents (Elt F) → (⟨S1050000, .i32⟩ : BufTy).Contents (Elt F)),
    binary main_v3 main_v31 main_v32 (cmpi .slt : (⟨S1050000, .i32⟩ : BufTy).Contents (Elt F) → (⟨S1050000, .i32⟩ : BufTy).Contents (Elt F) → (⟨S1050000, .i1⟩ : BufTy).Contents (Elt F)),
    nullary main_c_7 (constantI S_ 32 50000#32),
    unary main_c_7 main_v33 (broadcastInDim S1050000 ![] bcast_S_S1050000 : (⟨S_, .i32⟩ : BufTy).Contents (Elt F) → (⟨S1050000, .i32⟩ : BufTy).Contents (Elt F)),
    binary main_v3 main_v33 main_v34 (addi : (⟨S1050000, .i32⟩ : BufTy).Contents (Elt F) → (⟨S1050000, .i32⟩ : BufTy).Contents (Elt F) → (⟨S1050000, .i32⟩ : BufTy).Contents (Elt F)),
    ternary main_v32 main_v34 main_v3 main_v35 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    unary main_v35 main_v36 (broadcastInDim S1050000x1 ![0] bcast_S1050000_S1050000x1_0 : (⟨S1050000, .i32⟩ : BufTy).Contents (Elt F) → (⟨S1050000x1, .i32⟩ : BufTy).Contents (Elt F)),
    binary main_v30 main_v36 main_v37 ((fun x i => Host.gather gather_S50000x128_S1050000x1_S1050000x128_1_0_n_n_0_1_1128 x i) : (⟨S50000x128, .f32⟩ : BufTy).Contents (Elt F) → (⟨S1050000x1, .i32⟩ : BufTy).Contents (Elt F) → (⟨S1050000x128, .f32⟩ : BufTy).Contents (Elt F)),
    unary main_v29 main_v38 (broadcastInDim S1050000x1 ![0] bcast_S1050000_S1050000x1_0 : (⟨S1050000, .f32⟩ : BufTy).Contents (Elt F) → (⟨S1050000x1, .f32⟩ : BufTy).Contents (Elt F)),
    unary main_v38 main_v39 (broadcastInDim S1050000x128 ![0, 1] bcast_S1050000x1_S1050000x128_0_1 : (⟨S1050000x1, .f32⟩ : BufTy).Contents (Elt F) → (⟨S1050000x128, .f32⟩ : BufTy).Contents (Elt F)),
    binary main_v37 main_v39 main_v40 (mulf : (⟨S1050000x128, .f32⟩ : BufTy).Contents (Elt F) → (⟨S1050000x128, .f32⟩ : BufTy).Contents (Elt F) → (⟨S1050000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S1050000x1 ![0] bcast_S1050000_S1050000x1_0 : (⟨S1050000, .i32⟩ : BufTy).Contents (Elt F) → (⟨S1050000x1, .i32⟩ : BufTy).Contents (Elt F)),
    ternary main_v41 main_v42 main_v40 main_v43 ((fun x i u => Host.scatterAdd scatter_S50000x128_S1050000x1_S1050000x128_1_0_0_1 x i u) : (⟨S50000x128, .f32⟩ : BufTy).Contents (Elt F) → (⟨S1050000x1, .i32⟩ : BufTy).Contents (Elt F) → (⟨S1050000x128, .f32⟩ : BufTy).Contents (Elt F) → (⟨S50000x128, .f32⟩ : BufTy).Contents (Elt F)),
    unary main_arg5 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

/-- Relation 2's convolution likewise. -/
abbrev l0_conv2Ops : List (HloOp τ sig (Elt F)) :=
  [ nullary main_v47 (iotaInDim S50000 32 0),
    unary main_arg2 main_v48 ((extractStridedSlice S1x1000000 ![0, 0] · slices_S2x1000000_S1x1000000_0_0) : (⟨S2x1000000, .i32⟩ : BufTy).Contents (Elt F) → (⟨S1x1000000, .i32⟩ : BufTy).Contents (Elt F)),
    reshape main_v48 main_v49 rfl shapeCasts_S1x1000000_S1000000,
    binary main_v49 main_v47 main_v50 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    unary main_arg2 main_v51 ((extractStridedSlice S1x1000000 ![1, 0] · slices_S2x1000000_S1x1000000_1_0) : (⟨S2x1000000, .i32⟩ : BufTy).Contents (Elt F) → (⟨S1x1000000, .i32⟩ : BufTy).Contents (Elt F)),
    reshape main_v51 main_v52 rfl shapeCasts_S1x1000000_S1000000,
    binary main_v52 main_v47 main_v53 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    nullary main_cst_9 (constant S_ .f32 0x3F800000#32),
    unary main_cst_9 main_v54 (broadcastInDim S1050000 ![] bcast_S_S1050000 : (⟨S_, .f32⟩ : BufTy).Contents (Elt F) → (⟨S1050000, .f32⟩ : BufTy).Contents (Elt F)),
    nullary main_cst_10 (constant S_ .f32 0x00000000#32),
    unary main_cst_10 main_v55 (broadcastInDim S50000 ![] bcast_S_S50000 : (⟨S_, .f32⟩ : BufTy).Contents (Elt F) → (⟨S50000, .f32⟩ : BufTy).Contents (Elt F)),
    unary main_v53 main_v56 (broadcastInDim S1050000x1 ![0] bcast_S1050000_S1050000x1_0 : (⟨S1050000, .i32⟩ : BufTy).Contents (Elt F) → (⟨S1050000x1, .i32⟩ : BufTy).Contents (Elt F)),
    ternary main_v55 main_v56 main_v54 main_v57 ((fun x i u => Host.scatterAdd scatter_S50000_S1050000x1_S1050000_n_0_0_1 x i u) : (⟨S50000, .f32⟩ : BufTy).Contents (Elt F) → (⟨S1050000x1, .i32⟩ : BufTy).Contents (Elt F) → (⟨S1050000, .f32⟩ : BufTy).Contents (Elt F) → (⟨S50000, .f32⟩ : BufTy).Contents (Elt F)),
    nullary main_cst_11 (constant S_ .f32 0x00000000#32),
    unary main_cst_11 main_v58 (broadcastInDim S50000 ![] bcast_S_S50000 : (⟨S_, .f32⟩ : BufTy).Contents (Elt F) → (⟨S50000, .f32⟩ : BufTy).Contents (Elt F)),
    binary main_v57 main_v58 main_v59 (cmpf .ogt : (⟨S50000, .f32⟩ : BufTy).Contents (Elt F) → (⟨S50000, .f32⟩ : BufTy).Contents (Elt F) → (⟨S50000, .i1⟩ : BufTy).Contents (Elt F)),
    unary main_v57 main_v60 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v59) (TRef.of (T := ⟨S50000, .f32⟩) main_v60) (TRef.of (T := ⟨S50000, .f32⟩) main_call1_v1) (TRef.of (T := ⟨S50000, .f32⟩) main_v61) select,
    nullary main_c_13 (constantI S_ 32 0#32),
    unary main_c_13 main_v62 (broadcastInDim S1050000 ![] bcast_S_S1050000 : (⟨S_, .i32⟩ : BufTy).Contents (Elt F) → (⟨S1050000, .i32⟩ : BufTy).Contents (Elt F)),
    binary main_v50 main_v62 main_v63 (cmpi .slt : (⟨S1050000, .i32⟩ : BufTy).Contents (Elt F) → (⟨S1050000, .i32⟩ : BufTy).Contents (Elt F) → (⟨S1050000, .i1⟩ : BufTy).Contents (Elt F)),
    nullary main_c_14 (constantI S_ 32 50000#32),
    unary main_c_14 main_v64 (broadcastInDim S1050000 ![] bcast_S_S1050000 : (⟨S_, .i32⟩ : BufTy).Contents (Elt F) → (⟨S1050000, .i32⟩ : BufTy).Contents (Elt F)),
    binary main_v50 main_v64 main_v65 (addi : (⟨S1050000, .i32⟩ : BufTy).Contents (Elt F) → (⟨S1050000, .i32⟩ : BufTy).Contents (Elt F) → (⟨S1050000, .i32⟩ : BufTy).Contents (Elt F)),
    ternary main_v63 main_v65 main_v50 main_v66 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    unary main_v66 main_v67 (broadcastInDim S1050000x1 ![0] bcast_S1050000_S1050000x1_0 : (⟨S1050000, .i32⟩ : BufTy).Contents (Elt F) → (⟨S1050000x1, .i32⟩ : BufTy).Contents (Elt F)),
    binary main_v61 main_v67 main_v68 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    nullary main_c_15 (constantI S_ 32 0#32),
    unary main_c_15 main_v69 (broadcastInDim S1050000 ![] bcast_S_S1050000 : (⟨S_, .i32⟩ : BufTy).Contents (Elt F) → (⟨S1050000, .i32⟩ : BufTy).Contents (Elt F)),
    binary main_v53 main_v69 main_v70 (cmpi .slt : (⟨S1050000, .i32⟩ : BufTy).Contents (Elt F) → (⟨S1050000, .i32⟩ : BufTy).Contents (Elt F) → (⟨S1050000, .i1⟩ : BufTy).Contents (Elt F)),
    nullary main_c_16 (constantI S_ 32 50000#32),
    unary main_c_16 main_v71 (broadcastInDim S1050000 ![] bcast_S_S1050000 : (⟨S_, .i32⟩ : BufTy).Contents (Elt F) → (⟨S1050000, .i32⟩ : BufTy).Contents (Elt F)),
    binary main_v53 main_v71 main_v72 (addi : (⟨S1050000, .i32⟩ : BufTy).Contents (Elt F) → (⟨S1050000, .i32⟩ : BufTy).Contents (Elt F) → (⟨S1050000, .i32⟩ : BufTy).Contents (Elt F)),
    ternary main_v70 main_v72 main_v53 main_v73 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    unary main_v73 main_v74 (broadcastInDim S1050000x1 ![0] bcast_S1050000_S1050000x1_0 : (⟨S1050000, .i32⟩ : BufTy).Contents (Elt F) → (⟨S1050000x1, .i32⟩ : BufTy).Contents (Elt F)),
    binary main_v61 main_v74 main_v75 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    binary main_v68 main_v75 main_v76 (mulf : (⟨S1050000, .f32⟩ : BufTy).Contents (Elt F) → (⟨S1050000, .f32⟩ : BufTy).Contents (Elt F) → (⟨S1050000, .f32⟩ : BufTy).Contents (Elt F)),
    binary main_arg0 main_arg6 main_v77 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_17 (constantI S_ 32 0#32),
    unary main_c_17 main_v78 (broadcastInDim S1050000 ![] bcast_S_S1050000 : (⟨S_, .i32⟩ : BufTy).Contents (Elt F) → (⟨S1050000, .i32⟩ : BufTy).Contents (Elt F)),
    binary main_v50 main_v78 main_v79 (cmpi .slt : (⟨S1050000, .i32⟩ : BufTy).Contents (Elt F) → (⟨S1050000, .i32⟩ : BufTy).Contents (Elt F) → (⟨S1050000, .i1⟩ : BufTy).Contents (Elt F)),
    nullary main_c_18 (constantI S_ 32 50000#32),
    unary main_c_18 main_v80 (broadcastInDim S1050000 ![] bcast_S_S1050000 : (⟨S_, .i32⟩ : BufTy).Contents (Elt F) → (⟨S1050000, .i32⟩ : BufTy).Contents (Elt F)),
    binary main_v50 main_v80 main_v81 (addi : (⟨S1050000, .i32⟩ : BufTy).Contents (Elt F) → (⟨S1050000, .i32⟩ : BufTy).Contents (Elt F) → (⟨S1050000, .i32⟩ : BufTy).Contents (Elt F)),
    ternary main_v79 main_v81 main_v50 main_v82 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    unary main_v82 main_v83 (broadcastInDim S1050000x1 ![0] bcast_S1050000_S1050000x1_0 : (⟨S1050000, .i32⟩ : BufTy).Contents (Elt F) → (⟨S1050000x1, .i32⟩ : BufTy).Contents (Elt F)),
    binary main_v77 main_v83 main_v84 ((fun x i => Host.gather gather_S50000x128_S1050000x1_S1050000x128_1_0_n_n_0_1_1128 x i) : (⟨S50000x128, .f32⟩ : BufTy).Contents (Elt F) → (⟨S1050000x1, .i32⟩ : BufTy).Contents (Elt F) → (⟨S1050000x128, .f32⟩ : BufTy).Contents (Elt F)),
    unary main_v76 main_v85 (broadcastInDim S1050000x1 ![0] bcast_S1050000_S1050000x1_0 : (⟨S1050000, .f32⟩ : BufTy).Contents (Elt F) → (⟨S1050000x1, .f32⟩ : BufTy).Contents (Elt F)),
    unary main_v85 main_v86 (broadcastInDim S1050000x128 ![0, 1] bcast_S1050000x1_S1050000x128_0_1 : (⟨S1050000x1, .f32⟩ : BufTy).Contents (Elt F) → (⟨S1050000x128, .f32⟩ : BufTy).Contents (Elt F)),
    binary main_v84 main_v86 main_v87 (mulf : (⟨S1050000x128, .f32⟩ : BufTy).Contents (Elt F) → (⟨S1050000x128, .f32⟩ : BufTy).Contents (Elt F) → (⟨S1050000x128, .f32⟩ : BufTy).Contents (Elt F)),
    nullary main_cst_19 (constant S_ .f32 0x00000000#32),
    unary main_cst_19 main_v88 (broadcastInDim S50000x128 ![] bcast_S_S50000x128 : (⟨S_, .f32⟩ : BufTy).Contents (Elt F) → (⟨S50000x128, .f32⟩ : BufTy).Contents (Elt F)),
    unary main_v53 main_v89 (broadcastInDim S1050000x1 ![0] bcast_S1050000_S1050000x1_0 : (⟨S1050000, .i32⟩ : BufTy).Contents (Elt F) → (⟨S1050000x1, .i32⟩ : BufTy).Contents (Elt F)),
    ternary main_v88 main_v89 main_v87 main_v90 ((fun x i u => Host.scatterAdd scatter_S50000x128_S1050000x1_S1050000x128_1_0_0_1 x i u) : (⟨S50000x128, .f32⟩ : BufTy).Contents (Elt F) → (⟨S1050000x1, .i32⟩ : BufTy).Contents (Elt F) → (⟨S1050000x128, .f32⟩ : BufTy).Contents (Elt F) → (⟨S50000x128, .f32⟩ : BufTy).Contents (Elt F)),
    unary main_arg7 main_v91 (broadcastInDim S1x128 ![1] bcast_S128_S1x128_1 : (⟨S128, .f32⟩ : BufTy).Contents (Elt F) → (⟨S1x128, .f32⟩ : BufTy).Contents (Elt F)),
    unary main_v91 main_v92 (broadcastInDim S50000x128 ![0, 1] bcast_S1x128_S50000x128_0_1 : (⟨S1x128, .f32⟩ : BufTy).Contents (Elt F) → (⟨S50000x128, .f32⟩ : BufTy).Contents (Elt F)),
    binary main_v90 main_v92 main_v93 (addf : (⟨S50000x128, .f32⟩ : BufTy).Contents (Elt F) → (⟨S50000x128, .f32⟩ : BufTy).Contents (Elt F) → (⟨S50000x128, .f32⟩ : BufTy).Contents (Elt F)) ]

/-- The sum of the two relations' results, and its halving. -/
abbrev l0_sumOps : List (HloOp τ sig (Elt F)) :=
  [ binary main_v46 main_v93 main_v94 (addf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x3F000000#32),
    unary main_cst_20 main_v95 (broadcastInDim S50000x128 ![] bcast_S_S50000x128 : (⟨S_, .f32⟩ : BufTy).Contents (Elt F) → (⟨S50000x128, .f32⟩ : BufTy).Contents (Elt F)),
    binary main_v95 main_v94 main_v96 (mulf : (⟨S50000x128, .f32⟩ : BufTy).Contents (Elt F) → (⟨S50000x128, .f32⟩ : BufTy).Contents (Elt F) → (⟨S50000x128, .f32⟩ : BufTy).Contents (Elt F)) ]

/-- The positive part. -/
abbrev l0_reluOps : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v96) (TRef.of (T := ⟨S50000x128, .f32⟩) main_call2_v0) (TRef.of (T := ⟨S50000x128, .f32⟩) main_v97) maximumf ]

/-- The reference's first 127 operations are these four runs, in order. -/
theorem l0_take : (RunP.ops (F := F)).take 127 = l0_conv1Ops ++ (l0_conv2Ops ++ (l0_sumOps ++ l0_reluOps)) := rfl

/-- A concatenation of two pieces depends on the pieces' contents only. -/
theorem l0_concat2_congr {α : Type} {t s₁ s₂ : Shape} {a : Fin t.rank} {x₁ y₁ : s₁.Idx → α} {x₂ y₂ : s₂.Idx → α}
    (h : Shape.Concatenates [s₁, s₂] t a) (e₁ : x₁ = y₁) (e₂ : x₂ = y₂) :
    concatenate t a [⟨s₁, x₁⟩, ⟨s₂, x₂⟩] h = concatenate t a [⟨s₁, y₁⟩, ⟨s₂, y₂⟩] h := by
  subst e₁; subst e₂; rfl

/-! ## Each run, from arbitrary contents -/

attribute [local congr] l0_concat2_congr in
/-- Relation 1's convolution of the features: its dense map aggregated along the relation's edges, plus its bias. -/
theorem l0_conv1_v46 (Y : Valuation τ sig (Elt Ideal)) :
    after l0_conv1Ops Y (Proc.devRef .tc main_v46)
      = addf (F := Ideal) (φ := .f32) (Cert.Hgcn.aggr (Host.dotGeneral (F := Ideal) (φ₁ := .f32) (φ₂ := .f32) dot_S50000x256_S256x128_S50000x128_1_0_0_1_n_n none (Y (Proc.devRef .tc main_arg0)) (Y (Proc.devRef .tc main_arg4))) (Y (Proc.devRef .tc main_arg1)))
          (Cert.Hgcn.biasRows (Y (Proc.devRef .tc main_arg5))) := by
  dsimp only [l0_conv1Ops]; after_results_simp
  rw [toBuf_v14, ofBuf_v12, ofBuf_v13, toBuf_call0_v1, ofBuf_call0_v1, toBuf_call0_v0, ofBuf_call0_v0, ofBuf_cst_2]
  unfold Cert.Hgcn.aggr Cert.Hgcn.biasRows Cert.Hgcn.normRows Cert.Hgcn.norm Cert.Hgcn.wrap Cert.Hgcn.dinv Cert.Hgcn.degree Cert.Hgcn.ends0 Cert.Hgcn.ends1
  rfl

attribute [local congr] l0_concat2_congr in
/-- Relation 2's convolution of the features. -/
theorem l0_conv2_v93 (Y : Valuation τ sig (Elt Ideal)) :
    after l0_conv2Ops Y (Proc.devRef .tc main_v93)
      = addf (F := Ideal) (φ := .f32) (Cert.Hgcn.aggr (Host.dotGeneral (F := Ideal) (φ₁ := .f32) (φ₂ := .f32) dot_S50000x256_S256x128_S50000x128_1_0_0_1_n_n none (Y (Proc.devRef .tc main_arg0)) (Y (Proc.devRef .tc main_arg6))) (Y (Proc.devRef .tc main_arg2)))
          (Cert.Hgcn.biasRows (Y (Proc.devRef .tc main_arg7))) := by
  dsimp only [l0_conv2Ops]; after_results_simp
  rw [toBuf_v61, ofBuf_v59, ofBuf_v60, toBuf_call1_v1, ofBuf_call1_v1, toBuf_call1_v0, ofBuf_call1_v0, ofBuf_cst_12]
  unfold Cert.Hgcn.aggr Cert.Hgcn.biasRows Cert.Hgcn.normRows Cert.Hgcn.norm Cert.Hgcn.wrap Cert.Hgcn.dinv Cert.Hgcn.degree Cert.Hgcn.ends0 Cert.Hgcn.ends1
  rfl

/-- The two relations' results A and B added, and the sum halved. -/
theorem l0_sum_v96 (Y : Valuation τ sig (Elt Ideal)) (A B : FVec Ideal S50000x128 .f32)
    (h46 : Y (Proc.devRef .tc main_v46) = A) (h93 : Y (Proc.devRef .tc main_v93) = B) :
    after l0_sumOps Y (Proc.devRef .tc main_v96)
      = mulf (F := Ideal) (φ := .f32) (broadcastInDim S50000x128 ![] Facts₀.bcast_S_S50000x128 (constant (F := Ideal) S_ .f32 0x3F000000#32)) (addf (F := Ideal) A B) := by
  dsimp only [l0_sumOps]; after_results_simp
  rw [h46, h93]

/-- The positive part of whatever the halved sum is. -/
theorem l0_relu_v97 (Y : Valuation τ sig (Elt Ideal)) (C : FVec Ideal S50000x128 .f32) (h96 : Y (Proc.devRef .tc main_v96) = C) :
    after l0_reluOps Y (Proc.devRef .tc main_v97) = Cert.Hgcn.relu C := by
  dsimp only [l0_reluOps]; after_results_simp
  rw [h96]
  rw [toBuf_v97, ofBuf_v96, toBuf_call2_v0, ofBuf_call2_v0, toBuf_call2_cst, ofBuf_call2_cst]
  unfold Cert.Hgcn.relu
  rfl

/-! ## What a run leaves alone: relation 1's convolution the arguments relation 2's reads, relation 2's convolution
    relation 1's result -/

theorem l0_conv1_arg0 (Y : Valuation τ sig (Elt Ideal)) :
    after l0_conv1Ops Y (Proc.devRef .tc main_arg0) = Y (Proc.devRef .tc main_arg0) := by
  dsimp only [l0_conv1Ops]; after_results_simp
theorem l0_conv1_arg2 (Y : Valuation τ sig (Elt Ideal)) :
    after l0_conv1Ops Y (Proc.devRef .tc main_arg2) = Y (Proc.devRef .tc main_arg2) := by
  dsimp only [l0_conv1Ops]; after_results_simp
theorem l0_conv1_arg6 (Y : Valuation τ sig (Elt Ideal)) :
    after l0_conv1Ops Y (Proc.devRef .tc main_arg6) = Y (Proc.devRef .tc main_arg6) := by
  dsimp only [l0_conv1Ops]; after_results_simp
theorem l0_conv1_arg7 (Y : Valuation τ sig (Elt Ideal)) :
    after l0_conv1Ops Y (Proc.devRef .tc main_arg7) = Y (Proc.devRef .tc main_arg7) := by
  dsimp only [l0_conv1Ops]; after_results_simp
theorem l0_conv2_v46 (Y : Valuation τ sig (Elt Ideal)) :
    after l0_conv2Ops Y (Proc.devRef .tc main_v46) = Y (Proc.devRef .tc main_v46) := by
  dsimp only [l0_conv2Ops]; after_results_simp

/-! ## The first layer -/

/-- From any contents, the reference's first 127 operations leave the hidden features of the reference's arrangement:
    the positive part of half the sum of the two relations' convolutions of the features. -/
theorem ref_layer0 (X : Valuation τ sig (Elt Ideal)) :
    StableHlo.after ((RunP.ops (F := Ideal)).take 127) X (Proc.devRef .tc main_v97)
      = Cert.Hgcn.refH (X (Proc.devRef .tc main_arg0)) (X (Proc.devRef .tc main_arg1)) (X (Proc.devRef .tc main_arg2)) (X (Proc.devRef .tc main_arg4)) (X (Proc.devRef .tc main_arg5)) (X (Proc.devRef .tc main_arg6)) (X (Proc.devRef .tc main_arg7)) := by
  rw [l0_take, after_append, after_append, after_append]
  rw [l0_relu_v97 _ _ (l0_sum_v96 _ _ _ ((l0_conv2_v46 _).trans (l0_conv1_v46 X)) (l0_conv2_v93 _))]
  rw [l0_conv1_arg0, l0_conv1_arg2, l0_conv1_arg6, l0_conv1_arg7]
  unfold Cert.Hgcn.refH Cert.Hgcn.layerRef
  rfl

end Cert.ReferenceIdeal.RefValue

end
-- ==== Proof.RefLayer1.lean ====
/-
  The reference's second layer as one stage.

  Operations 128 to 254 of the reference's line turn the hidden features into the node embeddings: per relation, the
  edge list with a self loop per node, the degrees, their guarded inverse square roots, the edges' weights, the dense
  map, the gather along the edges, the weighted rows added into the target rows, the bias; then the two relations
  added, halved, and the positive part. Folded from ANY buffer contents, the embeddings' buffer ends at the
  reference's layer applied to what the hidden features', the two edge lists', the two weights' and the two biases'
  buffers held. The selection and the positive part are called functions whose typed references carry their contents
  unchanged; the two selection calls address buffers of the same types, so the equations of the first also rewrite
  the second where the contents agree.
-/
import proofs.«116640_j87351044866138_2_alg».proof.Proof.RefRun
import proofs.«116640_j87351044866138_2_alg».proof.Proof.RefCasts
import proofs.«116640_j87351044866138_2_alg».proof.Proof.RefTail
import proofs.«116640_j87351044866138_2_alg».proof.Proof.Model
import proofs.«116640_j87351044866138_2_alg».proof.Proof.Gen.ReferenceIdeal
import proofs.«116640_j87351044866138_2_alg».proof.Proof.Gen.KernelIdeal

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

section Seg
variable {F : FTy → Type} [FloatOps F]

/-- The reference's second layer: its operations from the one after the first layer's positive part up to the one
    that writes the node embeddings (the 128th to the 254th of the 289, in order). -/
abbrev seg1 : List (HloOp τ sig (Elt F)) :=
  [ nullary main_v98 (iotaInDim S50000 32 0),
    unary main_arg1 main_v99 ((extractStridedSlice S1x1000000 ![0, 0] · slices_S2x1000000_S1x1000000_0_0) : (⟨S2x1000000, .i32⟩ : BufTy).Contents (Elt F) → (⟨S1x1000000, .i32⟩ : BufTy).Contents (Elt F)),
    reshape main_v99 main_v100 rfl shapeCasts_S1x1000000_S1000000,
    binary main_v100 main_v98 main_v101 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    unary main_arg1 main_v102 ((extractStridedSlice S1x1000000 ![1, 0] · slices_S2x1000000_S1x1000000_1_0) : (⟨S2x1000000, .i32⟩ : BufTy).Contents (Elt F) → (⟨S1x1000000, .i32⟩ : BufTy).Contents (Elt F)),
    reshape main_v102 main_v103 rfl shapeCasts_S1x1000000_S1000000,
    binary main_v103 main_v98 main_v104 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    nullary main_cst_21 (constant S_ .f32 0x3F800000#32),
    unary main_cst_21 main_v105 (broadcastInDim S1050000 ![] bcast_S_S1050000 : (⟨S_, .f32⟩ : BufTy).Contents (Elt F) → (⟨S1050000, .f32⟩ : BufTy).Contents (Elt F)),
    nullary main_cst_22 (constant S_ .f32 0x00000000#32),
    unary main_cst_22 main_v106 (broadcastInDim S50000 ![] bcast_S_S50000 : (⟨S_, .f32⟩ : BufTy).Contents (Elt F) → (⟨S50000, .f32⟩ : BufTy).Contents (Elt F)),
    unary main_v104 main_v107 (broadcastInDim S1050000x1 ![0] bcast_S1050000_S1050000x1_0 : (⟨S1050000, .i32⟩ : BufTy).Contents (Elt F) → (⟨S1050000x1, .i32⟩ : BufTy).Contents (Elt F)),
    ternary main_v106 main_v107 main_v105 main_v108 ((fun x i u => Host.scatterAdd scatter_S50000_S1050000x1_S1050000_n_0_0_1 x i u) : (⟨S50000, .f32⟩ : BufTy).Contents (Elt F) → (⟨S1050000x1, .i32⟩ : BufTy).Contents (Elt F) → (⟨S1050000, .f32⟩ : BufTy).Contents (Elt F) → (⟨S50000, .f32⟩ : BufTy).Contents (Elt F)),
    nullary main_cst_23 (constant S_ .f32 0x00000000#32),
    unary main_cst_23 main_v109 (broadcastInDim S50000 ![] bcast_S_S50000 : (⟨S_, .f32⟩ : BufTy).Contents (Elt F) → (⟨S50000, .f32⟩ : BufTy).Contents (Elt F)),
    binary main_v108 main_v109 main_v110 (cmpf .ogt : (⟨S50000, .f32⟩ : BufTy).Contents (Elt F) → (⟨S50000, .f32⟩ : BufTy).Contents (Elt F) → (⟨S50000, .i1⟩ : BufTy).Contents (Elt F)),
    unary main_v108 main_v111 (Host.rsqrt : (⟨S50000, .f32⟩ : BufTy).Contents (Elt F) → (⟨S50000, .f32⟩ : BufTy).Contents (Elt F)),
    nullary main_cst_24 (constant S_ .f32 0x00000000#32),
    TRef.unary (TRef.of (T := ⟨S_, .f32⟩) main_cst_24) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v110) (TRef.of (T := ⟨S50000, .f32⟩) main_v111) (TRef.of (T := ⟨S50000, .f32⟩) main_call3_v1) (TRef.of (T := ⟨S50000, .f32⟩) main_v112) select,
    nullary main_c_25 (constantI S_ 32 0#32),
    unary main_c_25 main_v113 (broadcastInDim S1050000 ![] bcast_S_S1050000 : (⟨S_, .i32⟩ : BufTy).Contents (Elt F) → (⟨S1050000, .i32⟩ : BufTy).Contents (Elt F)),
    binary main_v101 main_v113 main_v114 (cmpi .slt : (⟨S1050000, .i32⟩ : BufTy).Contents (Elt F) → (⟨S1050000, .i32⟩ : BufTy).Contents (Elt F) → (⟨S1050000, .i1⟩ : BufTy).Contents (Elt F)),
    nullary main_c_26 (constantI S_ 32 50000#32),
    unary main_c_26 main_v115 (broadcastInDim S1050000 ![] bcast_S_S1050000 : (⟨S_, .i32⟩ : BufTy).Contents (Elt F) → (⟨S1050000, .i32⟩ : BufTy).Contents (Elt F)),
    binary main_v101 main_v115 main_v116 (addi : (⟨S1050000, .i32⟩ : BufTy).Contents (Elt F) → (⟨S1050000, .i32⟩ : BufTy).Contents (Elt F) → (⟨S1050000, .i32⟩ : BufTy).Contents (Elt F)),
    ternary main_v114 main_v116 main_v101 main_v117 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    unary main_v117 main_v118 (broadcastInDim S1050000x1 ![0] bcast_S1050000_S1050000x1_0 : (⟨S1050000, .i32⟩ : BufTy).Contents (Elt F) → (⟨S1050000x1, .i32⟩ : BufTy).Contents (Elt F)),
    binary main_v112 main_v118 main_v119 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    nullary main_c_27 (constantI S_ 32 0#32),
    unary main_c_27 main_v120 (broadcastInDim S1050000 ![] bcast_S_S1050000 : (⟨S_, .i32⟩ : BufTy).Contents (Elt F) → (⟨S1050000, .i32⟩ : BufTy).Contents (Elt F)),
    binary main_v104 main_v120 main_v121 (cmpi .slt : (⟨S1050000, .i32⟩ : BufTy).Contents (Elt F) → (⟨S1050000, .i32⟩ : BufTy).Contents (Elt F) → (⟨S1050000, .i1⟩ : BufTy).Contents (Elt F)),
    nullary main_c_28 (constantI S_ 32 50000#32),
    unary main_c_28 main_v122 (broadcastInDim S1050000 ![] bcast_S_S1050000 : (⟨S_, .i32⟩ : BufTy).Contents (Elt F) → (⟨S1050000, .i32⟩ : BufTy).Contents (Elt F)),
    binary main_v104 main_v122 main_v123 (addi : (⟨S1050000, .i32⟩ : BufTy).Contents (Elt F) → (⟨S1050000, .i32⟩ : BufTy).Contents (Elt F) → (⟨S1050000, .i32⟩ : BufTy).Contents (Elt F)),
    ternary main_v121 main_v123 main_v104 main_v124 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    unary main_v124 main_v125 (broadcastInDim S1050000x1 ![0] bcast_S1050000_S1050000x1_0 : (⟨S1050000, .i32⟩ : BufTy).Contents (Elt F) → (⟨S1050000x1, .i32⟩ : BufTy).Contents (Elt F)),
    binary main_v112 main_v125 main_v126 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    binary main_v119 main_v126 main_v127 (mulf : (⟨S1050000, .f32⟩ : BufTy).Contents (Elt F) → (⟨S1050000, .f32⟩ : BufTy).Contents (Elt F) → (⟨S1050000, .f32⟩ : BufTy).Contents (Elt F)),
    binary main_v97 main_arg8 main_v128 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_29 (constantI S_ 32 0#32),
    unary main_c_29 main_v129 (broadcastInDim S1050000 ![] bcast_S_S1050000 : (⟨S_, .i32⟩ : BufTy).Contents (Elt F) → (⟨S1050000, .i32⟩ : BufTy).Contents (Elt F)),
    binary main_v101 main_v129 main_v130 (cmpi .slt : (⟨S1050000, .i32⟩ : BufTy).Contents (Elt F) → (⟨S1050000, .i32⟩ : BufTy).Contents (Elt F) → (⟨S1050000, .i1⟩ : BufTy).Contents (Elt F)),
    nullary main_c_30 (constantI S_ 32 50000#32),
    unary main_c_30 main_v131 (broadcastInDim S1050000 ![] bcast_S_S1050000 : (⟨S_, .i32⟩ : BufTy).Contents (Elt F) → (⟨S1050000, .i32⟩ : BufTy).Contents (Elt F)),
    binary main_v101 main_v131 main_v132 (addi : (⟨S1050000, .i32⟩ : BufTy).Contents (Elt F) → (⟨S1050000, .i32⟩ : BufTy).Contents (Elt F) → (⟨S1050000, .i32⟩ : BufTy).Contents (Elt F)),
    ternary main_v130 main_v132 main_v101 main_v133 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    unary main_v133 main_v134 (broadcastInDim S1050000x1 ![0] bcast_S1050000_S1050000x1_0 : (⟨S1050000, .i32⟩ : BufTy).Contents (Elt F) → (⟨S1050000x1, .i32⟩ : BufTy).Contents (Elt F)),
    binary main_v128 main_v134 main_v135 ((fun x i => Host.gather gather_S50000x128_S1050000x1_S1050000x128_1_0_n_n_0_1_1128 x i) : (⟨S50000x128, .f32⟩ : BufTy).Contents (Elt F) → (⟨S1050000x1, .i32⟩ : BufTy).Contents (Elt F) → (⟨S1050000x128, .f32⟩ : BufTy).Contents (Elt F)),
    unary main_v127 main_v136 (broadcastInDim S1050000x1 ![0] bcast_S1050000_S1050000x1_0 : (⟨S1050000, .f32⟩ : BufTy).Contents (Elt F) → (⟨S1050000x1, .f32⟩ : BufTy).Contents (Elt F)),
    unary main_v136 main_v137 (broadcastInDim S1050000x128 ![0, 1] bcast_S1050000x1_S1050000x128_0_1 : (⟨S1050000x1, .f32⟩ : BufTy).Contents (Elt F) → (⟨S1050000x128, .f32⟩ : BufTy).Contents (Elt F)),
    binary main_v135 main_v137 main_v138 (mulf : (⟨S1050000x128, .f32⟩ : BufTy).Contents (Elt F) → (⟨S1050000x128, .f32⟩ : BufTy).Contents (Elt F) → (⟨S1050000x128, .f32⟩ : BufTy).Contents (Elt F)),
    nullary main_cst_31 (constant S_ .f32 0x00000000#32),
    unary main_cst_31 main_v139 (broadcastInDim S50000x128 ![] bcast_S_S50000x128 : (⟨S_, .f32⟩ : BufTy).Contents (Elt F) → (⟨S50000x128, .f32⟩ : BufTy).Contents (Elt F)),
    unary main_v104 main_v140 (broadcastInDim S1050000x1 ![0] bcast_S1050000_S1050000x1_0 : (⟨S1050000, .i32⟩ : BufTy).Contents (Elt F) → (⟨S1050000x1, .i32⟩ : BufTy).Contents (Elt F)),
    ternary main_v139 main_v140 main_v138 main_v141 ((fun x i u => Host.scatterAdd scatter_S50000x128_S1050000x1_S1050000x128_1_0_0_1 x i u) : (⟨S50000x128, .f32⟩ : BufTy).Contents (Elt F) → (⟨S1050000x1, .i32⟩ : BufTy).Contents (Elt F) → (⟨S1050000x128, .f32⟩ : BufTy).Contents (Elt F) → (⟨S50000x128, .f32⟩ : BufTy).Contents (Elt F)),
    unary main_arg9 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v141 main_v143 main_v144 (addf : (⟨S50000x128, .f32⟩ : BufTy).Contents (Elt F) → (⟨S50000x128, .f32⟩ : BufTy).Contents (Elt F) → (⟨S50000x128, .f32⟩ : BufTy).Contents (Elt F)),
    nullary main_v145 (iotaInDim S50000 32 0),
    unary main_arg2 main_v146 ((extractStridedSlice S1x1000000 ![0, 0] · slices_S2x1000000_S1x1000000_0_0) : (⟨S2x1000000, .i32⟩ : BufTy).Contents (Elt F) → (⟨S1x1000000, .i32⟩ : BufTy).Contents (Elt F)),
    reshape main_v146 main_v147 rfl shapeCasts_S1x1000000_S1000000,
    binary main_v147 main_v145 main_v148 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    unary main_arg2 main_v149 ((extractStridedSlice S1x1000000 ![1, 0] · slices_S2x1000000_S1x1000000_1_0) : (⟨S2x1000000, .i32⟩ : BufTy).Contents (Elt F) → (⟨S1x1000000, .i32⟩ : BufTy).Contents (Elt F)),
    reshape main_v149 main_v150 rfl shapeCasts_S1x1000000_S1000000,
    binary main_v150 main_v145 main_v151 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    nullary main_cst_32 (constant S_ .f32 0x3F800000#32),
    unary main_cst_32 main_v152 (broadcastInDim S1050000 ![] bcast_S_S1050000 : (⟨S_, .f32⟩ : BufTy).Contents (Elt F) → (⟨S1050000, .f32⟩ : BufTy).Contents (Elt F)),
    nullary main_cst_33 (constant S_ .f32 0x00000000#32),
    unary main_cst_33 main_v153 (broadcastInDim S50000 ![] bcast_S_S50000 : (⟨S_, .f32⟩ : BufTy).Contents (Elt F) → (⟨S50000, .f32⟩ : BufTy).Contents (Elt F)),
    unary main_v151 main_v154 (broadcastInDim S1050000x1 ![0] bcast_S1050000_S1050000x1_0 : (⟨S1050000, .i32⟩ : BufTy).Contents (Elt F) → (⟨S1050000x1, .i32⟩ : BufTy).Contents (Elt F)),
    ternary main_v153 main_v154 main_v152 main_v155 ((fun x i u => Host.scatterAdd scatter_S50000_S1050000x1_S1050000_n_0_0_1 x i u) : (⟨S50000, .f32⟩ : BufTy).Contents (Elt F) → (⟨S1050000x1, .i32⟩ : BufTy).Contents (Elt F) → (⟨S1050000, .f32⟩ : BufTy).Contents (Elt F) → (⟨S50000, .f32⟩ : BufTy).Contents (Elt F)),
    nullary main_cst_34 (constant S_ .f32 0x00000000#32),
    unary main_cst_34 main_v156 (broadcastInDim S50000 ![] bcast_S_S50000 : (⟨S_, .f32⟩ : BufTy).Contents (Elt F) → (⟨S50000, .f32⟩ : BufTy).Contents (Elt F)),
    binary main_v155 main_v156 main_v157 (cmpf .ogt : (⟨S50000, .f32⟩ : BufTy).Contents (Elt F) → (⟨S50000, .f32⟩ : BufTy).Contents (Elt F) → (⟨S50000, .i1⟩ : BufTy).Contents (Elt F)),
    unary main_v155 main_v158 (Host.rsqrt : (⟨S50000, .f32⟩ : BufTy).Contents (Elt F) → (⟨S50000, .f32⟩ : BufTy).Contents (Elt F)),
    nullary main_cst_35 (constant S_ .f32 0x00000000#32),
    TRef.unary (TRef.of (T := ⟨S_, .f32⟩) main_cst_35) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v157) (TRef.of (T := ⟨S50000, .f32⟩) main_v158) (TRef.of (T := ⟨S50000, .f32⟩) main_call4_v1) (TRef.of (T := ⟨S50000, .f32⟩) main_v159) select,
    nullary main_c_36 (constantI S_ 32 0#32),
    unary main_c_36 main_v160 (broadcastInDim S1050000 ![] bcast_S_S1050000 : (⟨S_, .i32⟩ : BufTy).Contents (Elt F) → (⟨S1050000, .i32⟩ : BufTy).Contents (Elt F)),
    binary main_v148 main_v160 main_v161 (cmpi .slt : (⟨S1050000, .i32⟩ : BufTy).Contents (Elt F) → (⟨S1050000, .i32⟩ : BufTy).Contents (Elt F) → (⟨S1050000, .i1⟩ : BufTy).Contents (Elt F)),
    nullary main_c_37 (constantI S_ 32 50000#32),
    unary main_c_37 main_v162 (broadcastInDim S1050000 ![] bcast_S_S1050000 : (⟨S_, .i32⟩ : BufTy).Contents (Elt F) → (⟨S1050000, .i32⟩ : BufTy).Contents (Elt F)),
    binary main_v148 main_v162 main_v163 (addi : (⟨S1050000, .i32⟩ : BufTy).Contents (Elt F) → (⟨S1050000, .i32⟩ : BufTy).Contents (Elt F) → (⟨S1050000, .i32⟩ : BufTy).Contents (Elt F)),
    ternary main_v161 main_v163 main_v148 main_v164 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    unary main_v164 main_v165 (broadcastInDim S1050000x1 ![0] bcast_S1050000_S1050000x1_0 : (⟨S1050000, .i32⟩ : BufTy).Contents (Elt F) → (⟨S1050000x1, .i32⟩ : BufTy).Contents (Elt F)),
    binary main_v159 main_v165 main_v166 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    nullary main_c_38 (constantI S_ 32 0#32),
    unary main_c_38 main_v167 (broadcastInDim S1050000 ![] bcast_S_S1050000 : (⟨S_, .i32⟩ : BufTy).Contents (Elt F) → (⟨S1050000, .i32⟩ : BufTy).Contents (Elt F)),
    binary main_v151 main_v167 main_v168 (cmpi .slt : (⟨S1050000, .i32⟩ : BufTy).Contents (Elt F) → (⟨S1050000, .i32⟩ : BufTy).Contents (Elt F) → (⟨S1050000, .i1⟩ : BufTy).Contents (Elt F)),
    nullary main_c_39 (constantI S_ 32 50000#32),
    unary main_c_39 main_v169 (broadcastInDim S1050000 ![] bcast_S_S1050000 : (⟨S_, .i32⟩ : BufTy).Contents (Elt F) → (⟨S1050000, .i32⟩ : BufTy).Contents (Elt F)),
    binary main_v151 main_v169 main_v170 (addi : (⟨S1050000, .i32⟩ : BufTy).Contents (Elt F) → (⟨S1050000, .i32⟩ : BufTy).Contents (Elt F) → (⟨S1050000, .i32⟩ : BufTy).Contents (Elt F)),
    ternary main_v168 main_v170 main_v151 main_v171 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    unary main_v171 main_v172 (broadcastInDim S1050000x1 ![0] bcast_S1050000_S1050000x1_0 : (⟨S1050000, .i32⟩ : BufTy).Contents (Elt F) → (⟨S1050000x1, .i32⟩ : BufTy).Contents (Elt F)),
    binary main_v159 main_v172 main_v173 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    binary main_v166 main_v173 main_v174 (mulf : (⟨S1050000, .f32⟩ : BufTy).Contents (Elt F) → (⟨S1050000, .f32⟩ : BufTy).Contents (Elt F) → (⟨S1050000, .f32⟩ : BufTy).Contents (Elt F)),
    binary main_v97 main_arg10 main_v175 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_40 (constantI S_ 32 0#32),
    unary main_c_40 main_v176 (broadcastInDim S1050000 ![] bcast_S_S1050000 : (⟨S_, .i32⟩ : BufTy).Contents (Elt F) → (⟨S1050000, .i32⟩ : BufTy).Contents (Elt F)),
    binary main_v148 main_v176 main_v177 (cmpi .slt : (⟨S1050000, .i32⟩ : BufTy).Contents (Elt F) → (⟨S1050000, .i32⟩ : BufTy).Contents (Elt F) → (⟨S1050000, .i1⟩ : BufTy).Contents (Elt F)),
    nullary main_c_41 (constantI S_ 32 50000#32),
    unary main_c_41 main_v178 (broadcastInDim S1050000 ![] bcast_S_S1050000 : (⟨S_, .i32⟩ : BufTy).Contents (Elt F) → (⟨S1050000, .i32⟩ : BufTy).Contents (Elt F)),
    binary main_v148 main_v178 main_v179 (addi : (⟨S1050000, .i32⟩ : BufTy).Contents (Elt F) → (⟨S1050000, .i32⟩ : BufTy).Contents (Elt F) → (⟨S1050000, .i32⟩ : BufTy).Contents (Elt F)),
    ternary main_v177 main_v179 main_v148 main_v180 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    unary main_v180 main_v181 (broadcastInDim S1050000x1 ![0] bcast_S1050000_S1050000x1_0 : (⟨S1050000, .i32⟩ : BufTy).Contents (Elt F) → (⟨S1050000x1, .i32⟩ : BufTy).Contents (Elt F)),
    binary main_v175 main_v181 main_v182 ((fun x i => Host.gather gather_S50000x128_S1050000x1_S1050000x128_1_0_n_n_0_1_1128 x i) : (⟨S50000x128, .f32⟩ : BufTy).Contents (Elt F) → (⟨S1050000x1, .i32⟩ : BufTy).Contents (Elt F) → (⟨S1050000x128, .f32⟩ : BufTy).Contents (Elt F)),
    unary main_v174 main_v183 (broadcastInDim S1050000x1 ![0] bcast_S1050000_S1050000x1_0 : (⟨S1050000, .f32⟩ : BufTy).Contents (Elt F) → (⟨S1050000x1, .f32⟩ : BufTy).Contents (Elt F)),
    unary main_v183 main_v184 (broadcastInDim S1050000x128 ![0, 1] bcast_S1050000x1_S1050000x128_0_1 : (⟨S1050000x1, .f32⟩ : BufTy).Contents (Elt F) → (⟨S1050000x128, .f32⟩ : BufTy).Contents (Elt F)),
    binary main_v182 main_v184 main_v185 (mulf : (⟨S1050000x128, .f32⟩ : BufTy).Contents (Elt F) → (⟨S1050000x128, .f32⟩ : BufTy).Contents (Elt F) → (⟨S1050000x128, .f32⟩ : BufTy).Contents (Elt F)),
    nullary main_cst_42 (constant S_ .f32 0x00000000#32),
    unary main_cst_42 main_v186 (broadcastInDim S50000x128 ![] bcast_S_S50000x128 : (⟨S_, .f32⟩ : BufTy).Contents (Elt F) → (⟨S50000x128, .f32⟩ : BufTy).Contents (Elt F)),
    unary main_v151 main_v187 (broadcastInDim S1050000x1 ![0] bcast_S1050000_S1050000x1_0 : (⟨S1050000, .i32⟩ : BufTy).Contents (Elt F) → (⟨S1050000x1, .i32⟩ : BufTy).Contents (Elt F)),
    ternary main_v186 main_v187 main_v185 main_v188 ((fun x i u => Host.scatterAdd scatter_S50000x128_S1050000x1_S1050000x128_1_0_0_1 x i u) : (⟨S50000x128, .f32⟩ : BufTy).Contents (Elt F) → (⟨S1050000x1, .i32⟩ : BufTy).Contents (Elt F) → (⟨S1050000x128, .f32⟩ : BufTy).Contents (Elt F) → (⟨S50000x128, .f32⟩ : BufTy).Contents (Elt F)),
    unary main_arg11 main_v189 (broadcastInDim S1x128 ![1] bcast_S128_S1x128_1 : (⟨S128, .f32⟩ : BufTy).Contents (Elt F) → (⟨S1x128, .f32⟩ : BufTy).Contents (Elt F)),
    unary main_v189 main_v190 (broadcastInDim S50000x128 ![0, 1] bcast_S1x128_S50000x128_0_1 : (⟨S1x128, .f32⟩ : BufTy).Contents (Elt F) → (⟨S50000x128, .f32⟩ : BufTy).Contents (Elt F)),
    binary main_v188 main_v190 main_v191 (addf : (⟨S50000x128, .f32⟩ : BufTy).Contents (Elt F) → (⟨S50000x128, .f32⟩ : BufTy).Contents (Elt F) → (⟨S50000x128, .f32⟩ : BufTy).Contents (Elt F)),
    binary main_v144 main_v191 main_v192 (addf : (⟨S50000x128, .f32⟩ : BufTy).Contents (Elt F) → (⟨S50000x128, .f32⟩ : BufTy).Contents (Elt F) → (⟨S50000x128, .f32⟩ : BufTy).Contents (Elt F)),
    nullary main_cst_43 (constant S_ .f32 0x3F000000#32),
    unary main_cst_43 main_v193 (broadcastInDim S50000x128 ![] bcast_S_S50000x128 : (⟨S_, .f32⟩ : BufTy).Contents (Elt F) → (⟨S50000x128, .f32⟩ : BufTy).Contents (Elt F)),
    binary main_v193 main_v192 main_v194 (mulf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v194) (TRef.of (T := ⟨S50000x128, .f32⟩) main_call5_v0) (TRef.of (T := ⟨S50000x128, .f32⟩) main_v195) maximumf ]

/-- The list's first 254 operations less its first 127 are exactly those. -/
theorem seg1_eq : ((RunP.ops (F := F)).take 254).drop 127 = seg1 := rfl

end Seg

/-- A concatenation of two pieces depends on the pieces' contents only. -/
theorem concat2_congr {α : Type} {t s₁ s₂ : Shape} (a : Fin t.rank) (h : Shape.Concatenates [s₁, s₂] t a)
    {x₁ y₁ : s₁.Idx → α} {x₂ y₂ : s₂.Idx → α} (e₁ : x₁ = y₁) (e₂ : x₂ = y₂) :
    concatenate t a [⟨s₁, x₁⟩, ⟨s₂, x₂⟩] h = concatenate t a [⟨s₁, y₁⟩, ⟨s₂, y₂⟩] h := by
  subst e₁; subst e₂; rfl

set_option maxHeartbeats 4000000 in
attribute [local congr] concat2_congr in
/-- From any contents `X`, the second layer's operations leave the reference's layer over the hidden features,
    edge lists, weights and biases as `X` has them. -/
theorem ref_layer1 (X : Valuation τ sig (Elt Ideal)) :
    StableHlo.after (((RunP.ops (F := Ideal)).take 254).drop 127) X (Proc.devRef .tc main_v195)
      = Cert.Hgcn.refZ (X (Proc.devRef .tc main_v97)) (X (Proc.devRef .tc main_arg1)) (X (Proc.devRef .tc main_arg2))
          (X (Proc.devRef .tc main_arg8)) (X (Proc.devRef .tc main_arg9)) (X (Proc.devRef .tc main_arg10))
          (X (Proc.devRef .tc main_arg11)) := by
  rw [seg1_eq]
  dsimp only [seg1]
  after_results_simp
  rw [toBuf_call5_cst, ofBuf_call5_cst, toBuf_call5_v0, ofBuf_call5_v0, ofBuf_v194, toBuf_v195]
  rw [ofBuf_cst_24, toBuf_call3_v0, ofBuf_call3_v0, toBuf_call3_v1, ofBuf_call3_v1, ofBuf_v110, ofBuf_v111, toBuf_v112]
  try rw [ofBuf_cst_35]
  try rw [toBuf_call4_v0]
  try rw [ofBuf_call4_v0]
  try rw [toBuf_call4_v1]
  try rw [ofBuf_call4_v1]
  try rw [ofBuf_v157]
  try rw [ofBuf_v158]
  try rw [toBuf_v159]
  unfold Cert.Hgcn.refZ Cert.Hgcn.layerRef Cert.Hgcn.relu Cert.Hgcn.aggr Cert.Hgcn.biasRows Cert.Hgcn.normRows Cert.Hgcn.norm Cert.Hgcn.wrap Cert.Hgcn.dinv Cert.Hgcn.degree Cert.Hgcn.ends0 Cert.Hgcn.ends1
  rfl

/-- The operations up to the first layer's positive part leave an argument's buffer as launched. -/
theorem take127_arg (m : (ℓ : Loc nD τ sig) → Buf (Elt Ideal) ℓ) (c : Dev nD) (r : Ref sig .tc) (hr : r.idx.val < 14) :
    StableHlo.after ((RunP.ops (F := Ideal)).take 127) (StableHlo.launchContents m c) (Proc.devRef .tc r) = m ((c.tc : Thread nD τ).loc r) :=
  unwritten_of_sub _ (fun _ h => List.mem_of_mem_take h) _ r hr

/-- The first 254 operations are the first 127 followed by the second layer's. -/
theorem take254_split : (RunP.ops (F := Ideal)).take 254 = (RunP.ops (F := Ideal)).take 127 ++ ((RunP.ops (F := Ideal)).take 254).drop 127 := by
  have h := (List.take_append_drop 127 ((RunP.ops (F := Ideal)).take 254)).symm
  rw [List.take_take] at h
  exact h

/-- The node embeddings are the reference's second layer over whatever hidden features `h` the first 127
    operations leave, at the launched edge lists, weights and biases. -/
theorem ref_z_of_layers (m : (ℓ : Loc nD τ sig) → Buf (Elt Ideal) ℓ) (c : Dev nD) (h : FVec Ideal S50000x128 .f32)
    (h0 : StableHlo.after ((RunP.ops (F := Ideal)).take 127) (StableHlo.launchContents m c) (Proc.devRef .tc main_v97) = h) :
    StableHlo.after ((RunP.ops (F := Ideal)).take 254) (StableHlo.launchContents m c) (Proc.devRef .tc main_v195)
      = Cert.Hgcn.refZ h (m ((c.tc : Thread nD τ).loc main_arg1)) (m ((c.tc : Thread nD τ).loc main_arg2)) (m ((c.tc : Thread nD τ).loc main_arg8)) (m ((c.tc : Thread nD τ).loc main_arg9))
          (m ((c.tc : Thread nD τ).loc main_arg10)) (m ((c.tc : Thread nD τ).loc main_arg11)) := by
  rw [take254_split, after_append, ref_layer1, h0, take127_arg m c main_arg1 (by decide),
    take127_arg m c main_arg2 (by decide), take127_arg m c main_arg8 (by decide), take127_arg m c main_arg9 (by decide),
    take127_arg m c main_arg10 (by decide), take127_arg m c main_arg11 (by decide)]

end Cert.ReferenceIdeal.RefValue

end
-- ==== Proof.RefValue.lean ====
/-
  The reference's node embeddings as the model's function of its arguments.

  The reference's 289 host operations are read in three consecutive parts: the first 127 compute the hidden features
  from the launch contents (`RefHidden.lean`: the reference's first layer), the next 127 compute the node embeddings
  from the hidden features (`RefLayer1.lean`: its second layer), and the last 35 compute the pair probabilities from
  the embeddings (`RefTail.lean`). No operation writes an argument array, so every part finds the arguments as
  launched. Chained, the embeddings at the end of @main are the second layer of the first layer of the arguments.
-/
import proofs.«116640_j87351044866138_2_alg».proof.Proof.RefHidden
import proofs.«116640_j87351044866138_2_alg».proof.Proof.RefLayer1

set_option maxRecDepth 16384

noncomputable section

namespace Cert.ReferenceIdeal.RefValue

open Idealize.ShloMosaic Idealize.ShloMosaic.TcCoe Idealize.SL.Sem Idealize.ShloMosaic.StableHlo Cert.ReferenceIdeal

/-- The node embeddings at the end of the reference's @main. -/
theorem ref_z (m : (ℓ : Loc nD τ sig) → Buf (Elt Ideal) ℓ) (c : Dev nD) :
    after (RunP.ops (F := Ideal)) (launchContents m c) (Proc.devRef .tc main_v195)
      = Cert.Hgcn.refZ
          (Cert.Hgcn.refH (m ((c.tc : Thread nD τ).loc main_arg0)) (m ((c.tc : Thread nD τ).loc main_arg1))
            (m ((c.tc : Thread nD τ).loc main_arg2)) (m ((c.tc : Thread nD τ).loc main_arg4))
            (m ((c.tc : Thread nD τ).loc main_arg5)) (m ((c.tc : Thread nD τ).loc main_arg6))
            (m ((c.tc : Thread nD τ).loc main_arg7)))
          (m ((c.tc : Thread nD τ).loc main_arg1)) (m ((c.tc : Thread nD τ).loc main_arg2))
          (m ((c.tc : Thread nD τ).loc main_arg8)) (m ((c.tc : Thread nD τ).loc main_arg9))
          (m ((c.tc : Thread nD τ).loc main_arg10)) (m ((c.tc : Thread nD τ).loc main_arg11)) :=
  (ref_z_take m c).trans (ref_z_of_layers m c _ (ref_layer0 (launchContents m c)))

end Cert.ReferenceIdeal.RefValue

end
-- ==== Proof.LayerLaw.lean ====
/-
  The two arrangements of a layer agree (the statement and its reason are told in `Layer.lean`): the factor one half
  leaves each edge's product, then the sum over the edges that land on an entry, then the sums of two, and the
  additions re-associate.
-/
import proofs.«116640_j87351044866138_2_alg».proof.Proof.Layer

noncomputable section

namespace Cert.Hgcn

open Idealize.ShloMosaic Idealize.ShloMosaic.ValueIdx Cert.ReferenceIdeal Cert.ReferenceIdeal.Facts₀

/-- An accumulating scatter from zero commutes with the factor: every entry is a finite sum of updates. -/
theorem scatter_zero_half {s si su : Shape} (d : ScatterDims s si su) {w : Nat} (idx : IVec si w) (u : su.Idx → EReal) :
    Ideal.hostScatterAdd d (fun _ => 0) idx (fun j => half * u j)
      = fun i => half * Ideal.hostScatterAdd d (fun _ => 0) idx u i := by
  funext i
  unfold Ideal.hostScatterAdd
  rw [zero_add, zero_add, half_mul_sum]

/-- The sum of the halved aggregates and the halved bias sum is one half of the sum of the biased aggregates. -/
theorem half_combine (A1 A2 B1 B2 : EReal) :
    (half * A1 + half * A2) + half * (B1 + B2) = half * ((A1 + B1) + (A2 + B2)) := by
  rw [half_mul_add, half_mul_add (A1 + B1), half_mul_add A1, half_mul_add A2]
  exact add_add_add_comm _ _ _ _

variable [Cert.ReferenceIdeal.Facts₀]

/-- Aggregation spelt as the scatter it is: from zero, each edge's update the gathered entry times its weight. -/
theorem aggr_eq (H : FVec Ideal S50000x128 .f32) (e : IVec S2x1000000 32) :
    aggr H e = Ideal.hostScatterAdd scatter_S50000x128_S1050000x1_S1050000x128_1_0_0_1 (fun _ => 0)
      (broadcastInDim S1050000x1 ![0] bcast_S1050000_S1050000x1_0 (ends1 e))
      (fun j => H (gather_S50000x128_S1050000x1_S1050000x128_1_0_n_n_0_1_1128.operandIdx j (wrap (ends0 e))) * normRows e j) := by
  have hz : (broadcastInDim S50000x128 ![] bcast_S_S50000x128 (constant (F := Ideal) S_ .f32 0x00000000#32)
      : S50000x128.Idx → EReal) = fun _ => 0 := funext fun _ => Ideal.ofBits_zero_f32
  unfold aggr
  rw [hz]
  rfl

/-- Aggregation commutes with the factor one half. -/
theorem aggr_half (H : FVec Ideal S50000x128 .f32) (e : IVec S2x1000000 32) :
    aggr (fun k => half * H k) e = fun i => half * aggr H e i := by
  rw [aggr_eq, aggr_eq]
  refine Eq.trans ?_ (scatter_zero_half _ _ _)
  congr 1
  funext j
  exact mul_assoc _ _ _

/-- The two arrangements of a layer agree. -/
theorem layer_law [Cert.KernelIdeal.Facts₀] (H1 H2 : FVec Ideal S50000x128 .f32) (b1 b2 : FVec Ideal S128 .f32) (e1 e2 : IVec S2x1000000 32) :
    layerKer (fun k => half * H1 k) (fun k => half * H2 k) b1 b2 e1 e2 = layerRef H1 H2 b1 b2 e1 e2 := by
  funext i
  show max ((aggr (fun k => half * H1 k) e1 i + aggr (fun k => half * H2 k) e2 i)
        + half * (biasRows b1 i + biasRows b2 i)) (Ideal.ofBits .f32 0x00000000#32)
      = max (half * ((aggr H1 e1 i + biasRows b1 i) + (aggr H2 e2 i + biasRows b2 i))) (Ideal.ofBits .f32 0x00000000#32)
  rw [aggr_half, aggr_half, half_combine]

end Cert.Hgcn

end
-- ==== Proof.HalfProduct.lean ====
/-
  Halving the weights before the product, or the product afterwards.

  One layer's dense map for a relation r is the product a · W_r of the node features a (50000 × D) with the
  relation's weight W_r (D × 128). The two weights can instead be placed side by side into one D × 256 matrix
  [W_1 | W_2], every entry multiplied by one half, and ONE product a · (½ · [W_1 | W_2]) formed; its left 128
  columns and its right 128 columns are then, entry by entry, one half of a · W_1 and of a · W_2:

      ∑_k a(n,k) · (½ · [W_1|W_2](k, q))  =  ∑_k a(n,k) · (½ · W_1(k,q))  =  ½ · ∑_k a(n,k) · W_1(k,q),

  and column 128 + q of the side-by-side matrix lies in W_2. The only law used is that one half, a finite
  nonnegative constant, moves through a finite sum of extended reals; no entry is asked to be finite.

  The module reads each operation at an entry (n, q): the column slice, the textbook product, the halved
  side-by-side weight, and the host dot product re-indexed by its one contracted coordinate. Two generic steps
  carry the argument for any extents; the two layers (D = 256 and D = 128) differ by the names of their shapes only.
-/
import proofs.«116640_j87351044866138_2_alg».proof.Proof.Spec
import proofs.«116640_j87351044866138_2_alg».proof.Proof.Scale
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«116640_j87351044866138_2_alg».proof.KernelIdeal
import proofs.«116640_j87351044866138_2_alg».proof.ReferenceIdeal

noncomputable section

namespace Cert.Hgcn

open Idealize.ShloMosaic Idealize.ShloMosaic.ValueIdx

/-! ## One half through a sum of products -/

/-- A sum of products whose right factors are all halved is half the sum of the products. -/
theorem sum_mul_half_mul {ι : Type*} [Fintype ι] (x y : ι → EReal) :
    ∑ k, x k * (half * y k) = half * ∑ k, x k * y k := by
  rw [half_mul_sum]
  exact Finset.sum_congr rfl fun k _ => mul_left_comm _ _ _

/-! ## The two products at an entry -/

/-- The textbook product at an entry. -/
theorem mm_apply (M K N : Nat) (x : (⟨2, ![M, K]⟩ : Shape).Idx → EReal) (w : (⟨2, ![K, N]⟩ : Shape).Idx → EReal)
    (n : Fin M) (c : Fin N) : mm M K N x w (ix2 n c) = ∑ k : Fin K, x (ix2 n k) * w (ix2 k c) := rfl

/-- A host dot product of an M×K by a K×N matrix whose dimension numbers contract one axis of extent K and send the
    left operand to (row, k) and the right operand to (k, column), read at the entry (n, q): the textbook sum. The
    contraction's index set is re-indexed by its one coordinate. -/
theorem dot_apply_of_coords {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (a : FVec Ideal ⟨2, ![M, K]⟩ .f32) (W : FVec Ideal ⟨2, ![K, N]⟩ .f32) (n : Fin M) (q : Fin N) :
    Host.dotGeneral (F := Ideal) D none a W (ix2 n q) = ∑ k : Fin K, a (ix2 n k) * W (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 n q) ((contrEquiv1 D K hr hs).symm k) = ix2 n k := funext fun b => Fin.ext (by
    match b with
    | ⟨0, _⟩ => exact hl0 _ _
    | ⟨1, _⟩ => exact (hl1 _ _).trans hk)
  have er : D.rhsIdx (ix2 n q) ((contrEquiv1 D K hr hs).symm k) = ix2 k q := funext fun b => Fin.ext (by
    match b with
    | ⟨0, _⟩ => exact (hr0 _ _).trans hk
    | ⟨1, _⟩ => exact hr1 _ _)
  rw [el, er]

/-! ## The halved side-by-side weight at an entry -/

/-- At a column of its left half, the halved side-by-side weight is half the left weight. -/
theorem half_concat_left {K N N2 : Nat}
    (hb : (⟨0, ![]⟩ : Shape).BroadcastsInDim ⟨2, ![K, N2]⟩ (![] : Fin 0 → Fin 2))
    (hc : Shape.Concatenates [⟨2, ![K, N]⟩, ⟨2, ![K, N]⟩] ⟨2, ![K, N2]⟩ 1)
    (W1 W2 : FVec Ideal ⟨2, ![K, N]⟩ .f32) (k : Fin K) (q : Fin N) (c : Fin N2) (hq : c.val = q.val) :
    mulf (F := Ideal) (broadcastInDim ⟨2, ![K, N2]⟩ ![] hb (constant (F := Ideal) ⟨0, ![]⟩ .f32 0x3F000000#32))
      (concatenate ⟨2, ![K, N2]⟩ 1 [⟨⟨2, ![K, N]⟩, W1⟩, ⟨⟨2, ![K, N]⟩, W2⟩] hc) (ix2 k c)
      = half * W1 (ix2 k q) := by
  refine (mulf_apply _ _ _).trans ?_
  refine congrArg₂ (· * ·) ?_ ?_
  · exact (broadcastInDim_apply _ hb _ _ ix0 (fun a => a.elim0)).trans rfl
  · exact concatenate_pair_apply_left 1 W1 W2 hc (ix2 k c) rfl (ix2 k q) (fun b => by
      match b with
      | ⟨0, _⟩ => rfl
      | ⟨1, _⟩ => exact hq.symm)

/-- At a column of its right half, N columns further, it is half the right weight. -/
theorem half_concat_right {K N N2 : Nat}
    (hb : (⟨0, ![]⟩ : Shape).BroadcastsInDim ⟨2, ![K, N2]⟩ (![] : Fin 0 → Fin 2))
    (hc : Shape.Concatenates [⟨2, ![K, N]⟩, ⟨2, ![K, N]⟩] ⟨2, ![K, N2]⟩ 1)
    (W1 W2 : FVec Ideal ⟨2, ![K, N]⟩ .f32) (k : Fin K) (q : Fin N) (c : Fin N2) (hq : c.val = N + q.val) :
    mulf (F := Ideal) (broadcastInDim ⟨2, ![K, N2]⟩ ![] hb (constant (F := Ideal) ⟨0, ![]⟩ .f32 0x3F000000#32))
      (concatenate ⟨2, ![K, N2]⟩ 1 [⟨⟨2, ![K, N]⟩, W1⟩, ⟨⟨2, ![K, N]⟩, W2⟩] hc) (ix2 k c)
      = half * W2 (ix2 k q) := by
  refine (mulf_apply _ _ _).trans ?_
  refine congrArg₂ (· * ·) ?_ ?_
  · exact (broadcastInDim_apply _ hb _ _ ix0 (fun a => a.elim0)).trans rfl
  · exact concatenate_pair_apply_right 1 W1 W2 hc (ix2 k c) rfl rfl (ix2 k q)
      (fun b hne => by
        match b, hne with
        | ⟨0, _⟩, _ => rfl
        | ⟨1, _⟩, hne => exact (hne (Fin.ext rfl)).elim)
      (by show q.val + N = c.val; omega)

/-! ## A column slice of the product with the halved side-by-side weight -/

/-- Entry (n, q) of the left N columns of a · (½ · [W1 | W2]) is half the entry (n, q) of a · W1. -/
theorem slice_left_apply {M K N N2 : Nat}
    (hb : (⟨0, ![]⟩ : Shape).BroadcastsInDim ⟨2, ![K, N2]⟩ (![] : Fin 0 → Fin 2))
    (hc : Shape.Concatenates [⟨2, ![K, N]⟩, ⟨2, ![K, N]⟩] ⟨2, ![K, N2]⟩ 1)
    (hsl : (⟨2, ![M, N2]⟩ : Shape).Slices ![0, 0] ⟨2, ![M, N]⟩)
    (a : (⟨2, ![M, K]⟩ : Shape).Idx → EReal) (W1 W2 : FVec Ideal ⟨2, ![K, N]⟩ .f32) (n : Fin M) (q : Fin N) :
    extractStridedSlice ⟨2, ![M, N]⟩ ![0, 0]
      (mm M K N2 a (mulf (F := Ideal) (broadcastInDim ⟨2, ![K, N2]⟩ ![] hb (constant (F := Ideal) ⟨0, ![]⟩ .f32 0x3F000000#32))
        (concatenate ⟨2, ![K, N2]⟩ 1 [⟨⟨2, ![K, N]⟩, W1⟩, ⟨⟨2, ![K, N]⟩, W2⟩] hc))) hsl (ix2 n q)
      = half * ∑ k : Fin K, a (ix2 n k) * W1 (ix2 k q) := by
  refine (slice2_axis1_eq 0 _ hsl n q).trans ?_
  refine (mm_apply _ _ _ _ _ _ _).trans ?_
  refine (Finset.sum_congr rfl fun k _ =>
    congrArg (a (ix2 n k) * ·) (half_concat_left hb hc W1 W2 k q _ (Nat.zero_add _))).trans ?_
  exact sum_mul_half_mul _ _

/-- Entry (n, q) of the N columns from column N on is half the entry (n, q) of a · W2. -/
theorem slice_right_apply {M K N N2 : Nat}
    (hb : (⟨0, ![]⟩ : Shape).BroadcastsInDim ⟨2, ![K, N2]⟩ (![] : Fin 0 → Fin 2))
    (hc : Shape.Concatenates [⟨2, ![K, N]⟩, ⟨2, ![K, N]⟩] ⟨2, ![K, N2]⟩ 1)
    (hsl : (⟨2, ![M, N2]⟩ : Shape).Slices ![0, N] ⟨2, ![M, N]⟩)
    (a : (⟨2, ![M, K]⟩ : Shape).Idx → EReal) (W1 W2 : FVec Ideal ⟨2, ![K, N]⟩ .f32) (n : Fin M) (q : Fin N) :
    extractStridedSlice ⟨2, ![M, N]⟩ ![0, N]
      (mm M K N2 a (mulf (F := Ideal) (broadcastInDim ⟨2, ![K, N2]⟩ ![] hb (constant (F := Ideal) ⟨0, ![]⟩ .f32 0x3F000000#32))
        (concatenate ⟨2, ![K, N2]⟩ 1 [⟨⟨2, ![K, N]⟩, W1⟩, ⟨⟨2, ![K, N]⟩, W2⟩] hc))) hsl (ix2 n q)
      = half * ∑ k : Fin K, a (ix2 n k) * W2 (ix2 k q) := by
  refine (slice2_axis1_eq N _ hsl n q).trans ?_
  refine (mm_apply _ _ _ _ _ _ _).trans ?_
  refine (Finset.sum_congr rfl fun k _ =>
    congrArg (a (ix2 n k) * ·) (half_concat_right hb hc W1 W2 k q _ rfl)).trans ?_
  exact sum_mul_half_mul _ _

/-! ## The reference's two dense maps at an entry, and the four slices -/

section
variable [Cert.KernelIdeal.Facts₀] [Cert.ReferenceIdeal.Facts₀]

/-- The first layer's dense map (256 input features) at an entry. -/
theorem dot256_apply (a : FVec Ideal Cert.ReferenceIdeal.S50000x256 .f32) (W : FVec Ideal Cert.ReferenceIdeal.S256x128 .f32) (n : Fin 50000) (q : Fin 128) :
    Host.dotGeneral (F := Ideal) Cert.ReferenceIdeal.dot_S50000x256_S256x128_S50000x128_1_0_0_1_n_n none a W (ix2 n q) = ∑ k : Fin 256, a (ix2 n k) * W (ix2 k q) :=
  dot_apply_of_coords Cert.ReferenceIdeal.dot_S50000x256_S256x128_S50000x128_1_0_0_1_n_n rfl rfl
    (fun _ _ => rfl)
    (fun i c => Cert.ReferenceIdeal.dot_S50000x256_S256x128_S50000x128_1_0_0_1_n_n.lhsIdx_val_of_single rfl i c)
    (fun i c => Cert.ReferenceIdeal.dot_S50000x256_S256x128_S50000x128_1_0_0_1_n_n.rhsIdx_val_of_single rfl i c)
    (fun _ _ => rfl)
    a W n q

/-- The second layer's dense map (128 input features) at an entry. -/
theorem dot128_apply (a : FVec Ideal Cert.ReferenceIdeal.S50000x128 .f32) (W : FVec Ideal Cert.ReferenceIdeal.S128x128 .f32) (n : Fin 50000) (q : Fin 128) :
    Host.dotGeneral (F := Ideal) Cert.ReferenceIdeal.dot_S50000x128_S128x128_S50000x128_1_0_0_1_n_n none a W (ix2 n q) = ∑ k : Fin 128, a (ix2 n k) * W (ix2 k q) :=
  dot_apply_of_coords Cert.ReferenceIdeal.dot_S50000x128_S128x128_S50000x128_1_0_0_1_n_n rfl rfl
    (fun _ _ => rfl)
    (fun i c => Cert.ReferenceIdeal.dot_S50000x128_S128x128_S50000x128_1_0_0_1_n_n.lhsIdx_val_of_single rfl i c)
    (fun i c => Cert.ReferenceIdeal.dot_S50000x128_S128x128_S50000x128_1_0_0_1_n_n.rhsIdx_val_of_single rfl i c)
    (fun _ _ => rfl)
    a W n q

/-- First layer, left 128 columns: half the first relation's dense map. -/
theorem left_slice_256 (a : FVec Ideal Cert.KernelIdeal.S50000x256 .f32) (W1 W2 : FVec Ideal Cert.KernelIdeal.S256x128 .f32) :
    extractStridedSlice Cert.KernelIdeal.S50000x128 ![0, 0]
      (mm 50000 256 256 a (mulf (F := Ideal) (broadcastInDim Cert.KernelIdeal.S256x256 ![] Cert.KernelIdeal.Facts₀.bcast_S_S256x256 (constant (F := Ideal) Cert.KernelIdeal.S_ .f32 0x3F000000#32))
        (concatenate Cert.KernelIdeal.S256x256 1 [⟨Cert.KernelIdeal.S256x128, W1⟩, ⟨Cert.KernelIdeal.S256x128, W2⟩] Cert.KernelIdeal.Facts₀.concatenates_S256x128_S256x128_S256x256_d1)))
      Cert.KernelIdeal.Facts₀.slices_S50000x256_S50000x128_0_0
    = fun i => half * Host.dotGeneral (F := Ideal) Cert.ReferenceIdeal.dot_S50000x256_S256x128_S50000x128_1_0_0_1_n_n none a W1 i := by
  funext i
  obtain ⟨n, q, rfl⟩ : ∃ (n : Fin 50000) (q : Fin 128), i = ix2 n q := ⟨i 0, i 1, eq_ix2 i⟩
  refine Eq.trans ?_ (congrArg (half * ·) (dot256_apply a W1 n q).symm)
  exact slice_left_apply Cert.KernelIdeal.Facts₀.bcast_S_S256x256 Cert.KernelIdeal.Facts₀.concatenates_S256x128_S256x128_S256x256_d1 Cert.KernelIdeal.Facts₀.slices_S50000x256_S50000x128_0_0 a W1 W2 n q

/-- First layer, right 128 columns: half the second relation's dense map. -/
theorem right_slice_256 (a : FVec Ideal Cert.KernelIdeal.S50000x256 .f32) (W1 W2 : FVec Ideal Cert.KernelIdeal.S256x128 .f32) :
    extractStridedSlice Cert.KernelIdeal.S50000x128 ![0, 128]
      (mm 50000 256 256 a (mulf (F := Ideal) (broadcastInDim Cert.KernelIdeal.S256x256 ![] Cert.KernelIdeal.Facts₀.bcast_S_S256x256 (constant (F := Ideal) Cert.KernelIdeal.S_ .f32 0x3F000000#32))
        (concatenate Cert.KernelIdeal.S256x256 1 [⟨Cert.KernelIdeal.S256x128, W1⟩, ⟨Cert.KernelIdeal.S256x128, W2⟩] Cert.KernelIdeal.Facts₀.concatenates_S256x128_S256x128_S256x256_d1)))
      Cert.KernelIdeal.Facts₀.slices_S50000x256_S50000x128_0_128
    = fun i => half * Host.dotGeneral (F := Ideal) Cert.ReferenceIdeal.dot_S50000x256_S256x128_S50000x128_1_0_0_1_n_n none a W2 i := by
  funext i
  obtain ⟨n, q, rfl⟩ : ∃ (n : Fin 50000) (q : Fin 128), i = ix2 n q := ⟨i 0, i 1, eq_ix2 i⟩
  refine Eq.trans ?_ (congrArg (half * ·) (dot256_apply a W2 n q).symm)
  exact slice_right_apply Cert.KernelIdeal.Facts₀.bcast_S_S256x256 Cert.KernelIdeal.Facts₀.concatenates_S256x128_S256x128_S256x256_d1 Cert.KernelIdeal.Facts₀.slices_S50000x256_S50000x128_0_128 a W1 W2 n q

/-- Second layer, left 128 columns. -/
theorem left_slice_128 (a : FVec Ideal Cert.KernelIdeal.S50000x128 .f32) (W1 W2 : FVec Ideal Cert.KernelIdeal.S128x128 .f32) :
    extractStridedSlice Cert.KernelIdeal.S50000x128 ![0, 0]
      (mm 50000 128 256 a (mulf (F := Ideal) (broadcastInDim Cert.KernelIdeal.S128x256 ![] Cert.KernelIdeal.Facts₀.bcast_S_S128x256 (constant (F := Ideal) Cert.KernelIdeal.S_ .f32 0x3F000000#32))
        (concatenate Cert.KernelIdeal.S128x256 1 [⟨Cert.KernelIdeal.S128x128, W1⟩, ⟨Cert.KernelIdeal.S128x128, W2⟩] Cert.KernelIdeal.Facts₀.concatenates_S128x128_S128x128_S128x256_d1)))
      Cert.KernelIdeal.Facts₀.slices_S50000x256_S50000x128_0_0
    = fun i => half * Host.dotGeneral (F := Ideal) Cert.ReferenceIdeal.dot_S50000x128_S128x128_S50000x128_1_0_0_1_n_n none a W1 i := by
  funext i
  obtain ⟨n, q, rfl⟩ : ∃ (n : Fin 50000) (q : Fin 128), i = ix2 n q := ⟨i 0, i 1, eq_ix2 i⟩
  refine Eq.trans ?_ (congrArg (half * ·) (dot128_apply a W1 n q).symm)
  exact slice_left_apply Cert.KernelIdeal.Facts₀.bcast_S_S128x256 Cert.KernelIdeal.Facts₀.concatenates_S128x128_S128x128_S128x256_d1 Cert.KernelIdeal.Facts₀.slices_S50000x256_S50000x128_0_0 a W1 W2 n q

/-- Second layer, right 128 columns. -/
theorem right_slice_128 (a : FVec Ideal Cert.KernelIdeal.S50000x128 .f32) (W1 W2 : FVec Ideal Cert.KernelIdeal.S128x128 .f32) :
    extractStridedSlice Cert.KernelIdeal.S50000x128 ![0, 128]
      (mm 50000 128 256 a (mulf (F := Ideal) (broadcastInDim Cert.KernelIdeal.S128x256 ![] Cert.KernelIdeal.Facts₀.bcast_S_S128x256 (constant (F := Ideal) Cert.KernelIdeal.S_ .f32 0x3F000000#32))
        (concatenate Cert.KernelIdeal.S128x256 1 [⟨Cert.KernelIdeal.S128x128, W1⟩, ⟨Cert.KernelIdeal.S128x128, W2⟩] Cert.KernelIdeal.Facts₀.concatenates_S128x128_S128x128_S128x256_d1)))
      Cert.KernelIdeal.Facts₀.slices_S50000x256_S50000x128_0_128
    = fun i => half * Host.dotGeneral (F := Ideal) Cert.ReferenceIdeal.dot_S50000x128_S128x128_S50000x128_1_0_0_1_n_n none a W2 i := by
  funext i
  obtain ⟨n, q, rfl⟩ : ∃ (n : Fin 50000) (q : Fin 128), i = ix2 n q := ⟨i 0, i 1, eq_ix2 i⟩
  refine Eq.trans ?_ (congrArg (half * ·) (dot128_apply a W2 n q).symm)
  exact slice_right_apply Cert.KernelIdeal.Facts₀.bcast_S_S128x256 Cert.KernelIdeal.Facts₀.concatenates_S128x128_S128x128_S128x256_d1 Cert.KernelIdeal.Facts₀.slices_S50000x256_S50000x128_0_128 a W1 W2 n q

end

end Cert.Hgcn

end
-- ==== Proof.GatherRow.lean ====
/-
  The two row gathers read at an index.

  Both programs gather rows of a 50000-row table along axis 0 at 131072 start indices: the reference takes the
  128-wide rows of the embeddings, the kernel the 2-wide rows of the per-node partial logits. A start index is
  read as a signed integer and clamped into the table's rows; the column passes through. The two sets of
  dimension numbers differ in the slice width only, so both read THE SAME row, `row idx p`, for pair `p`.
-/
import proofs.«116640_j87351044866138_2_alg».proof.KernelIdeal
import proofs.«116640_j87351044866138_2_alg».proof.ReferenceIdeal
import Idealize.ShloMosaic.Lib.ValueIdx

noncomputable section

namespace Cert.Hgcn

open Idealize.ShloMosaic Idealize.ShloMosaic.ValueIdx

/-- The table row a start index names: the index word of pair `p`, read as a signed integer and clamped into
    the rows `0 … 49999`. -/
def row (idx : IVec (⟨2, ![131072, 1]⟩ : Shape) 32) (p : Fin 131072) : Fin 50000 :=
  ⟨min (idx (ix2 p 0)).toInt.toNat 49999, by omega⟩

/-- The 128-wide gather's operand index at result entry `(p, j)` is `(row idx p, j)`. -/
theorem gatherR_idx [Cert.ReferenceIdeal.Facts₀] (idx : IVec Cert.ReferenceIdeal.S131072x1 32) (p : Fin 131072) (j : Fin 128) :
    Cert.ReferenceIdeal.gather_S50000x128_S131072x1_S131072x128_1_0_n_n_0_1_1128.operandIdx (ix2 p j) idx = ix2 (row idx p) j := by
  funext a
  refine Fin.ext ?_
  match a with
  | ⟨0, _⟩ =>
    -- axis 0 is collapsed and named by the start index map: the clamped start, no batch or offset part
    show Cert.ReferenceIdeal.gather_S50000x128_S131072x1_S131072x128_1_0_n_n_0_1_1128.start (ix2 p j) idx 0
      + Cert.ReferenceIdeal.gather_S50000x128_S131072x1_S131072x128_1_0_n_n_0_1_1128.batchCoord (ix2 p j) 0
      + Cert.ReferenceIdeal.gather_S50000x128_S131072x1_S131072x128_1_0_n_n_0_1_1128.offCoord (ix2 p j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S50000x128_S131072x1_S131072x128_1_0_n_n_0_1_1128.startIndexMap from List.mem_singleton.mpr rfl)]
    -- the start index of result entry (p, j) sits at (p, 0) of the index array
    have hsi : Cert.ReferenceIdeal.gather_S50000x128_S131072x1_S131072x128_1_0_n_n_0_1_1128.siIdx (ix2 p j)
        ⟨List.idxOf (0 : Fin 2) Cert.ReferenceIdeal.gather_S50000x128_S131072x1_S131072x128_1_0_n_n_0_1_1128.startIndexMap,
          List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    -- axis 1 is the one offset axis: start 0, no batch part, the result's column
    show Cert.ReferenceIdeal.gather_S50000x128_S131072x1_S131072x128_1_0_n_n_0_1_1128.start (ix2 p j) idx 1
      + Cert.ReferenceIdeal.gather_S50000x128_S131072x1_S131072x128_1_0_n_n_0_1_1128.batchCoord (ix2 p j) 1
      + Cert.ReferenceIdeal.gather_S50000x128_S131072x1_S131072x128_1_0_n_n_0_1_1128.offCoord (ix2 p j) 1 = _
    rw [GatherDims.batchCoord_eq_zero _ _ _ List.not_mem_nil]
    unfold GatherDims.start
    rw [dif_neg (show ¬ (1 : Fin 2) ∈ Cert.ReferenceIdeal.gather_S50000x128_S131072x1_S131072x128_1_0_n_n_0_1_1128.startIndexMap
      from fun h => absurd (List.mem_singleton.mp h) (by decide))]
    unfold GatherDims.offCoord
    rw [dif_pos (show (1 : Fin 2) ∈ Cert.ReferenceIdeal.gather_S50000x128_S131072x1_S131072x128_1_0_n_n_0_1_1128.sKept
      from (GatherDims.mem_sKept _ _).mpr ⟨fun h => absurd (List.mem_singleton.mp h) (by decide), List.not_mem_nil⟩)]
    simp only [Nat.zero_add, Nat.add_zero]
    rfl

/-- The 2-wide gather's operand index at result entry `(p, j)` is `(row idx p, j)`: the same row. -/
theorem gatherK_idx [Cert.KernelIdeal.Facts₀] (idx : IVec Cert.KernelIdeal.S131072x1 32) (p : Fin 131072) (j : Fin 2) :
    Cert.KernelIdeal.gather_S50000x2_S131072x1_S131072x2_1_0_n_n_0_1_12.operandIdx (ix2 p j) idx = ix2 (row idx p) j := by
  funext a
  refine Fin.ext ?_
  match a with
  | ⟨0, _⟩ =>
    -- axis 0 is collapsed and named by the start index map: the clamped start, no batch or offset part
    show Cert.KernelIdeal.gather_S50000x2_S131072x1_S131072x2_1_0_n_n_0_1_12.start (ix2 p j) idx 0
      + Cert.KernelIdeal.gather_S50000x2_S131072x1_S131072x2_1_0_n_n_0_1_12.batchCoord (ix2 p j) 0
      + Cert.KernelIdeal.gather_S50000x2_S131072x1_S131072x2_1_0_n_n_0_1_12.offCoord (ix2 p j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.KernelIdeal.gather_S50000x2_S131072x1_S131072x2_1_0_n_n_0_1_12.startIndexMap from List.mem_singleton.mpr rfl)]
    -- the start index of result entry (p, j) sits at (p, 0) of the index array
    have hsi : Cert.KernelIdeal.gather_S50000x2_S131072x1_S131072x2_1_0_n_n_0_1_12.siIdx (ix2 p j)
        ⟨List.idxOf (0 : Fin 2) Cert.KernelIdeal.gather_S50000x2_S131072x1_S131072x2_1_0_n_n_0_1_12.startIndexMap,
          List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    -- axis 1 is the one offset axis: start 0, no batch part, the result's column
    show Cert.KernelIdeal.gather_S50000x2_S131072x1_S131072x2_1_0_n_n_0_1_12.start (ix2 p j) idx 1
      + Cert.KernelIdeal.gather_S50000x2_S131072x1_S131072x2_1_0_n_n_0_1_12.batchCoord (ix2 p j) 1
      + Cert.KernelIdeal.gather_S50000x2_S131072x1_S131072x2_1_0_n_n_0_1_12.offCoord (ix2 p j) 1 = _
    rw [GatherDims.batchCoord_eq_zero _ _ _ List.not_mem_nil]
    unfold GatherDims.start
    rw [dif_neg (show ¬ (1 : Fin 2) ∈ Cert.KernelIdeal.gather_S50000x2_S131072x1_S131072x2_1_0_n_n_0_1_12.startIndexMap
      from fun h => absurd (List.mem_singleton.mp h) (by decide))]
    unfold GatherDims.offCoord
    rw [dif_pos (show (1 : Fin 2) ∈ Cert.KernelIdeal.gather_S50000x2_S131072x1_S131072x2_1_0_n_n_0_1_12.sKept
      from (GatherDims.mem_sKept _ _).mpr ⟨fun h => absurd (List.mem_singleton.mp h) (by decide), List.not_mem_nil⟩)]
    simp only [Nat.zero_add, Nat.add_zero]
    rfl

/-- The 128-wide gather read at `(p, j)`: the table at `(row idx p, j)`. -/
theorem gatherR_apply {α : Type} [Cert.ReferenceIdeal.Facts₀] (x : Cert.ReferenceIdeal.S50000x128.Idx → α)
    (idx : IVec Cert.ReferenceIdeal.S131072x1 32) (p : Fin 131072) (j : Fin 128) :
    Host.gather Cert.ReferenceIdeal.gather_S50000x128_S131072x1_S131072x128_1_0_n_n_0_1_1128 x idx (ix2 p j) = x (ix2 (row idx p) j) := by
  unfold Host.gather
  rw [gatherR_idx]

/-- The 2-wide gather read at `(p, j)`: the table at `(row idx p, j)`. -/
theorem gatherK_apply {α : Type} [Cert.KernelIdeal.Facts₀] (x : Cert.KernelIdeal.S50000x2.Idx → α)
    (idx : IVec Cert.KernelIdeal.S131072x1 32) (p : Fin 131072) (j : Fin 2) :
    Host.gather Cert.KernelIdeal.gather_S50000x2_S131072x1_S131072x2_1_0_n_n_0_1_12 x idx (ix2 p j) = x (ix2 (row idx p) j) := by
  unfold Host.gather
  rw [gatherK_idx]

end Cert.Hgcn

end
-- ==== Proof.PairLogits.lean ====
/-
  The pair logits: the two programs' link classifiers agree entry by entry.

  The reference gathers the embedding rows of a pair's two nodes, puts them side by side into one row of 256 entries and
  multiplies by the 256×2 weights. The kernel multiplies the embeddings by the two 128-row halves of the weights first
  (one 50000×4 product: columns 0–1 against rows 0–127 of the weights, columns 2–3 against rows 128–255), then gathers
  the 2-wide rows of that product at the two nodes and adds them. At entry `(p, o)` the reference's sum over the 256
  weight rows, cut at row 128, is the kernel's two sums: associativity and commutativity of the extended reals'
  addition, nothing else, and no finiteness. The gathers of the two programs read the same table row (GatherRow).
-/
import proofs.«116640_j87351044866138_2_alg».proof.Proof.Spec
import proofs.«116640_j87351044866138_2_alg».proof.Proof.GatherRow
import proofs.«116640_j87351044866138_2_alg».proof.KernelIdeal
import proofs.«116640_j87351044866138_2_alg».proof.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Hgcn

open Idealize.ShloMosaic Idealize.ShloMosaic.ValueIdx

/-! ## A sum over 256 terms, cut at 128 -/

/-- Position `k` of the first half. -/
abbrev lo (k : Fin 128) : Fin 256 := ⟨k.val, by omega⟩
/-- Position `128 + k`, in the second half. -/
abbrev hi (k : Fin 128) : Fin 256 := ⟨128 + k.val, by omega⟩

/-- A sum over `0 … 255` is the sum over the first 128 positions plus the sum over the last 128: associativity
    and commutativity of the addition only. -/
theorem sum_256_split {M : Type} [AddCommMonoid M] (f : Fin 256 → M) :
    ∑ k : Fin 256, f k = ∑ k : Fin 128, f (lo k) + ∑ k : Fin 128, f (hi k) :=
  Fin.sum_univ_add (a := 128) (b := 128) f

/-! ## The reference: the concatenated rows times the weights -/

/-- The left operand's row is the result's row. -/
theorem refDot_lhs0 [Cert.ReferenceIdeal.Facts₀] (i : Cert.ReferenceIdeal.S131072x2.Idx) (q : Cert.ReferenceIdeal.dot_S131072x256_S256x2_S131072x2_1_0_0_1_n_n.contr.Idx) :
    (Cert.ReferenceIdeal.dot_S131072x256_S256x2_S131072x2_1_0_0_1_n_n.lhsIdx i q 0).val = (i 0).val := by
  unfold DotDims.lhsIdx
  rw [dif_neg (show ¬(0 : Fin 2) ∈ Cert.ReferenceIdeal.dot_S131072x256_S256x2_S131072x2_1_0_0_1_n_n.lhsBatch from List.not_mem_nil),
    dif_pos (show (0 : Fin 2) ∈ Cert.ReferenceIdeal.dot_S131072x256_S256x2_S131072x2_1_0_0_1_n_n.lhsNonContracting from List.mem_singleton.mpr rfl)]
  rfl
/-- The right operand's column is the result's column. -/
theorem refDot_rhs1 [Cert.ReferenceIdeal.Facts₀] (i : Cert.ReferenceIdeal.S131072x2.Idx) (q : Cert.ReferenceIdeal.dot_S131072x256_S256x2_S131072x2_1_0_0_1_n_n.contr.Idx) :
    (Cert.ReferenceIdeal.dot_S131072x256_S256x2_S131072x2_1_0_0_1_n_n.rhsIdx i q 1).val = (i 1).val := by
  unfold DotDims.rhsIdx
  rw [dif_neg (show ¬(1 : Fin 2) ∈ Cert.ReferenceIdeal.dot_S131072x256_S256x2_S131072x2_1_0_0_1_n_n.rhsBatch from List.not_mem_nil),
    dif_pos (show (1 : Fin 2) ∈ Cert.ReferenceIdeal.dot_S131072x256_S256x2_S131072x2_1_0_0_1_n_n.rhsNonContracting from List.mem_singleton.mpr rfl)]
  rfl

/-- The reference's product at `(p, o)`: the sum over the 256 columns of the left operand's row `p` times the
    weights' column `o`. -/
theorem refDot_apply [Cert.ReferenceIdeal.Facts₀] (y : FVec Ideal Cert.ReferenceIdeal.S131072x256 .f32) (Wc : FVec Ideal Cert.ReferenceIdeal.S256x2 .f32)
    (p : Fin 131072) (o : Fin 2) :
    Host.dotGeneral (F := Ideal) Cert.ReferenceIdeal.dot_S131072x256_S256x2_S131072x2_1_0_0_1_n_n none y Wc (ix2 p o) = ∑ k : Fin 256, y (ix2 p k) * Wc (ix2 k o) := by
  simp only [Host.dotGeneral]
  rw [Ideal.dotGeneral_apply, ← Equiv.sum_comp (contrEquiv1 Cert.ReferenceIdeal.dot_S131072x256_S256x2_S131072x2_1_0_0_1_n_n 256 rfl rfl).symm]
  refine Finset.sum_congr rfl fun k _ => ?_
  have hk := contrEquiv1_symm_val Cert.ReferenceIdeal.dot_S131072x256_S256x2_S131072x2_1_0_0_1_n_n 256 rfl rfl k
  have el : Cert.ReferenceIdeal.dot_S131072x256_S256x2_S131072x2_1_0_0_1_n_n.lhsIdx (ix2 p o) ((contrEquiv1 Cert.ReferenceIdeal.dot_S131072x256_S256x2_S131072x2_1_0_0_1_n_n 256 rfl rfl).symm k) = ix2 p k :=
    funext fun a => Fin.ext (by
      match a with
      | ⟨0, _⟩ => exact refDot_lhs0 _ _
      | ⟨1, _⟩ => exact (Cert.ReferenceIdeal.dot_S131072x256_S256x2_S131072x2_1_0_0_1_n_n.lhsIdx_val_of_single rfl _ _).trans hk)
  have er : Cert.ReferenceIdeal.dot_S131072x256_S256x2_S131072x2_1_0_0_1_n_n.rhsIdx (ix2 p o) ((contrEquiv1 Cert.ReferenceIdeal.dot_S131072x256_S256x2_S131072x2_1_0_0_1_n_n 256 rfl rfl).symm k) = ix2 k o :=
    funext fun a => Fin.ext (by
      match a with
      | ⟨0, _⟩ => exact (Cert.ReferenceIdeal.dot_S131072x256_S256x2_S131072x2_1_0_0_1_n_n.rhsIdx_val_of_single rfl _ _).trans hk
      | ⟨1, _⟩ => exact refDot_rhs1 _ _)
  rw [el, er]

/-- The two gathered blocks side by side, at a column of the first half: the first block there. -/
theorem refCat_lo [Cert.ReferenceIdeal.Facts₀] (A B : FVec Ideal Cert.ReferenceIdeal.S131072x128 .f32) (p : Fin 131072) (k : Fin 128) :
    concatenate Cert.ReferenceIdeal.S131072x256 1 [⟨Cert.ReferenceIdeal.S131072x128, A⟩, ⟨Cert.ReferenceIdeal.S131072x128, B⟩] Cert.ReferenceIdeal.Facts₀.concatenates_S131072x128_S131072x128_S131072x256_d1 (ix2 p (lo k))
      = A (ix2 p k) :=
  concatenate_pair_apply_left (1 : Fin 2) A B Cert.ReferenceIdeal.Facts₀.concatenates_S131072x128_S131072x128_S131072x256_d1 (ix2 p (lo k)) rfl (ix2 p k) (fun b => by
    match b with
    | ⟨0, _⟩ => rfl
    | ⟨1, _⟩ => rfl)

/-- … at a column of the second half: the second block, 128 columns back. -/
theorem refCat_hi [Cert.ReferenceIdeal.Facts₀] (A B : FVec Ideal Cert.ReferenceIdeal.S131072x128 .f32) (p : Fin 131072) (k : Fin 128) :
    concatenate Cert.ReferenceIdeal.S131072x256 1 [⟨Cert.ReferenceIdeal.S131072x128, A⟩, ⟨Cert.ReferenceIdeal.S131072x128, B⟩] Cert.ReferenceIdeal.Facts₀.concatenates_S131072x128_S131072x128_S131072x256_d1 (ix2 p (hi k))
      = B (ix2 p k) :=
  concatenate_pair_apply_right (1 : Fin 2) A B Cert.ReferenceIdeal.Facts₀.concatenates_S131072x128_S131072x128_S131072x256_d1 (ix2 p (hi k)) rfl rfl (ix2 p k)
    (fun b hb => by
      match b with
      | ⟨0, _⟩ => rfl
      | ⟨1, _⟩ => exact absurd rfl hb)
    (by show k.val + 128 = 128 + k.val; exact Nat.add_comm _ _)

/-! ## The kernel: the per-node partial logits, sliced and gathered -/

/-- Column `o` of the partial logits: the source half's. -/
abbrev colS (o : Fin 2) : Fin 4 := ⟨o.val, by omega⟩
/-- Column `2 + o` of the partial logits: the destination half's. -/
abbrev colD (o : Fin 2) : Fin 4 := ⟨2 + o.val, by omega⟩

/-- The two weight halves side by side, at a column of the first pair: the first half there. -/
theorem wCat_lo [Cert.KernelIdeal.Facts₀] (WA WB : FVec Ideal Cert.KernelIdeal.S128x2 .f32) (k : Fin 128) (o : Fin 2) :
    concatenate Cert.KernelIdeal.S128x4 1 [⟨Cert.KernelIdeal.S128x2, WA⟩, ⟨Cert.KernelIdeal.S128x2, WB⟩] Cert.KernelIdeal.Facts₀.concatenates_S128x2_S128x2_S128x4_d1 (ix2 k (colS o))
      = WA (ix2 k o) :=
  concatenate_pair_apply_left (1 : Fin 2) WA WB Cert.KernelIdeal.Facts₀.concatenates_S128x2_S128x2_S128x4_d1 (ix2 k (colS o)) rfl (ix2 k o) (fun b => by
    match b with
    | ⟨0, _⟩ => rfl
    | ⟨1, _⟩ => rfl)

/-- … at a column of the second pair: the second half, two columns back. -/
theorem wCat_hi [Cert.KernelIdeal.Facts₀] (WA WB : FVec Ideal Cert.KernelIdeal.S128x2 .f32) (k : Fin 128) (o : Fin 2) :
    concatenate Cert.KernelIdeal.S128x4 1 [⟨Cert.KernelIdeal.S128x2, WA⟩, ⟨Cert.KernelIdeal.S128x2, WB⟩] Cert.KernelIdeal.Facts₀.concatenates_S128x2_S128x2_S128x4_d1 (ix2 k (colD o))
      = WB (ix2 k o) :=
  concatenate_pair_apply_right (1 : Fin 2) WA WB Cert.KernelIdeal.Facts₀.concatenates_S128x2_S128x2_S128x4_d1 (ix2 k (colD o)) rfl rfl (ix2 k o)
    (fun b hb => by
      match b with
      | ⟨0, _⟩ => rfl
      | ⟨1, _⟩ => exact absurd rfl hb)
    (by show o.val + 2 = 2 + o.val; exact Nat.add_comm _ _)

/-- The whole product at an entry, with the entry's coordinates written out. -/
theorem mm_at (M K N : Nat) (x : (⟨2, ![M, K]⟩ : Shape).Idx → EReal) (w : (⟨2, ![K, N]⟩ : Shape).Idx → EReal)
    (n : Fin M) (c : Fin N) : mm M K N x w (ix2 n c) = ∑ k : Fin K, x (ix2 n k) * w (ix2 k c) := rfl

/-- The kernel's pair logit at `(p, o)`: the source row of the embeddings against the first 128 rows of the weights
    plus the destination row against the last 128. -/
theorem kernel_apply [Cert.KernelIdeal.Facts₀] (z : FVec Ideal Cert.KernelIdeal.S50000x128 .f32) (Wc : FVec Ideal Cert.KernelIdeal.S256x2 .f32)
    (si di : IVec Cert.KernelIdeal.S131072x1 32) (p : Fin 131072) (o : Fin 2) :
    (addf (F := Ideal) (φ := .f32)
        (Host.gather Cert.KernelIdeal.gather_S50000x2_S131072x1_S131072x2_1_0_n_n_0_1_12
          (extractStridedSlice Cert.KernelIdeal.S50000x2 ![0, 0]
            (mm 50000 128 4 z
              (concatenate Cert.KernelIdeal.S128x4 1
              [⟨Cert.KernelIdeal.S128x2, extractStridedSlice Cert.KernelIdeal.S128x2 ![0, 0] Wc Cert.KernelIdeal.Facts₀.slices_S256x2_S128x2_0_0⟩,
               ⟨Cert.KernelIdeal.S128x2, extractStridedSlice Cert.KernelIdeal.S128x2 ![128, 0] Wc Cert.KernelIdeal.Facts₀.slices_S256x2_S128x2_128_0⟩]
              Cert.KernelIdeal.Facts₀.concatenates_S128x2_S128x2_S128x4_d1))
            Cert.KernelIdeal.Facts₀.slices_S50000x4_S50000x2_0_0) si)
        (Host.gather Cert.KernelIdeal.gather_S50000x2_S131072x1_S131072x2_1_0_n_n_0_1_12
          (extractStridedSlice Cert.KernelIdeal.S50000x2 ![0, 2]
            (mm 50000 128 4 z
              (concatenate Cert.KernelIdeal.S128x4 1
              [⟨Cert.KernelIdeal.S128x2, extractStridedSlice Cert.KernelIdeal.S128x2 ![0, 0] Wc Cert.KernelIdeal.Facts₀.slices_S256x2_S128x2_0_0⟩,
               ⟨Cert.KernelIdeal.S128x2, extractStridedSlice Cert.KernelIdeal.S128x2 ![128, 0] Wc Cert.KernelIdeal.Facts₀.slices_S256x2_S128x2_128_0⟩]
              Cert.KernelIdeal.Facts₀.concatenates_S128x2_S128x2_S128x4_d1))
            Cert.KernelIdeal.Facts₀.slices_S50000x4_S50000x2_0_2) di)) (ix2 p o)
      = ∑ k : Fin 128, z (ix2 (row si p) k) * Wc (ix2 (lo k) o)
        + ∑ k : Fin 128, z (ix2 (row di p) k) * Wc (ix2 (hi k) o) := by
  rw [addf_apply, gatherK_apply, gatherK_apply,
    slice2_axis1_apply 0 _ _ (row si p) o (colS o) (Nat.zero_add _).symm,
    slice2_axis1_apply 2 _ _ (row di p) o (colD o) rfl,
    mm_at, mm_at]
  congr 1
  · refine Finset.sum_congr rfl fun k _ => ?_
    rw [wCat_lo, slice2_axis0_apply 0 Wc _ k o (lo k) (Nat.zero_add _).symm]
  · refine Finset.sum_congr rfl fun k _ => ?_
    rw [wCat_hi, slice2_axis0_apply 128 Wc _ k o (hi k) rfl]

/-! ## The two agree -/

/-- THE PAIR LOGITS: gathering the 2-wide rows of the per-node partial logits and adding them is the product of the
    concatenated gathered embedding rows with the weights. Entry `(p, o)` of either side is the sum over the 256
    weight rows; the kernel's side is that sum cut at row 128. -/
theorem pair_logits [Cert.KernelIdeal.Facts₀] [Cert.ReferenceIdeal.Facts₀] (z : FVec Ideal Cert.KernelIdeal.S50000x128 .f32) (Wc : FVec Ideal Cert.KernelIdeal.S256x2 .f32)
    (si di : IVec Cert.KernelIdeal.S131072x1 32) :
    addf (F := Ideal) (φ := .f32)
        (Host.gather Cert.KernelIdeal.gather_S50000x2_S131072x1_S131072x2_1_0_n_n_0_1_12
          (extractStridedSlice Cert.KernelIdeal.S50000x2 ![0, 0]
            (mm 50000 128 4 z
              (concatenate Cert.KernelIdeal.S128x4 1
              [⟨Cert.KernelIdeal.S128x2, extractStridedSlice Cert.KernelIdeal.S128x2 ![0, 0] Wc Cert.KernelIdeal.Facts₀.slices_S256x2_S128x2_0_0⟩,
               ⟨Cert.KernelIdeal.S128x2, extractStridedSlice Cert.KernelIdeal.S128x2 ![128, 0] Wc Cert.KernelIdeal.Facts₀.slices_S256x2_S128x2_128_0⟩]
              Cert.KernelIdeal.Facts₀.concatenates_S128x2_S128x2_S128x4_d1))
            Cert.KernelIdeal.Facts₀.slices_S50000x4_S50000x2_0_0) si)
        (Host.gather Cert.KernelIdeal.gather_S50000x2_S131072x1_S131072x2_1_0_n_n_0_1_12
          (extractStridedSlice Cert.KernelIdeal.S50000x2 ![0, 2]
            (mm 50000 128 4 z
              (concatenate Cert.KernelIdeal.S128x4 1
              [⟨Cert.KernelIdeal.S128x2, extractStridedSlice Cert.KernelIdeal.S128x2 ![0, 0] Wc Cert.KernelIdeal.Facts₀.slices_S256x2_S128x2_0_0⟩,
               ⟨Cert.KernelIdeal.S128x2, extractStridedSlice Cert.KernelIdeal.S128x2 ![128, 0] Wc Cert.KernelIdeal.Facts₀.slices_S256x2_S128x2_128_0⟩]
              Cert.KernelIdeal.Facts₀.concatenates_S128x2_S128x2_S128x4_d1))
            Cert.KernelIdeal.Facts₀.slices_S50000x4_S50000x2_0_2) di)
      = Host.dotGeneral (F := Ideal) Cert.ReferenceIdeal.dot_S131072x256_S256x2_S131072x2_1_0_0_1_n_n none
          (concatenate Cert.ReferenceIdeal.S131072x256 1
            [⟨Cert.ReferenceIdeal.S131072x128, Host.gather Cert.ReferenceIdeal.gather_S50000x128_S131072x1_S131072x128_1_0_n_n_0_1_1128 z si⟩,
             ⟨Cert.ReferenceIdeal.S131072x128, Host.gather Cert.ReferenceIdeal.gather_S50000x128_S131072x1_S131072x128_1_0_n_n_0_1_1128 z di⟩]
            Cert.ReferenceIdeal.Facts₀.concatenates_S131072x128_S131072x128_S131072x256_d1) Wc := by
  funext i
  obtain ⟨p, o, rfl⟩ : ∃ (p : Fin 131072) (o : Fin 2), i = ix2 p o := ⟨i 0, i 1, eq_ix2 i⟩
  rw [kernel_apply, refDot_apply, sum_256_split]
  congr 1
  · refine Finset.sum_congr rfl fun k _ => ?_
    rw [refCat_lo, gatherR_apply]
  · refine Finset.sum_congr rfl fun k _ => ?_
    rw [refCat_hi, gatherR_apply]

end Cert.Hgcn

end
-- ==== Proof.Bridge.lean ====
/-
  The two arrangements of the whole model agree.

  Layer by layer: the kernel forms ONE product of the features with the two relations' weights set side by side and
  halved; the left and the right 128 columns of that product are, entry by entry, one half of the two relations'
  dense maps. A layer that is handed the halved maps, adds the two aggregations and then the halved bias sum, is the
  reference's layer, which aggregates the unhalved maps, adds each bias, adds the two and halves at the end. Putting
  the two facts together gives the hidden features and the node embeddings.

  The link classifier: the kernel scores every node once against the classifier's upper and lower weight halves and,
  for a candidate pair, adds the source's score against the upper half to the target's score against the lower half;
  that is the product of the pair's concatenated embeddings with the whole weight matrix. Both programs then add the
  same bias and apply the same logistic function.
-/
import proofs.«116640_j87351044866138_2_alg».proof.Proof.Model
import proofs.«116640_j87351044866138_2_alg».proof.Proof.LayerLaw
import proofs.«116640_j87351044866138_2_alg».proof.Proof.HalfProduct
import proofs.«116640_j87351044866138_2_alg».proof.Proof.PairLogits

noncomputable section

namespace Cert.Hgcn

open Idealize.ShloMosaic

variable [Cert.KernelIdeal.Facts₀] [Cert.ReferenceIdeal.Facts₀]

/-- Layer 0: the left and right 128 columns of the one halved product are half the two relations' dense maps, and
    a layer fed the halved maps in the kernel's arrangement is the reference's layer. -/
theorem kerH_eq (x : FVec Ideal Cert.KernelIdeal.S50000x256 .f32) (e1 e2 : IVec Cert.ReferenceIdeal.S2x1000000 32)
    (W4 : FVec Ideal Cert.KernelIdeal.S256x128 .f32) (b5 : FVec Ideal Cert.ReferenceIdeal.S128 .f32)
    (W6 : FVec Ideal Cert.KernelIdeal.S256x128 .f32) (b7 : FVec Ideal Cert.ReferenceIdeal.S128 .f32) :
    kerH x e1 e2 W4 b5 W6 b7 = refH x e1 e2 W4 b5 W6 b7 := by
  unfold kerH refH
  exact (congrArg₂ (fun A B => layerKer A B b5 b7 e1 e2) (left_slice_256 x W4 W6) (right_slice_256 x W4 W6)).trans
    (layer_law _ _ b5 b7 e1 e2)

/-- Layer 1: the same over the hidden features, whose weights have 128 rows. -/
theorem kerZ_eq (h : FVec Ideal Cert.KernelIdeal.S50000x128 .f32) (e1 e2 : IVec Cert.ReferenceIdeal.S2x1000000 32)
    (W8 : FVec Ideal Cert.KernelIdeal.S128x128 .f32) (b9 : FVec Ideal Cert.ReferenceIdeal.S128 .f32)
    (W10 : FVec Ideal Cert.KernelIdeal.S128x128 .f32) (b11 : FVec Ideal Cert.ReferenceIdeal.S128 .f32) :
    kerZ h e1 e2 W8 b9 W10 b11 = refZ h e1 e2 W8 b9 W10 b11 := by
  unfold kerZ refZ
  exact (congrArg₂ (fun A B => layerKer A B b9 b11 e1 e2) (left_slice_128 h W8 W10) (right_slice_128 h W8 W10)).trans
    (layer_law _ _ b9 b11 e1 e2)

/-- The link classifier: a pair's two partial scores, picked out of the per-node table and added, are the product of
    the pair's concatenated embeddings with the classifier's weights; the same bias and logistic follow on both sides. -/
theorem kerP_eq (z : FVec Ideal Cert.KernelIdeal.S50000x128 .f32) (e3 : IVec Cert.ReferenceIdeal.S2x131072 32)
    (Wc : FVec Ideal Cert.KernelIdeal.S256x2 .f32) (bc : FVec Ideal Cert.ReferenceIdeal.S2 .f32) :
    kerP z e3 Wc bc = refP z e3 Wc bc := by
  unfold kerP refP wcPair
  exact congrArg (probsOf · bc) (pair_logits z Wc (cand0 e3) (cand1 e3))

end Cert.Hgcn

end
-- ==== Proof.ModelEq.lean ====
/-
  The two arrangements of the whole model agree: layer by layer (`Bridge.lean`), the kernel's hidden features are the
  reference's, hence so are the node embeddings computed from them, hence so are the pair probabilities computed from
  those.
-/
import proofs.«116640_j87351044866138_2_alg».proof.Proof.Bridge

noncomputable section

namespace Cert.Hgcn

open Idealize.ShloMosaic

variable [Cert.KernelIdeal.Facts₀] [Cert.ReferenceIdeal.Facts₀]

/-- The node embeddings in the two arrangements. -/
theorem model_z (x : FVec Ideal Cert.KernelIdeal.S50000x256 .f32) (e1 e2 : IVec Cert.ReferenceIdeal.S2x1000000 32)
    (W4 : FVec Ideal Cert.KernelIdeal.S256x128 .f32) (b5 : FVec Ideal Cert.ReferenceIdeal.S128 .f32)
    (W6 : FVec Ideal Cert.KernelIdeal.S256x128 .f32) (b7 : FVec Ideal Cert.ReferenceIdeal.S128 .f32)
    (W8 : FVec Ideal Cert.KernelIdeal.S128x128 .f32) (b9 : FVec Ideal Cert.ReferenceIdeal.S128 .f32)
    (W10 : FVec Ideal Cert.KernelIdeal.S128x128 .f32) (b11 : FVec Ideal Cert.ReferenceIdeal.S128 .f32) :
    refZ (refH x e1 e2 W4 b5 W6 b7) e1 e2 W8 b9 W10 b11 = kerZ (kerH x e1 e2 W4 b5 W6 b7) e1 e2 W8 b9 W10 b11 := by
  rw [kerH_eq, kerZ_eq]

/-- The pair probabilities in the two arrangements. -/
theorem model_p (x : FVec Ideal Cert.KernelIdeal.S50000x256 .f32) (e1 e2 : IVec Cert.ReferenceIdeal.S2x1000000 32)
    (W4 : FVec Ideal Cert.KernelIdeal.S256x128 .f32) (b5 : FVec Ideal Cert.ReferenceIdeal.S128 .f32)
    (W6 : FVec Ideal Cert.KernelIdeal.S256x128 .f32) (b7 : FVec Ideal Cert.ReferenceIdeal.S128 .f32)
    (W8 : FVec Ideal Cert.KernelIdeal.S128x128 .f32) (b9 : FVec Ideal Cert.ReferenceIdeal.S128 .f32)
    (W10 : FVec Ideal Cert.KernelIdeal.S128x128 .f32) (b11 : FVec Ideal Cert.ReferenceIdeal.S128 .f32)
    (e3 : IVec Cert.ReferenceIdeal.S2x131072 32) (Wc : FVec Ideal Cert.KernelIdeal.S256x2 .f32)
    (bc : FVec Ideal Cert.ReferenceIdeal.S2 .f32) :
    refP (refZ (refH x e1 e2 W4 b5 W6 b7) e1 e2 W8 b9 W10 b11) e3 Wc bc
      = kerP (kerZ (kerH x e1 e2 W4 b5 W6 b7) e1 e2 W8 b9 W10 b11) e3 Wc bc := by
  rw [kerP_eq, kerZ_eq, kerH_eq]

end Cert.Hgcn

end
-- ==== Proof.lean ====
/-
  The certificate of a two-layer, two-relation graph convolution with a link classifier, computed by a kernel program
  (three pipelined matrix products among host operations) and by a plain reference program.

  What is shown, at the ideal instance (a float is an extended real, every operation exact, a change of float format the
  identity):
    * each program runs to the end from any memory, faults nowhere and leaves its fourteen arguments as launched
      (the kernel's two frames are the generated several-region frames; the reference's frame is its run read at the
      argument buffers, which no operation writes);
    * the idealization rewrote no operation, so there is nothing to preserve;
    * from memories that agree on the arguments the two programs end with the same node embeddings and the same pair
      probabilities, entry by entry. The kernel's results are the model in the kernel's arrangement
      (`KernelValue.lean`: its blockwise products are whole products, its host operations the named chains); the
      reference's results are the model in the reference's arrangement (`RefValue.lean`); and the two arrangements
      agree (`ModelEq.lean`): the kernel halves the weights and the bias sum before aggregating where the reference
      halves the sum of the two relations afterwards — multiplication by one half distributes over sums of extended
      reals whatever the summands — and the kernel scores each node against the classifier's two weight halves once
      and adds a pair's two partial scores where the reference multiplies the pair's concatenated embeddings — a sum
      over 256 split at 128. No entry has to be finite for either law, so the precondition is never opened.
-/
import proofs.«116640_j87351044866138_2_alg».proof.Defs
import proofs.«116640_j87351044866138_2_alg».proof.Proof.Gen.Kernel
import proofs.«116640_j87351044866138_2_alg».proof.Proof.Gen.Kernel.Skeleton
import proofs.«116640_j87351044866138_2_alg».proof.Proof.Gen.Kernel.Launch
import proofs.«116640_j87351044866138_2_alg».proof.Proof.Gen.Kernel.Points
import proofs.«116640_j87351044866138_2_alg».proof.Proof.Gen.Kernel.Frame
import proofs.«116640_j87351044866138_2_alg».proof.Proof.Gen.KernelIdeal
import proofs.«116640_j87351044866138_2_alg».proof.Proof.Gen.KernelIdeal.Skeleton
import proofs.«116640_j87351044866138_2_alg».proof.Proof.Gen.KernelIdeal.Launch
import proofs.«116640_j87351044866138_2_alg».proof.Proof.Gen.KernelIdeal.Points
import proofs.«116640_j87351044866138_2_alg».proof.Proof.Gen.KernelIdeal.Frame
import proofs.«116640_j87351044866138_2_alg».proof.Proof.Gen.ReferenceIdeal
import proofs.«116640_j87351044866138_2_alg».proof.Proof.Gen.Pre_finite_inputs
import proofs.«116640_j87351044866138_2_alg».proof.Proof.KernelRun
import proofs.«116640_j87351044866138_2_alg».proof.Proof.KernelValue
import proofs.«116640_j87351044866138_2_alg».proof.Proof.RefValue
import proofs.«116640_j87351044866138_2_alg».proof.Proof.RefArgs
import proofs.«116640_j87351044866138_2_alg».proof.Proof.RefTail
import proofs.«116640_j87351044866138_2_alg».proof.Proof.ModelEq
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, read at the argument buffers. -/
theorem frame_referenceIdeal : Cert.frame_ReferenceIdeal := fun m ρ _ =>
  (θ_run Cert.ReferenceIdeal.defs _ _).mono (fun _ h c =>
     ⟨(h c _).trans (Cert.ReferenceIdeal.RefValue.ref_arg0 m c),
      (h c _).trans (Cert.ReferenceIdeal.RefValue.ref_arg1 m c),
      (h c _).trans (Cert.ReferenceIdeal.RefValue.ref_arg2 m c),
      (h c _).trans (Cert.ReferenceIdeal.RefValue.ref_arg3 m c),
      (h c _).trans (Cert.ReferenceIdeal.RefValue.ref_arg4 m c),
      (h c _).trans (Cert.ReferenceIdeal.RefValue.ref_arg5 m c),
      (h c _).trans (Cert.ReferenceIdeal.RefValue.ref_arg6 m c),
      (h c _).trans (Cert.ReferenceIdeal.RefValue.ref_arg7 m c),
      (h c _).trans (Cert.ReferenceIdeal.RefValue.ref_arg8 m c),
      (h c _).trans (Cert.ReferenceIdeal.RefValue.ref_arg9 m c),
      (h c _).trans (Cert.ReferenceIdeal.RefValue.ref_arg10 m c),
      (h c _).trans (Cert.ReferenceIdeal.RefValue.ref_arg11 m c),
      (h c _).trans (Cert.ReferenceIdeal.RefValue.ref_arg12 m c),
      (h c _).trans (Cert.ReferenceIdeal.RefValue.ref_arg13 m c)⟩)
    (Cert.ReferenceIdeal.RunP.run_all (F := Ideal) m ρ)

/-- The idealization rewrote no operation. -/
theorem preserves : Cert.preserves_Kernel_KernelIdeal := trivial

/-- From memories agreeing on the arguments both programs end with the model's node embeddings and pair
    probabilities of those arguments. -/
theorem algebraic : Cert.algebraic_KernelIdeal_ReferenceIdeal := by
  intro m ρ m' ρ' _ hagree
  refine ⟨fun c => Cert.KernelIdeal.KernelValue.zK m c, fun c => Cert.KernelIdeal.KernelValue.pK m c, ?_, ?_⟩
  · exact (θ_run Cert.KernelIdeal.defs _ _).mono (fun r h c =>
      ⟨(h c).1.trans (Cert.KernelIdeal.KernelValue.W15_z m ρ c), (h c).2.1.trans (Cert.KernelIdeal.KernelValue.W15_p m ρ c), (h c).2.2⟩)
      (Cert.KernelIdeal.Gen.run_named (F := Ideal) m ρ)
  · refine (θ_run Cert.ReferenceIdeal.defs _ _).mono (fun r h c => ?_) (Cert.ReferenceIdeal.RunP.run_all (F := Ideal) m' ρ')
    obtain ⟨g0, g1, g2, g3, g4, g5, g6, g7, g8, g9, g10, g11, g12, g13⟩ := hagree c
    refine ⟨(h c _).trans ((Cert.ReferenceIdeal.RefValue.ref_z m' c).trans ?_), (h c _).trans ((Cert.ReferenceIdeal.RefValue.ref_p_of_z m' c _ ((Cert.ReferenceIdeal.RefValue.ref_z_take m' c).symm.trans (Cert.ReferenceIdeal.RefValue.ref_z m' c))).trans ?_),
      (h c _).trans (Cert.ReferenceIdeal.RefValue.ref_arg0 m' c),
      (h c _).trans (Cert.ReferenceIdeal.RefValue.ref_arg1 m' c),
      (h c _).trans (Cert.ReferenceIdeal.RefValue.ref_arg2 m' c),
      (h c _).trans (Cert.ReferenceIdeal.RefValue.ref_arg3 m' c),
      (h c _).trans (Cert.ReferenceIdeal.RefValue.ref_arg4 m' c),
      (h c _).trans (Cert.ReferenceIdeal.RefValue.ref_arg5 m' c),
      (h c _).trans (Cert.ReferenceIdeal.RefValue.ref_arg6 m' c),
      (h c _).trans (Cert.ReferenceIdeal.RefValue.ref_arg7 m' c),
      (h c _).trans (Cert.ReferenceIdeal.RefValue.ref_arg8 m' c),
      (h c _).trans (Cert.ReferenceIdeal.RefValue.ref_arg9 m' c),
      (h c _).trans (Cert.ReferenceIdeal.RefValue.ref_arg10 m' c),
      (h c _).trans (Cert.ReferenceIdeal.RefValue.ref_arg11 m' c),
      (h c _).trans (Cert.ReferenceIdeal.RefValue.ref_arg12 m' c),
      (h c _).trans (Cert.ReferenceIdeal.RefValue.ref_arg13 m' c)⟩
    · rw [g0, g1, g2, g4, g5, g6, g7, g8, g9, g10, g11]
      exact Cert.Hgcn.model_z _ _ _ _ _ _ _ _ _ _ _
    · rw [g0, g1, g2, g3, g4, g5, g6, g7, g8, g9, g10, g11, g12, g13]
      exact Cert.Hgcn.model_p _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
